-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x2000000 : Shape := ⟨2, ![2, 2000000]⟩
abbrev S32x5 : Shape := ⟨2, ![32, 5]⟩
abbrev S32 : Shape := ⟨1, ![32]⟩
abbrev S3x32x32 : Shape := ⟨3, ![3, 32, 32]⟩
abbrev S3x32 : Shape := ⟨2, ![3, 32]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S32x5 : S_.BroadcastsInDim S32x5 (![] : Fin 0 → Fin S32x5.rank)
  reducesTo_S32x5_S_d0_1 : S32x5.ReducesTo [0, 1] S_
  bcast_S_S32 : S_.BroadcastsInDim S32 (![] : Fin 0 → Fin S32.rank)
  reducesTo_S32_S_d0 : S32.ReducesTo [0] S_
  bcast_S_S3x32x32 : S_.BroadcastsInDim S3x32x32 (![] : Fin 0 → Fin S3x32x32.rank)
  reducesTo_S3x32x32_S_d0_1_2 : S3x32x32.ReducesTo [0, 1, 2] S_
  bcast_S_S3x32 : S_.BroadcastsInDim S3x32 (![] : Fin 0 → Fin S3x32.rank)
  reducesTo_S3x32_S_d0_1 : S3x32.ReducesTo [0, 1] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg5 : FVec F S3x32 .f32) (main_arg6 : FVec F S3x32x32 .f32) (main_arg7 : FVec F S32 .f32) (main_arg8 : FVec F S32 .f32) (main_v13 : IVec S_ 1) (main_v16 : IVec S3x32x32 1) : IVec S_ 1 :=
  let main_c_5 : IVec S_ 1 := constantI S_ 1 1#1
  let main_v17 : IVec S_ 1 := (fun x v => Host.reduce IntOp.andi x v reducesTo_S3x32x32_S_d0_1_2 h_S_) main_v16 main_c_5
  let main_v18 : IVec S_ 1 := andi main_v13 main_v17
  let main_v19 : FVec F S3x32 .f32 := Host.absf main_arg5
  let main_cst_6 : FVec F S_ .f32 := constant S_ .f32 0x7F800000#32
  let main_v20 : FVec F S3x32 .f32 := broadcastInDim S3x32 ![] bcast_S_S3x32 main_cst_6
  let main_v21 : IVec S3x32 1 := cmpf .olt main_v19 main_v20
  let main_c_7 : IVec S_ 1 := constantI S_ 1 1#1
  let main_v22 : IVec S_ 1 := (fun x v => Host.reduce IntOp.andi x v reducesTo_S3x32_S_d0_1 h_S_) main_v21 main_c_7
  let main_v23 : IVec S_ 1 := andi main_v18 main_v22
  let main_v24 : FVec F S3x32x32 .f32 := Host.absf main_arg6
  let main_cst_8 : FVec F S_ .f32 := constant S_ .f32 0x7F800000#32
  let main_v25 : FVec F S3x32x32 .f32 := broadcastInDim S3x32x32 ![] bcast_S_S3x32x32 main_cst_8
  let main_v26 : IVec S3x32x32 1 := cmpf .olt main_v24 main_v25
  let main_c_9 : IVec S_ 1 := constantI S_ 1 1#1
  let main_v27 : IVec S_ 1 := (fun x v => Host.reduce IntOp.andi x v reducesTo_S3x32x32_S_d0_1_2 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_v33

def fn {F : FTy → Type} [FloatOps F] (main_arg0 : FVec F S100000x5 .f32) (main_arg1 : IVec S2x2000000 32) (main_arg2 : FVec F S32x5 .f32) (main_arg3 : FVec F S32 .f32) (main_arg4 : FVec F S3x32x32 .f32) (main_arg5 : FVec F S3x32 .f32) (main_arg6 : FVec F S3x32x32 .f32) (main_arg7 : FVec F S32 .f32) (main_arg8 : FVec F S32 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S32x5 .f32 := Host.absf main_arg2
  let main_cst_0 : FVec F S_ .f32 := constant S_ .f32 0x7F800000#32
  let main_v5 : FVec F S32x5 .f32 := broadcastInDim S32x5 ![] bcast_S_S32x5 main_cst_0
  let main_v6 : IVec S32x5 1 := cmpf .olt main_v4 main_v5
  let main_c_1 : IVec S_ 1 := constantI S_ 1 1#1
  let main_v7 : IVec S_ 1 := (fun x v => Host.reduce IntOp.andi x v reducesTo_S32x5_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S3x32x32 .f32 := Host.absf main_arg4
  let main_cst_4 : FVec F S_ .f32 := constant S_ .f32 0x7F800000#32
  let main_v15 : FVec F S3x32x32 .f32 := broadcastInDim S3x32x32 ![] bcast_S_S3x32x32 main_cst_4
  let main_v16 : IVec S3x32x32 1 := cmpf .olt main_v14 main_v15
  fn_part1 (F := F) main_arg5 main_arg6 main_arg7 main_arg8 main_v13 main_v16
-- ==== Kernel.lean ====
abbrev S100000x5 : Shape := ⟨2, ![100000, 5]⟩
abbrev S2x2000000 : Shape := ⟨2, ![2, 2000000]⟩
abbrev S32x5 : Shape := ⟨2, ![32, 5]⟩
abbrev S32 : Shape := ⟨1, ![32]⟩
abbrev S3x32x32 : Shape := ⟨3, ![3, 32, 32]⟩
abbrev S3x32 : Shape := ⟨2, ![3, 32]⟩
abbrev S1x2000000 : Shape := ⟨2, ![1, 2000000]⟩
abbrev S2000000 : Shape := ⟨1, ![2000000]⟩
abbrev S_ : Shape := ⟨0, ![]⟩
abbrev S100000 : Shape := ⟨1, ![100000]⟩
abbrev S2000000x1 : Shape := ⟨2, ![2000000, 1]⟩
abbrev S100000x1 : Shape := ⟨2, ![100000, 1]⟩
abbrev S5x32 : Shape := ⟨2, ![5, 32]⟩
abbrev S100000x32 : Shape := ⟨2, ![100000, 32]⟩
abbrev S1x32 : Shape := ⟨2, ![1, 32]⟩
abbrev S2000000x32 : Shape := ⟨2, ![2000000, 32]⟩
abbrev S1x32x32 : Shape := ⟨3, ![1, 32, 32]⟩
abbrev S32x32 : Shape := ⟨2, ![32, 32]⟩
abbrev S10000x32 : Shape := ⟨2, ![10000, 32]⟩
abbrev S10000 : Shape := ⟨1, ![10000]⟩
abbrev S10000x1 : Shape := ⟨2, ![10000, 1]⟩

abbrev nBuf : Space → Nat
  | .hbm => 108
  | .vmem => 33
  | .smem => 0
  | _ => 0

abbrev bufTy : (tb : Table) → Fin (tcTables nBuf tb) → BufTy
  | .hbm, ⟨0, _⟩ => ⟨S100000x5, .f32⟩
  | .hbm, ⟨1, _⟩ => ⟨S2x2000000, .i32⟩
  | .hbm, ⟨2, _⟩ => ⟨S32x5, .f32⟩
  | .hbm, ⟨3, _⟩ => ⟨S32, .f32⟩
  | .hbm, ⟨4, _⟩ => ⟨S3x32x32, .f32⟩
  | .hbm, ⟨5, _⟩ => ⟨S3x32, .f32⟩
  | .hbm, ⟨6, _⟩ => ⟨S3x32x32, .f32⟩
  | .hbm, ⟨7, _⟩ => ⟨S32, .f32⟩
  | .hbm, ⟨8, _⟩ => ⟨S32, .f32⟩
  | .hbm, ⟨9, _⟩ => ⟨S1x2000000, .i32⟩
  | .hbm, ⟨10, _⟩ => ⟨S2000000, .i32⟩
  | .hbm, ⟨11, _⟩ => ⟨S1x2000000, .i32⟩
  | .hbm, ⟨12, _⟩ => ⟨S2000000, .i32⟩
  | .hbm, ⟨13, _⟩ => ⟨S_, .f32⟩
  | .hbm, ⟨14, _⟩ => ⟨S2000000, .f32⟩
  | .hbm, ⟨15, _⟩ => ⟨S_, .f32⟩
  | .hbm, ⟨16, _⟩ => ⟨S100000, .f32⟩
  | .hbm, ⟨17, _⟩ => ⟨S2000000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S5x32, .f32⟩
  | .hbm, ⟨27, _⟩ => ⟨S100000x32, .f32⟩
  | .hbm, ⟨28, _⟩ => ⟨S1x32, .f32⟩
  | .hbm, ⟨29, _⟩ => ⟨S100000x32, .f32⟩
  | .hbm, ⟨30, _⟩ => ⟨S100000x32, .f32⟩
  | .hbm, ⟨31, _⟩ => ⟨S1x32, .f32⟩
  | .hbm, ⟨32, _⟩ => ⟨S1x32, .f32⟩
  | .hbm, ⟨33, _⟩ => ⟨S_, .i32⟩
  | .hbm, ⟨34, _⟩ => ⟨S2000000, .i32⟩
  | .hbm, ⟨35, _⟩ => ⟨S2000000, .i1⟩
  | .hbm, ⟨36, _⟩ => ⟨S_, .i32⟩
  | .hbm, ⟨37, _⟩ => ⟨S2000000, .i32⟩
  | .hbm, ⟨38, _⟩ => ⟨S2000000, .i32⟩
  | .hbm, ⟨39, _⟩ => ⟨S2000000, .i32⟩
  | .hbm, ⟨40, _⟩ => ⟨S2000000x1, .i32⟩
  | .hbm, ⟨41, _⟩ => ⟨S2000000x32, .f32⟩
  | .hbm, ⟨42, _⟩ => ⟨S_, .f32⟩
  | .hbm, ⟨43, _⟩ => ⟨S100000x32, .f32⟩
  | .hbm, ⟨44, _⟩ => ⟨S2000000x1, .i32⟩
  | .hbm, ⟨45, _⟩ => ⟨S100000x32, .f32⟩
  | .hbm, ⟨46, _⟩ => ⟨S100000x32, .f32⟩
  | .hbm, ⟨47, _⟩ => ⟨S100000x32, .f32⟩
  | .hbm, ⟨48, _⟩ => ⟨S1x32x32, .f32⟩
  | .hbm, ⟨49, _⟩ => ⟨S32x32, .f32⟩
  | .hbm, ⟨50, _⟩ => ⟨S32x32, .f32⟩
  | .hbm, ⟨51, _⟩ => ⟨S1x32x32, .f32⟩
  | .hbm, ⟨52, _⟩ => ⟨S32x32, .f32⟩
  | .hbm, ⟨53, _⟩ => ⟨S32x32, .f32⟩
  | .hbm, ⟨54, _⟩ => ⟨S1x32, .f32⟩
  | .hbm, ⟨55, _⟩ => ⟨S32, .f32⟩
  | .hbm, ⟨56, _⟩ => ⟨S1x32, .f32⟩
  | .hbm, ⟨57, _⟩ => ⟨S100000x32, .f32⟩
  | .hbm, ⟨58, _⟩ => ⟨S_, .i32⟩
  | .hbm, ⟨59, _⟩ => ⟨S2000000, .i32⟩
  | .hbm, ⟨60, _⟩ => ⟨S2000000, .i1⟩
  | .hbm, ⟨61, _⟩ => ⟨S_, .i32⟩
  | .hbm, ⟨62, _⟩ => ⟨S2000000, .i32⟩
  | .hbm, ⟨63, _⟩ => ⟨S2000000, .i32⟩
  | .hbm, ⟨64, _⟩ => ⟨S2000000, .i32⟩
  | .hbm, ⟨65, _⟩ => ⟨S2000000x1, .i32⟩
  | .hbm, ⟨66, _⟩ => ⟨S2000000x32, .f32⟩
  | .hbm, ⟨67, _⟩ => ⟨S_, .f32⟩
  | .hbm, ⟨68, _⟩ => ⟨S100000x32, .f32⟩
  | .hbm, ⟨69, _⟩ => ⟨S2000000x1, .i32⟩
  | .hbm, ⟨70, _⟩ => ⟨S100000x32, .f32⟩
  | .hbm, ⟨71, _⟩ => ⟨S100000x32, .f32⟩
  | .hbm, ⟨72, _⟩ => ⟨S100000x32, .f32⟩
  | .hbm, ⟨73, _⟩ => ⟨S1x32x32, .f32⟩
  | .hbm, ⟨74, _⟩ => ⟨S32x32, .f32⟩
  | .hbm, ⟨75, _⟩ => ⟨S32x32, .f32⟩
  | .hbm, ⟨76, _⟩ => ⟨S1x32x32, .f32⟩
  | .hbm, ⟨77, _⟩ => ⟨S32x32, .f32⟩
  | .hbm, ⟨78, _⟩ => ⟨S32x32, .f32⟩
  | .hbm, ⟨79, _⟩ => ⟨S1x32, .f32⟩
  | .hbm, ⟨80, _⟩ => ⟨S32, .f32⟩
  | .hbm, ⟨81, _⟩ => ⟨S1x32, .f32⟩
  | .hbm, ⟨82, _⟩ => ⟨S100000x32, .f32⟩
  | .hbm, ⟨83, _⟩ => ⟨S_, .i32⟩
  | .hbm, ⟨84, _⟩ => ⟨S2000000, .i32⟩
  | .hbm, ⟨85, _⟩ => ⟨S2000000, .i1⟩
  | .hbm, ⟨86, _⟩ => ⟨S_, .i32⟩
  | .hbm, ⟨87, _⟩ => ⟨S2000000, .i32⟩
  | .hbm, ⟨88, _⟩ => ⟨S2000000, .i32⟩
  | .hbm, ⟨89, _⟩ => ⟨S2000000, .i32⟩
  | .hbm, ⟨90, _⟩ => ⟨S2000000x1, .i32⟩
  | .hbm, ⟨91, _⟩ => ⟨S2000000x32, .f32⟩
  | .hbm, ⟨92, _⟩ => ⟨S_, .f32⟩
  | .hbm, ⟨93, _⟩ => ⟨S100000x32, .f32⟩
  | .hbm, ⟨94, _⟩ => ⟨S2000000x1, .i32⟩
  | .hbm, ⟨95, _⟩ => ⟨S100000x32, .f32⟩
  | .hbm, ⟨96, _⟩ => ⟨S100000x32, .f32⟩
  | .hbm, ⟨97, _⟩ => ⟨S100000x32, .f32⟩
  | .hbm, ⟨98, _⟩ => ⟨S1x32x32, .f32⟩
  | .hbm, ⟨99, _⟩ => ⟨S32x32, .f32⟩
  | .hbm, ⟨100, _⟩ => ⟨S32x32, .f32⟩
  | .hbm, ⟨101, _⟩ => ⟨S1x32x32, .f32⟩
  | .hbm, ⟨102, _⟩ => ⟨S32x32, .f32⟩
  | .hbm, ⟨103, _⟩ => ⟨S32x32, .f32⟩
  | .hbm, ⟨104, _⟩ => ⟨S1x32, .f32⟩
  | .hbm, ⟨105, _⟩ => ⟨S32, .f32⟩
  | .hbm, ⟨106, _⟩ => ⟨S1x32, .f32⟩
  | .hbm, ⟨107, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S32x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S1x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S32x32, .f32⟩
  | .local _ .vmem, ⟨16, _⟩ => ⟨S1x32, .f32⟩
  | .local _ .vmem, ⟨17, _⟩ => ⟨S32x32, .f32⟩
  | .local _ .vmem, ⟨18, _⟩ => ⟨S1x32, .f32⟩
  | .local _ .vmem, ⟨19, _⟩ => ⟨S1x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S32x32, .f32⟩
  | .local _ .vmem, ⟨27, _⟩ => ⟨S1x32, .f32⟩
  | .local _ .vmem, ⟨28, _⟩ => ⟨S32x32, .f32⟩
  | .local _ .vmem, ⟨29, _⟩ => ⟨S1x32, .f32⟩
  | .local _ .vmem, ⟨30, _⟩ => ⟨S1x32, .f32⟩
  | .local _ .vmem, ⟨31, _⟩ => ⟨S10000x32, .f32⟩
  | .local _ .vmem, ⟨32, _⟩ => ⟨S10000x32, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_8 : Ref sig .tc := ⟨.hbm, 83, rfl⟩
abbrev main_v64 : Ref sig .tc := ⟨.hbm, 84, rfl⟩
abbrev main_v65 : Ref sig .tc := ⟨.hbm, 85, rfl⟩
abbrev main_c_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  bcast_S100000_S100000x1_0 : S100000.BroadcastsInDim S100000x1 (![0] : Fin 1 → Fin S100000x1.rank)
  transposes_S32x5_S5x32_1_0 : S32x5.Transposes [1, 0] S5x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S32_S1x32 : S32.ShapeCasts S1x32
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  slices_S3x32x32_S1x32x32_0_0_0 : S3x32x32.Slices ![0, 0, 0] S1x32x32
  shapeCasts_S1x32x32_S32x32 : S1x32x32.ShapeCasts S32x32
  transposes_S32x32_S32x32_1_0 : S32x32.Transposes [1, 0] S32x32
  slices_S3x32_S1x32_0_0 : S3x32.Slices ![0, 0] S1x32
  shapeCasts_S1x32_S32 : S1x32.ShapeCasts S32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  slices_S3x32x32_S1x32x32_1_0_0 : S3x32x32.Slices ![1, 0, 0] S1x32x32
  slices_S3x32_S1x32_1_0 : S3x32.Slices ![1, 0] S1x32
  slices_S3x32x32_S1x32x32_2_0_0 : S3x32x32.Slices ![2, 0, 0] S1x32x32
  slices_S3x32_S1x32_2_0 : S3x32.Slices ![2, 0] S1x32
  scatter_S100000_S2000000x1_S2000000_n_0_0_1_wf : ScatterDims.WF S100000 S2000000x1 S2000000 [] [0] [0] 1
  dot_S100000x5_S5x32_S100000x32_1_0_0_1_n_n_wf : DotDims.WF S100000x5 S5x32 S100000x32 [1] [0] [0] [1] [] []
  gather_S100000x32_S2000000x1_S2000000x32_1_0_n_n_0_1_132_wf : GatherDims.WF S100000x32 S2000000x1 S2000000x32 [1] [0] [] [0] [] 1 ![1, 32]
  scatter_S100000x32_S2000000x1_S2000000x32_1_0_0_1_wf : ScatterDims.WF S100000x32 S2000000x1 S2000000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x32.size a ≤ S100000x32.size a
  hwx0_7 : ∀ i : grid0.Coords, EltTy.bits .f32 = 32 ∨ (Rect.block (s := S100000x32) S10000x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x32.size a ≤ S100000x32.size a
  hwx1_7 : ∀ i : grid1.Coords, EltTy.bits .f32 = 32 ∨ (Rect.block (s := S100000x32) S10000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x32.size a ≤ S100000x32.size a
  hwx2_7 : ∀ i : grid2.Coords, EltTy.bits .f32 = 32 ∨ (Rect.block (s := S100000x32) S10000x32.size (cc2_transform_7 i) (hinb2_7 i)).WholeWords (EltTy.packing .f32)

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x5_S5x32_S100000x32_1_0_0_1_n_n : DotDims S100000x5 S5x32 S100000x32 where
  lhsContracting := [1]
  rhsContracting := [0]
  lhsNonContracting := [0]
  rhsNonContracting := [1]
  lhsBatch := []
  rhsBatch := []
  wf := dot_S100000x5_S5x32_S100000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_v31) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S10000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v53) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v63) S10000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v75) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v78) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v84) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v85) S10000x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x5 : Shape := ⟨2, ![100000, 5]⟩
abbrev S2x2000000 : Shape := ⟨2, ![2, 2000000]⟩
abbrev S32x5 : Shape := ⟨2, ![32, 5]⟩
abbrev S32 : Shape := ⟨1, ![32]⟩
abbrev S3x32x32 : Shape := ⟨3, ![3, 32, 32]⟩
abbrev S3x32 : Shape := ⟨2, ![3, 32]⟩
abbrev S1x2000000 : Shape := ⟨2, ![1, 2000000]⟩
abbrev S2000000 : Shape := ⟨1, ![2000000]⟩
abbrev S_ : Shape := ⟨0, ![]⟩
abbrev S100000 : Shape := ⟨1, ![100000]⟩
abbrev S2000000x1 : Shape := ⟨2, ![2000000, 1]⟩
abbrev S100000x1 : Shape := ⟨2, ![100000, 1]⟩
abbrev S5x32 : Shape := ⟨2, ![5, 32]⟩
abbrev S100000x32 : Shape := ⟨2, ![100000, 32]⟩
abbrev S1x32 : Shape := ⟨2, ![1, 32]⟩
abbrev S2000000x32 : Shape := ⟨2, ![2000000, 32]⟩
abbrev S1x32x32 : Shape := ⟨3, ![1, 32, 32]⟩
abbrev S32x32 : Shape := ⟨2, ![32, 32]⟩

abbrev nBuf : Space → Nat
  | .hbm => 214
  | .vmem => 0
  | .smem => 0
  | _ => 0

abbrev hbmTy0_0 (i : Nat) : BufTy := match i % 128 with
  | 0 => ⟨S100000x5, .f32⟩
  | 1 => ⟨S2x2000000, .i32⟩
  | 2 => ⟨S32x5, .f32⟩
  | 3 => ⟨S32, .f32⟩
  | 4 => ⟨S3x32x32, .f32⟩
  | 5 => ⟨S3x32, .f32⟩
  | 6 => ⟨S3x32x32, .f32⟩
  | 7 => ⟨S32, .f32⟩
  | 8 => ⟨S32, .f32⟩
  | 9 => ⟨S1x2000000, .i32⟩
  | 10 => ⟨S2000000, .i32⟩
  | 11 => ⟨S1x2000000, .i32⟩
  | 12 => ⟨S2000000, .i32⟩
  | 13 => ⟨S_, .f32⟩
  | 14 => ⟨S2000000, .f32⟩
  | 15 => ⟨S_, .f32⟩
  | 16 => ⟨S100000, .f32⟩
  | 17 => ⟨S2000000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S100000x1, .f32⟩
  | 26 => ⟨S5x32, .f32⟩
  | 27 => ⟨S100000x32, .f32⟩
  | 28 => ⟨S1x32, .f32⟩
  | 29 => ⟨S100000x32, .f32⟩
  | 30 => ⟨S100000x32, .f32⟩
  | 31 => ⟨S_, .i32⟩
  | 32 => ⟨S2000000, .i32⟩
  | 33 => ⟨S2000000, .i1⟩
  | 34 => ⟨S_, .i32⟩
  | 35 => ⟨S2000000, .i32⟩
  | 36 => ⟨S2000000, .i32⟩
  | 37 => ⟨S2000000, .i32⟩
  | 38 => ⟨S2000000x1, .i32⟩
  | 39 => ⟨S2000000x32, .f32⟩
  | 40 => ⟨S_, .f32⟩
  | 41 => ⟨S100000x32, .f32⟩
  | 42 => ⟨S2000000x1, .i32⟩
  | 43 => ⟨S100000x32, .f32⟩
  | 44 => ⟨S100000x32, .f32⟩
  | 45 => ⟨S100000x32, .f32⟩
  | 46 => ⟨S1x32x32, .f32⟩
  | 47 => ⟨S32x32, .f32⟩
  | 48 => ⟨S32x32, .f32⟩
  | 49 => ⟨S100000x32, .f32⟩
  | 50 => ⟨S1x32, .f32⟩
  | 51 => ⟨S32, .f32⟩
  | 52 => ⟨S1x32, .f32⟩
  | 53 => ⟨S100000x32, .f32⟩
  | 54 => ⟨S100000x32, .f32⟩
  | 55 => ⟨S1x32x32, .f32⟩
  | 56 => ⟨S32x32, .f32⟩
  | 57 => ⟨S32x32, .f32⟩
  | 58 => ⟨S100000x32, .f32⟩
  | 59 => ⟨S100000x32, .f32⟩
  | 60 => ⟨S_, .f32⟩
  | 61 => ⟨S100000x32, .f32⟩
  | 62 => ⟨S100000x32, .f32⟩
  | 63 => ⟨S_, .f32⟩
  | 64 => ⟨S100000, .f32⟩
  | 65 => ⟨S100000x1, .f32⟩
  | 66 => ⟨S_, .f32⟩
  | 67 => ⟨S100000x1, .f32⟩
  | 68 => ⟨S100000x1, .f32⟩
  | 69 => ⟨S100000x32, .f32⟩
  | 70 => ⟨S100000x32, .f32⟩
  | 71 => ⟨S100000x32, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S100000x32, .f32⟩
  | 79 => ⟨S100000x32, .f32⟩
  | 80 => ⟨S_, .f32⟩
  | 81 => ⟨S100000x1, .f32⟩
  | 82 => ⟨S100000x1, .f32⟩
  | 83 => ⟨S100000x1, .f32⟩
  | 84 => ⟨S100000x32, .f32⟩
  | 85 => ⟨S100000x32, .f32⟩
  | 86 => ⟨S1x32, .f32⟩
  | 87 => ⟨S100000x32, .f32⟩
  | 88 => ⟨S100000x32, .f32⟩
  | 89 => ⟨S1x32, .f32⟩
  | 90 => ⟨S100000x32, .f32⟩
  | 91 => ⟨S100000x32, .f32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S2000000x1, .i32⟩
  | 100 => ⟨S2000000x32, .f32⟩
  | 101 => ⟨S_, .f32⟩
  | 102 => ⟨S100000x32, .f32⟩
  | 103 => ⟨S2000000x1, .i32⟩
  | 104 => ⟨S100000x32, .f32⟩
  | 105 => ⟨S100000x32, .f32⟩
  | 106 => ⟨S100000x32, .f32⟩
  | 107 => ⟨S1x32x32, .f32⟩
  | 108 => ⟨S32x32, .f32⟩
  | 109 => ⟨S32x32, .f32⟩
  | 110 => ⟨S100000x32, .f32⟩
  | 111 => ⟨S1x32, .f32⟩
  | 112 => ⟨S32, .f32⟩
  | 113 => ⟨S1x32, .f32⟩
  | 114 => ⟨S100000x32, .f32⟩
  | 115 => ⟨S100000x32, .f32⟩
  | 116 => ⟨S1x32x32, .f32⟩
  | 117 => ⟨S32x32, .f32⟩
  | 118 => ⟨S32x32, .f32⟩
  | 119 => ⟨S100000x32, .f32⟩
  | 120 => ⟨S100000x32, .f32⟩
  | 121 => ⟨S_, .f32⟩
  | 122 => ⟨S100000x32, .f32⟩
  | 123 => ⟨S100000x32, .f32⟩
  | 124 => ⟨S_, .f32⟩
  | 125 => ⟨S100000, .f32⟩
  | 126 => ⟨S100000x1, .f32⟩
  | 127 => ⟨S_, .f32⟩
  | _ => ⟨S100000x5, .f32⟩

abbrev hbmTy0_1 (i : Nat) : BufTy := match i % 128 with
  | 0 => ⟨S100000x1, .f32⟩
  | 1 => ⟨S100000x1, .f32⟩
  | 2 => ⟨S100000x32, .f32⟩
  | 3 => ⟨S100000x32, .f32⟩
  | 4 => ⟨S100000x32, .f32⟩
  | 5 => ⟨S_, .f32⟩
  | 6 => ⟨S100000, .f32⟩
  | 7 => ⟨S100000x1, .f32⟩
  | 8 => ⟨S_, .f32⟩
  | 9 => ⟨S100000x1, .f32⟩
  | 10 => ⟨S100000x1, .f32⟩
  | 11 => ⟨S100000x32, .f32⟩
  | 12 => ⟨S100000x32, .f32⟩
  | 13 => ⟨S_, .f32⟩
  | 14 => ⟨S100000x1, .f32⟩
  | 15 => ⟨S100000x1, .f32⟩
  | 16 => ⟨S100000x1, .f32⟩
  | 17 => ⟨S100000x32, .f32⟩
  | 18 => ⟨S100000x32, .f32⟩
  | 19 => ⟨S1x32, .f32⟩
  | 20 => ⟨S100000x32, .f32⟩
  | 21 => ⟨S100000x32, .f32⟩
  | 22 => ⟨S1x32, .f32⟩
  | 23 => ⟨S100000x32, .f32⟩
  | 24 => ⟨S100000x32, .f32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S2000000x1, .i32⟩
  | 33 => ⟨S2000000x32, .f32⟩
  | 34 => ⟨S_, .f32⟩
  | 35 => ⟨S100000x32, .f32⟩
  | 36 => ⟨S2000000x1, .i32⟩
  | 37 => ⟨S100000x32, .f32⟩
  | 38 => ⟨S100000x32, .f32⟩
  | 39 => ⟨S100000x32, .f32⟩
  | 40 => ⟨S1x32x32, .f32⟩
  | 41 => ⟨S32x32, .f32⟩
  | 42 => ⟨S32x32, .f32⟩
  | 43 => ⟨S100000x32, .f32⟩
  | 44 => ⟨S1x32, .f32⟩
  | 45 => ⟨S32, .f32⟩
  | 46 => ⟨S1x32, .f32⟩
  | 47 => ⟨S100000x32, .f32⟩
  | 48 => ⟨S100000x32, .f32⟩
  | 49 => ⟨S1x32x32, .f32⟩
  | 50 => ⟨S32x32, .f32⟩
  | 51 => ⟨S32x32, .f32⟩
  | 52 => ⟨S100000x32, .f32⟩
  | 53 => ⟨S100000x32, .f32⟩
  | 54 => ⟨S_, .f32⟩
  | 55 => ⟨S100000x32, .f32⟩
  | 56 => ⟨S100000x32, .f32⟩
  | 57 => ⟨S_, .f32⟩
  | 58 => ⟨S100000, .f32⟩
  | 59 => ⟨S100000x1, .f32⟩
  | 60 => ⟨S_, .f32⟩
  | 61 => ⟨S100000x1, .f32⟩
  | 62 => ⟨S100000x1, .f32⟩
  | 63 => ⟨S100000x32, .f32⟩
  | 64 => ⟨S100000x32, .f32⟩
  | 65 => ⟨S100000x32, .f32⟩
  | 66 => ⟨S_, .f32⟩
  | 67 => ⟨S100000, .f32⟩
  | 68 => ⟨S100000x1, .f32⟩
  | 69 => ⟨S_, .f32⟩
  | 70 => ⟨S100000x1, .f32⟩
  | 71 => ⟨S100000x1, .f32⟩
  | 72 => ⟨S100000x32, .f32⟩
  | 73 => ⟨S100000x32, .f32⟩
  | 74 => ⟨S_, .f32⟩
  | 75 => ⟨S100000x1, .f32⟩
  | 76 => ⟨S100000x1, .f32⟩
  | 77 => ⟨S100000x1, .f32⟩
  | 78 => ⟨S100000x32, .f32⟩
  | 79 => ⟨S100000x32, .f32⟩
  | 80 => ⟨S1x32, .f32⟩
  | 81 => ⟨S100000x32, .f32⟩
  | 82 => ⟨S100000x32, .f32⟩
  | 83 => ⟨S1x32, .f32⟩
  | 84 => ⟨S100000x32, .f32⟩
  | 85 => ⟨S100000x32, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_10 : Ref sig .tc := ⟨.hbm, 92, rfl⟩
abbrev main_v69 : Ref sig .tc := ⟨.hbm, 93, rfl⟩
abbrev main_v70 : Ref sig .tc := ⟨.hbm, 94, rfl⟩
abbrev main_c_11 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_12 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_call1_cst : Ref sig .tc := ⟨.hbm, 121, rfl⟩
abbrev main_call1_v0 : Ref sig .tc := ⟨.hbm, 122, rfl⟩
abbrev main_v95 : Ref sig .tc := ⟨.hbm, 123, rfl⟩
abbrev main_cst_13 : Ref sig .tc := ⟨.hbm, 124, rfl⟩
abbrev main_v96 : Ref sig .tc := ⟨.hbm, 125, rfl⟩
abbrev main_v97 : Ref sig .tc := ⟨.hbm, 126, rfl⟩
abbrev main_cst_14 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_15 : Ref sig .tc := ⟨.hbm, 133, rfl⟩
abbrev main_v103 : Ref sig .tc := ⟨.hbm, 134, rfl⟩
abbrev main_v104 : Ref sig .tc := ⟨.hbm, 135, rfl⟩
abbrev main_cst_16 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_17 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_c_18 : Ref sig .tc := ⟨.hbm, 153, rfl⟩
abbrev main_v120 : Ref sig .tc := ⟨.hbm, 154, rfl⟩
abbrev main_v121 : Ref sig .tc := ⟨.hbm, 155, rfl⟩
abbrev main_c_19 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_20 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_call2_cst : Ref sig .tc := ⟨.hbm, 182, rfl⟩
abbrev main_call2_v0 : Ref sig .tc := ⟨.hbm, 183, rfl⟩
abbrev main_v146 : Ref sig .tc := ⟨.hbm, 184, rfl⟩
abbrev main_cst_21 : Ref sig .tc := ⟨.hbm, 185, rfl⟩
abbrev main_v147 : Ref sig .tc := ⟨.hbm, 186, rfl⟩
abbrev main_v148 : Ref sig .tc := ⟨.hbm, 187, rfl⟩
abbrev main_cst_22 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_23 : Ref sig .tc := ⟨.hbm, 194, rfl⟩
abbrev main_v154 : Ref sig .tc := ⟨.hbm, 195, rfl⟩
abbrev main_v155 : Ref sig .tc := ⟨.hbm, 196, rfl⟩
abbrev main_cst_24 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_25 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  bcast_S100000_S100000x1_0 : S100000.BroadcastsInDim S100000x1 (![0] : Fin 1 → Fin S100000x1.rank)
  transposes_S32x5_S5x32_1_0 : S32x5.Transposes [1, 0] S5x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  slices_S3x32x32_S1x32x32_0_0_0 : S3x32x32.Slices ![0, 0, 0] S1x32x32
  shapeCasts_S1x32x32_S32x32 : S1x32x32.ShapeCasts S32x32
  transposes_S32x32_S32x32_1_0 : S32x32.Transposes [1, 0] S32x32
  slices_S3x32_S1x32_0_0 : S3x32.Slices ![0, 0] S1x32
  shapeCasts_S1x32_S32 : S1x32.ShapeCasts S32
  reducesTo_S100000x32_S100000_d1 : S100000x32.ReducesTo [1] S100000
  h_S_ : 0 < S_.numel
  bcast_S_S100000x1 : S_.BroadcastsInDim S100000x1 (![] : Fin 0 → Fin S100000x1.rank)
  slices_S3x32x32_S1x32x32_1_0_0 : S3x32x32.Slices ![1, 0, 0] S1x32x32
  slices_S3x32_S1x32_1_0 : S3x32.Slices ![1, 0] S1x32
  slices_S3x32x32_S1x32x32_2_0_0 : S3x32x32.Slices ![2, 0, 0] S1x32x32
  slices_S3x32_S1x32_2_0 : S3x32.Slices ![2, 0] S1x32
  scatter_S100000_S2000000x1_S2000000_n_0_0_1_wf : ScatterDims.WF S100000 S2000000x1 S2000000 [] [0] [0] 1
  dot_S100000x5_S5x32_S100000x32_1_0_0_1_n_n_wf : DotDims.WF S100000x5 S5x32 S100000x32 [1] [0] [0] [1] [] []
  gather_S100000x32_S2000000x1_S2000000x32_1_0_n_n_0_1_132_wf : GatherDims.WF S100000x32 S2000000x1 S2000000x32 [1] [0] [] [0] [] 1 ![1, 32]
  scatter_S100000x32_S2000000x1_S2000000x32_1_0_0_1_wf : ScatterDims.WF S100000x32 S2000000x1 S2000000x32 [1] [0] [0] 1
  dot_S100000x32_S32x32_S100000x32_1_0_0_1_n_n_wf : DotDims.WF S100000x32 S32x32 S100000x32 [1] [0] [0] [1] [] []

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x5_S5x32_S100000x32_1_0_0_1_n_n : DotDims S100000x5 S5x32 S100000x32 where
  lhsContracting := [1]
  rhsContracting := [0]
  lhsNonContracting := [0]
  rhsNonContracting := [1]
  lhsBatch := []
  rhsBatch := []
  wf := dot_S100000x5_S5x32_S100000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KernelRun.lean ====
/-
  The kernel program's run with its result named. The program is three launches of the layer among stretches of host
  operations; its buffer contents at the six segment boundaries are a fold through @main from the launch memory, ending at
  the contents `W6` after the third launch. Every weakly fair execution terminates without a fault in a state whose
  result buffer holds `W6` at that buffer and whose argument buffers hold what they were launched with: the frame
  certificate's chain of segments read once more at the end, now also at the result buffer.
-/
import proofs.«174114_j74036646248566_1_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v85) = W6 m ρ c (Proc.devRef .tc main_v85)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v85 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.Sage.KRun

end
-- ==== Proof.GlueHost.lean ====
/-
  The kernel program's host operations between its launches, read as functions of what they start from. For any
  contents `W` of the buffers, the operations before the first launch leave the node features, the aggregated features,
  the two transposed weight matrices, the bias, scale and shift rows and the edge index arrays at the SAME terms the
  reference program forms for them (the reference's own stage functions `val_main_vN`); the operations before the second
  and the third launch do the same from the previous layer's output. Each is one evaluation of the fold over the
  stretch's operations, and the two programs' terms agree by unfolding definitions.
-/
import proofs.«174114_j74036646248566_1_alg».proof.Proof.Gen.KernelIdeal.Launch
import proofs.«174114_j74036646248566_1_alg».proof.Proof.RefRead
import Idealize.ShloMosaic.Lib.StableHlo.Run

set_option maxRecDepth 16384

noncomputable section

namespace Cert.Sage.GlueHost

open Idealize.ShloMosaic Idealize.ShloMosaic.StableHlo Idealize.ShloMosaic.TcCoe Idealize.SL.Sem
open Cert.KernelIdeal Cert.KernelIdeal.Gen
open Cert.ReferenceIdeal.ReadP (val_main_v1 val_main_v3 val_main_v12 val_main_v17 val_main_v29 val_main_v32 val_main_v35 val_main_v41
  val_main_v68 val_main_v80 val_main_v83 val_main_v86 val_main_v92 val_main_v119 val_main_v131 val_main_v134 val_main_v137 val_main_v143)

variable (W : Valuation τ sig (Elt Ideal))

/-! ## Before the first launch -/

theorem h0_v17 :
    after (hostOps0 (F := Ideal)) W (Proc.devRef .tc main_v17)
      = val_main_v17 (F := Ideal) (W (Proc.devRef .tc main_arg0)) (W (Proc.devRef .tc main_arg2)) (W (Proc.devRef .tc main_arg3)) := by
  after_results_simp
  rfl
theorem h0_v31 :
    after (hostOps0 (F := Ideal)) W (Proc.devRef .tc main_v31)
      = val_main_v29 (F := Ideal) (W (Proc.devRef .tc main_arg0)) (W (Proc.devRef .tc main_arg1)) (W (Proc.devRef .tc main_arg2)) (W (Proc.devRef .tc main_arg3)) := by
  after_results_simp
  rfl
theorem h0_v34 :
    after (hostOps0 (F := Ideal)) W (Proc.devRef .tc main_v34)
      = val_main_v32 (F := Ideal) (W (Proc.devRef .tc main_arg4)) := by
  after_results_simp
  rfl
theorem h0_v37 :
    after (hostOps0 (F := Ideal)) W (Proc.devRef .tc main_v37)
      = val_main_v41 (F := Ideal) (W (Proc.devRef .tc main_arg6)) := by
  after_results_simp
  rfl
theorem h0_v40 :
    after (hostOps0 (F := Ideal)) W (Proc.devRef .tc main_v40)
      = shapeCast S1x32 (val_main_v35 (F := Ideal) (W (Proc.devRef .tc main_arg5))) shapeCasts_S32_S1x32 := by
  after_results_simp
  rfl
theorem h0_v18 :
    after (hostOps0 (F := Ideal)) W (Proc.devRef .tc main_v18)
      = shapeCast S1x32 (W (Proc.devRef .tc main_arg7)) shapeCasts_S32_S1x32 := by
  after_results_simp
  rfl
theorem h0_v19 :
    after (hostOps0 (F := Ideal)) W (Proc.devRef .tc main_v19)
      = shapeCast S1x32 (W (Proc.devRef .tc main_arg8)) shapeCasts_S32_S1x32 := by
  after_results_simp
  rfl
theorem h0_v1 :
    after (hostOps0 (F := Ideal)) W (Proc.devRef .tc main_v1)
      = val_main_v1 (F := Ideal) (W (Proc.devRef .tc main_arg1)) := by
  after_results_simp
  rfl
theorem h0_v3 :
    after (hostOps0 (F := Ideal)) W (Proc.devRef .tc main_v3)
      = val_main_v3 (F := Ideal) (W (Proc.devRef .tc main_arg1)) := by
  after_results_simp
  rfl
theorem h0_v12 :
    after (hostOps0 (F := Ideal)) W (Proc.devRef .tc main_v12)
      = val_main_v12 (F := Ideal) (W (Proc.devRef .tc main_arg1)) := by
  after_results_simp
  rfl
theorem h0_keep_arg4 : after (hostOps0 (F := Ideal)) W (Proc.devRef .tc main_arg4) = W (Proc.devRef .tc main_arg4) := by
  after_results_simp <;> rfl
theorem h0_keep_arg5 : after (hostOps0 (F := Ideal)) W (Proc.devRef .tc main_arg5) = W (Proc.devRef .tc main_arg5) := by
  after_results_simp <;> rfl
theorem h0_keep_arg6 : after (hostOps0 (F := Ideal)) W (Proc.devRef .tc main_arg6) = W (Proc.devRef .tc main_arg6) := by
  after_results_simp <;> rfl

/-! ## Before the second launch -/

theorem h1_v53 (x0 x1 x2 x3 x4 x5 x6 x7 x8)
    (hp : W (Proc.devRef .tc main_v41) = val_main_v68 (F := Ideal) x0 x1 x2 x3 x4 x5 x6 x7 x8)
    (h1 : W (Proc.devRef .tc main_v1) = val_main_v1 (F := Ideal) x1)
    (h3 : W (Proc.devRef .tc main_v3) = val_main_v3 (F := Ideal) x1)
    (h12 : W (Proc.devRef .tc main_v12) = val_main_v12 (F := Ideal) x1) :
    after (hostOps1 (F := Ideal)) W (Proc.devRef .tc main_v53)
      = val_main_v80 (F := Ideal) x0 x1 x2 x3 x4 x5 x6 x7 x8 := by
  after_results_simp
  rw [hp, h1, h3, h12]
  rfl
theorem h1_v56 :
    after (hostOps1 (F := Ideal)) W (Proc.devRef .tc main_v56)
      = val_main_v83 (F := Ideal) (W (Proc.devRef .tc main_arg4)) := by
  after_results_simp
  rfl
theorem h1_v59 :
    after (hostOps1 (F := Ideal)) W (Proc.devRef .tc main_v59)
      = val_main_v92 (F := Ideal) (W (Proc.devRef .tc main_arg6)) := by
  after_results_simp
  rfl
theorem h1_v62 :
    after (hostOps1 (F := Ideal)) W (Proc.devRef .tc main_v62)
      = shapeCast S1x32 (val_main_v86 (F := Ideal) (W (Proc.devRef .tc main_arg5))) shapeCasts_S32_S1x32 := by
  after_results_simp
  rfl
theorem h1_keep_v41 : after (hostOps1 (F := Ideal)) W (Proc.devRef .tc main_v41) = W (Proc.devRef .tc main_v41) := by
  after_results_simp <;> rfl
theorem h1_keep_v18 : after (hostOps1 (F := Ideal)) W (Proc.devRef .tc main_v18) = W (Proc.devRef .tc main_v18) := by
  after_results_simp <;> rfl
theorem h1_keep_v19 : after (hostOps1 (F := Ideal)) W (Proc.devRef .tc main_v19) = W (Proc.devRef .tc main_v19) := by
  after_results_simp <;> rfl
theorem h1_keep_v1 : after (hostOps1 (F := Ideal)) W (Proc.devRef .tc main_v1) = W (Proc.devRef .tc main_v1) := by
  after_results_simp <;> rfl
theorem h1_keep_v3 : after (hostOps1 (F := Ideal)) W (Proc.devRef .tc main_v3) = W (Proc.devRef .tc main_v3) := by
  after_results_simp <;> rfl
theorem h1_keep_v12 : after (hostOps1 (F := Ideal)) W (Proc.devRef .tc main_v12) = W (Proc.devRef .tc main_v12) := by
  after_results_simp <;> rfl
theorem h1_keep_arg4 : after (hostOps1 (F := Ideal)) W (Proc.devRef .tc main_arg4) = W (Proc.devRef .tc main_arg4) := by
  after_results_simp <;> rfl
theorem h1_keep_arg5 : after (hostOps1 (F := Ideal)) W (Proc.devRef .tc main_arg5) = W (Proc.devRef .tc main_arg5) := by
  after_results_simp <;> rfl
theorem h1_keep_arg6 : after (hostOps1 (F := Ideal)) W (Proc.devRef .tc main_arg6) = W (Proc.devRef .tc main_arg6) := by
  after_results_simp <;> rfl

/-! ## Before the third launch -/

theorem h2_v75 (x0 x1 x2 x3 x4 x5 x6 x7 x8)
    (hp : W (Proc.devRef .tc main_v63) = val_main_v119 (F := Ideal) x0 x1 x2 x3 x4 x5 x6 x7 x8)
    (h1 : W (Proc.devRef .tc main_v1) = val_main_v1 (F := Ideal) x1)
    (h3 : W (Proc.devRef .tc main_v3) = val_main_v3 (F := Ideal) x1)
    (h12 : W (Proc.devRef .tc main_v12) = val_main_v12 (F := Ideal) x1) :
    after (hostOps2 (F := Ideal)) W (Proc.devRef .tc main_v75)
      = val_main_v131 (F := Ideal) x0 x1 x2 x3 x4 x5 x6 x7 x8 := by
  after_results_simp
  rw [hp, h1, h3, h12]
  rfl
theorem h2_v78 :
    after (hostOps2 (F := Ideal)) W (Proc.devRef .tc main_v78)
      = val_main_v134 (F := Ideal) (W (Proc.devRef .tc main_arg4)) := by
  after_results_simp
  rfl
theorem h2_v81 :
    after (hostOps2 (F := Ideal)) W (Proc.devRef .tc main_v81)
      = val_main_v143 (F := Ideal) (W (Proc.devRef .tc main_arg6)) := by
  after_results_simp
  rfl
theorem h2_v84 :
    after (hostOps2 (F := Ideal)) W (Proc.devRef .tc main_v84)
      = shapeCast S1x32 (val_main_v137 (F := Ideal) (W (Proc.devRef .tc main_arg5))) shapeCasts_S32_S1x32 := by
  after_results_simp
  rfl
theorem h2_keep_v63 : after (hostOps2 (F := Ideal)) W (Proc.devRef .tc main_v63) = W (Proc.devRef .tc main_v63) := by
  after_results_simp <;> rfl
theorem h2_keep_v18 : after (hostOps2 (F := Ideal)) W (Proc.devRef .tc main_v18) = W (Proc.devRef .tc main_v18) := by
  after_results_simp <;> rfl
theorem h2_keep_v19 : after (hostOps2 (F := Ideal)) W (Proc.devRef .tc main_v19) = W (Proc.devRef .tc main_v19) := by
  after_results_simp <;> rfl

end Cert.Sage.GlueHost

end
-- ==== Proof.Spec.lean ====
/-
  One layer of the network, as mathematics on the extended reals.

  A node's new features depend on two rows of 32 numbers: `a`, the mean of its in-neighbours' features, and `h`, its
  own features. The layer forms, for each output feature `o`,
      lin o = max ((Σ_k a k · wl (k, o) + bl o) + Σ_k h k · wr (k, o)) 0,
  then normalises the 32 numbers `lin o` of the node: with `mu` their mean and `var` the mean of the squared
  deviations from `mu`,
      norm q = ((lin q − mu) · rsqrt (var + ε)) · g q + b q.
  The float literals (0, 32 and ε) are kept as their binary words: the same words stand on both sides of the
  equation this certificate proves and are never evaluated.

  `layerArr` is the layer applied to every row of a matrix of node features: row `n` of the result is `norm` of
  row `n` of the two operand matrices, so a block of rows of the result is the layer of the same block of rows.
-/
import Idealize.ShloMosaic.PureOps.Ideal
import Idealize.ShloMosaic.Lib.ValueIdx

noncomputable section

open scoped BigOperators

namespace Cert.Sage

open Idealize.ShloMosaic Idealize.ShloMosaic.ValueIdx

/-- A 32 × 32 matrix of extended reals. -/
abbrev W32 : Type := (⟨2, ![32, 32]⟩ : Shape).Idx → EReal
/-- A vector of 32 extended reals, as an array of rank 1. -/
abbrev V32 : Type := (⟨1, ![32]⟩ : Shape).Idx → EReal

/-- The clamped sum of the two linear maps at output feature `o`. -/
def lin (a h : Fin 32 → EReal) (wl wr : W32) (bl : Fin 32 → EReal) (o : Fin 32) : EReal :=
  max (((∑ k : Fin 32, a k * wl (ix2 k o)) + bl o) + ∑ k : Fin 32, h k * wr (ix2 k o)) (Ideal.ofBits .f32 0x00000000#32)

/-- The mean of the node's 32 clamped sums. -/
def mu (a h : Fin 32 → EReal) (wl wr : W32) (bl : Fin 32 → EReal) : EReal :=
  Ideal.div (∑ o : Fin 32, lin a h wl wr bl o) (Ideal.ofBits .f32 0x42000000#32)

/-- The mean of their squared deviations from the mean. -/
def var (a h : Fin 32 → EReal) (wl wr : W32) (bl : Fin 32 → EReal) : EReal :=
  Ideal.div (∑ o : Fin 32, (lin a h wl wr bl o - mu a h wl wr bl) * (lin a h wl wr bl o - mu a h wl wr bl))
    (Ideal.ofBits .f32 0x42000000#32)

/-- The normalised, scaled and shifted output feature `q` of the node. -/
def norm (a h : Fin 32 → EReal) (wl wr : W32) (bl g b : Fin 32 → EReal) (q : Fin 32) : EReal :=
  ((lin a h wl wr bl q - mu a h wl wr bl) * Ideal.rsqrt (var a h wl wr bl + Ideal.ofBits .f32 0x3727C5AC#32)) * g q + b q

/-- A 1 × 32 row read as a vector of 32. -/
def rowVec (r : (⟨2, ![1, 32]⟩ : Shape).Idx → EReal) : V32 := fun j => r (ix2 (0 : Fin 1) (j 0))

/-- The layer on a matrix of `R` rows: row by row. -/
def layerArr {R : ℕ} (A H : (⟨2, ![R, 32]⟩ : Shape).Idx → EReal) (wl wr : W32) (bl g b : V32) :
    (⟨2, ![R, 32]⟩ : Shape).Idx → EReal :=
  fun i => norm (fun k => A (ix2 (i 0) k)) (fun k => H (ix2 (i 0) k)) wl wr
    (fun o => bl (ix1 o)) (fun o => g (ix1 o)) (fun o => b (ix1 o)) (i 1)

/-- The layer read at row `n`, feature `q`. -/
theorem layerArr_apply {R : ℕ} (A H : (⟨2, ![R, 32]⟩ : Shape).Idx → EReal) (wl wr : W32) (bl g b : V32)
    (n : Fin R) (q : Fin 32) :
    layerArr A H wl wr bl g b (ix2 n q)
      = norm (fun k => A (ix2 n k)) (fun k => H (ix2 n k)) wl wr
          (fun o => bl (ix1 o)) (fun o => g (ix1 o)) (fun o => b (ix1 o)) q := rfl

end Cert.Sage

end
-- ==== Proof.Blocks.lean ====
/-
  From blocks to the whole array, for each of the three launches of the layer.

  A launch runs the body at ten grid points. At point `t` the two row operands and the result are staged by the block
  of rows `10000·t … 10000·t + 9999` (all 32 columns), and the two weight matrices, the bias, the scale and the shift
  are staged whole. The body's stored value at a row of its block is `norm` of that row of its two operand blocks
  (`PayFact`, assumed here). Row `p` of block `t` is row `10000·t + p` of the array, so what point `t` writes back is
  block `t` of `layerArr` of the operand arrays; the ten blocks cover the 100000 rows, so the result array after the
  launch is `layerArr` of the operand arrays.
-/
import proofs.«174114_j74036646248566_1_alg».proof.Proof.Gen.KernelIdeal.Frame
import proofs.«174114_j74036646248566_1_alg».proof.Proof.Spec
import Idealize.ShloMosaic.Lib.Pipeline.Value
import Idealize.ShloMosaic.Lib.ValueIdx

noncomputable section

namespace Cert.Sage.Blocks

open Idealize.ShloMosaic Idealize.ShloMosaic.TcCoe Idealize.ShloMosaic.ValueIdx Idealize.SL.Sem Cert.KernelIdeal Cert.KernelIdeal.Gen
open Idealize.ShloMosaic.Pipeline (Dat)

/-- What the body's payload is at an index: the layer's `norm` of row `p` of the two operand blocks, at feature `q`. -/
def PayFact (pay1 : FVec Ideal S10000x32 .f32 → Vec Ideal S1x32 .f32 → Vec Ideal S1x32 .f32 → FVec Ideal S10000x32 .f32)
    (pay2 : Vec Ideal S10000x32 .f32 → Vec Ideal S10000x32 .f32 → Vec Ideal S32x32 .f32 → Vec Ideal S32x32 .f32 → Vec Ideal S1x32 .f32 → FVec Ideal S10000x32 .f32) : Prop :=
  ∀ (x0 x1 : Vec Ideal S10000x32 .f32) (x2 : Vec Ideal S32x32 .f32) (x3 : Vec Ideal S1x32 .f32) (x4 : Vec Ideal S32x32 .f32) (x5 x6 : Vec Ideal S1x32 .f32) (p : Fin 10000) (q : Fin 32),
    pay1 (pay2 x0 x1 x2 x4 x3) x5 x6 (ix2 p q)
      = Cert.Sage.norm (fun k => x0 (ix2 p k)) (fun k => x1 (ix2 p k)) x2 x4
          (fun o => x3 (ix2 (0 : Fin 1) o)) (fun o => x5 (ix2 (0 : Fin 1) o)) (fun o => x6 (ix2 (0 : Fin 1) o)) q

/-- The zero offsets of a whole-block access. -/
theorem hz : (![0, 0] : Fin 2 → Nat) = fun _ => 0 := funext fun a => by fin_cases a <;> rfl

/-- `norm` of equal arguments. -/
theorem norm_congr {a a' h h' : Fin 32 → EReal} {wl wl' wr wr' : W32} {bl bl' g g' b b' : Fin 32 → EReal}
    (ha : a = a') (hh : h = h') (hwl : wl = wl') (hwr : wr = wr') (hbl : bl = bl') (hg : g = g') (hb : b = b') (q : Fin 32) :
    Cert.Sage.norm a h wl wr bl g b q = Cert.Sage.norm a' h' wl' wr' bl' g' b' q := by
  subst ha hh hwl hwr hbl hg hb; rfl

/-! # Launch 0 -/

section Launch0
variable (V : (c : Dev nD) → (b : Ref sig .tc) → Buf (Elt Ideal) ((c : Thread nD τ).loc b))

/-- The printed index maps, decided over the ten grid points: the row windows (0, 1 and the result, 7) are at block
    `t` of the rows and block 0 of the columns, the others at block 0 on both axes. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of window 0's block at point `t` is row `10000·t + p` of its array. -/
theorem rows0_0 (c : Dev nD) (t : Fin cfg0.N) (p : Fin 10000) (k : Fin 32) (hr : t.val * 10000 + p.val < 100000) :
    (iblk0 (F := Ideal) V c 0 t : Vec Ideal S10000x32 .f32) (ix2 p k)
      = (V c main_v31 : S100000x32.Idx → EReal) (ix2 (⟨t.val * 10000 + p.val, hr⟩ : Fin 100000) k) := by
  obtain ⟨e00, e01, e10, e11, -⟩ := idx0 t
  unfold iblk0
  rw [View.read_apply]
  show (V c main_v31 : S100000x32.Idx → EReal) _ = (V c main_v31 : S100000x32.Idx → EReal) _
  refine congrArg (V c main_v31 : S100000x32.Idx → EReal) ?_
  funext a; apply Fin.ext
  match a with
  | ⟨0, _⟩ => show win0_0.index t (0 : Fin 2) * 10000 + 1 * p.val = t.val * 10000 + p.val; omega
  | ⟨1, _⟩ => show win0_0.index t (1 : Fin 2) * 32 + 1 * k.val = k.val; omega

/-- Row `p` of window 1's block at point `t` is row `10000·t + p` of its array. -/
theorem rows0_1 (c : Dev nD) (t : Fin cfg0.N) (p : Fin 10000) (k : Fin 32) (hr : t.val * 10000 + p.val < 100000) :
    (iblk0 (F := Ideal) V c 1 t : Vec Ideal S10000x32 .f32) (ix2 p k)
      = (V c main_v17 : S100000x32.Idx → EReal) (ix2 (⟨t.val * 10000 + p.val, hr⟩ : Fin 100000) k) := by
  obtain ⟨e00, e01, e10, e11, -⟩ := idx0 t
  unfold iblk0
  rw [View.read_apply]
  show (V c main_v17 : S100000x32.Idx → EReal) _ = (V c main_v17 : S100000x32.Idx → EReal) _
  refine congrArg (V c main_v17 : S100000x32.Idx → EReal) ?_
  funext a; apply Fin.ext
  match a with
  | ⟨0, _⟩ => show win0_1.index t (0 : Fin 2) * 10000 + 1 * p.val = t.val * 10000 + p.val; omega
  | ⟨1, _⟩ => show win0_1.index t (1 : Fin 2) * 32 + 1 * k.val = k.val; omega

/-- Window 2's block at every point is its whole array. -/
theorem whole0_2 (c : Dev nD) (t : Fin cfg0.N) :
    (iblk0 (F := Ideal) V c 2 t : Vec Ideal S32x32 .f32) = (V c main_v34 : S32x32.Idx → EReal) := by
  have e := idx0 t
  funext x
  unfold iblk0
  rw [View.read_apply]
  show (V c main_v34 : S32x32.Idx → EReal) _ = (V c main_v34 : S32x32.Idx → EReal) x
  refine congrArg (V c main_v34 : S32x32.Idx → EReal) ?_
  funext a; apply Fin.ext
  match a with
  | ⟨0, _⟩ => show win0_2.index t (0 : Fin 2) * 32 + 1 * (x 0).val = (x 0).val; omega
  | ⟨1, _⟩ => show win0_2.index t (1 : Fin 2) * 32 + 1 * (x 1).val = (x 1).val; omega

/-- Window 3's block at every point is its whole array. -/
theorem whole0_3 (c : Dev nD) (t : Fin cfg0.N) :
    (iblk0 (F := Ideal) V c 3 t : Vec Ideal S1x32 .f32) = (V c main_v40 : S1x32.Idx → EReal) := by
  have e := idx0 t
  funext x
  unfold iblk0
  rw [View.read_apply]
  show (V c main_v40 : S1x32.Idx → EReal) _ = (V c main_v40 : S1x32.Idx → EReal) x
  refine congrArg (V c main_v40 : S1x32.Idx → EReal) ?_
  funext a; apply Fin.ext
  match a with
  | ⟨0, _⟩ => show win0_3.index t (0 : Fin 2) * 1 + 1 * (x 0).val = (x 0).val; omega
  | ⟨1, _⟩ => show win0_3.index t (1 : Fin 2) * 32 + 1 * (x 1).val = (x 1).val; omega

/-- Window 4's block at every point is its whole array. -/
theorem whole0_4 (c : Dev nD) (t : Fin cfg0.N) :
    (iblk0 (F := Ideal) V c 4 t : Vec Ideal S32x32 .f32) = (V c main_v37 : S32x32.Idx → EReal) := by
  have e := idx0 t
  funext x
  unfold iblk0
  rw [View.read_apply]
  show (V c main_v37 : S32x32.Idx → EReal) _ = (V c main_v37 : S32x32.Idx → EReal) x
  refine congrArg (V c main_v37 : S32x32.Idx → EReal) ?_
  funext a; apply Fin.ext
  match a with
  | ⟨0, _⟩ => show win0_4.index t (0 : Fin 2) * 32 + 1 * (x 0).val = (x 0).val; omega
  | ⟨1, _⟩ => show win0_4.index t (1 : Fin 2) * 32 + 1 * (x 1).val = (x 1).val; omega

/-- Window 5's block at every point is its whole array. -/
theorem whole0_5 (c : Dev nD) (t : Fin cfg0.N) :
    (iblk0 (F := Ideal) V c 5 t : Vec Ideal S1x32 .f32) = (V c main_v18 : S1x32.Idx → EReal) := by
  have e := idx0 t
  funext x
  unfold iblk0
  rw [View.read_apply]
  show (V c main_v18 : S1x32.Idx → EReal) _ = (V c main_v18 : S1x32.Idx → EReal) x
  refine congrArg (V c main_v18 : S1x32.Idx → EReal) ?_
  funext a; apply Fin.ext
  match a with
  | ⟨0, _⟩ => show win0_5.index t (0 : Fin 2) * 1 + 1 * (x 0).val = (x 0).val; omega
  | ⟨1, _⟩ => show win0_5.index t (1 : Fin 2) * 32 + 1 * (x 1).val = (x 1).val; omega

/-- Window 6's block at every point is its whole array. -/
theorem whole0_6 (c : Dev nD) (t : Fin cfg0.N) :
    (iblk0 (F := Ideal) V c 6 t : Vec Ideal S1x32 .f32) = (V c main_v19 : S1x32.Idx → EReal) := by
  have e := idx0 t
  funext x
  unfold iblk0
  rw [View.read_apply]
  show (V c main_v19 : S1x32.Idx → EReal) _ = (V c main_v19 : S1x32.Idx → EReal) x
  refine congrArg (V c main_v19 : S1x32.Idx → EReal) ?_
  funext a; apply Fin.ext
  match a with
  | ⟨0, _⟩ => show win0_6.index t (0 : Fin 2) * 1 + 1 * (x 0).val = (x 0).val; omega
  | ⟨1, _⟩ => show win0_6.index t (1 : Fin 2) * 32 + 1 * (x 1).val = (x 1).val; omega

/-- Row `p`, feature `q` of the result window's block at point `t` is row `10000·t + p`, feature `q` of the array. -/
theorem emb0_7 (t : Fin cfg0.N) (p : Fin 10000) (q : Fin 32) (hr : t.val * 10000 + p.val < 100000) :
    ((cfg0.win 7).blk t).view.emb (ix2 p q : S10000x32.Idx) = (ix2 (⟨t.val * 10000 + p.val, hr⟩ : Fin 100000) q : S100000x32.Idx) := by
  have e := idx0 t
  funext a; apply Fin.ext
  match a with
  | ⟨0, _⟩ => show win0_7.index t (0 : Fin 2) * 10000 + 1 * p.val = t.val * 10000 + p.val; omega
  | ⟨1, _⟩ => show win0_7.index t (1 : Fin 2) * 32 + 1 * q.val = q.val; omega

/-- WHAT POINT `t` WRITES BACK is block `t` of the layer of the operand arrays. -/
theorem flushed0 (hpay : PayFact (k0_pay1 (F := Ideal)) (k0_pay2 (F := Ideal))) (c : Dev nD) (t : Fin cfg0.N) :
    (dat0 (F := Ideal) V c).flushed 7 t
      = ((cfg0.win 7).blk t).view.read (Elt Ideal) (Cert.Sage.layerArr (V c main_v31 : S100000x32.Idx → EReal) (V c main_v17 : S100000x32.Idx → EReal) (V c main_v34 : S32x32.Idx → EReal) (V c main_v37 : S32x32.Idx → EReal)
            (Cert.Sage.rowVec (V c main_v40 : S1x32.Idx → EReal)) (Cert.Sage.rowVec (V c main_v18 : S1x32.Idx → EReal)) (Cert.Sage.rowVec (V c main_v19 : S1x32.Idx → EReal))) := by
  have hN : grid0.N = 10 := N_0
  show (cfg0.win 7).cut (grid0.coords t) ((dat0 (F := Ideal) V c).after 7 t) = _
  rw [after0_7]
  unfold out0_7
  rw [View.canon_unit_zero hz]
  simp only [View.ld_unit_zero (S := S10000x32) hz, View.ld_unit_zero (S := S32x32) hz, View.ld_unit_zero (S := S1x32) hz]
  rw [whole0_2, whole0_3, whole0_4, whole0_5, whole0_6]
  funext j
  obtain ⟨p, q, rfl⟩ : ∃ (p : Fin 10000) (q : Fin 32), j = ix2 p q := ⟨j 0, j 1, eq_ix2 j⟩
  have ht : t.val < 10 := lt_of_lt_of_eq t.isLt N_0
  have hr : t.val * 10000 + p.val < 100000 := by have := p.isLt; omega
  rw [View.read_apply, emb0_7 t p q hr]
  refine (hpay _ _ _ _ _ _ _ p q).trans ?_
  refine (norm_congr (funext fun k => rows0_0 V c t p k hr) (funext fun k => rows0_1 V c t p k hr) rfl rfl rfl rfl rfl q).trans ?_
  rfl

/-- Row `r` of the array is in the block of point `r / 10000`. -/
theorem mem_blk0 (t : Fin cfg0.N) (i : S100000x32.Idx) :
    i ∈ ((cfg0.win 7).blk t).view.set ↔ ∀ a : Fin 2, win0_7.index t a * S10000x32.size a ≤ (i a).val ∧ (i a).val < win0_7.index t a * S10000x32.size a + S10000x32.size a := by
  show i ∈ ((View.whole main_v41).slice (win0_7.rect t)).set ↔ _
  rw [View.set_slice_whole, Rect.mem_set_unit]
  exact Iff.rfl

end Launch0

/-- THE RESULT ARRAY after launch 0: the layer of the operand arrays as the launch finds them. -/
theorem region0_value (hpay : PayFact (k0_pay1 (F := Ideal)) (k0_pay2 (F := Ideal)))
    (V : (c : Dev nD) → (b : Ref sig .tc) → Buf (Elt Ideal) ((c : Thread nD τ).loc b)) (c : Dev nD) :
    (dat0 (F := Ideal) V c).arrAt 7 cfg0.N
      = Cert.Sage.layerArr (V c main_v31 : S100000x32.Idx → EReal) (V c main_v17 : S100000x32.Idx → EReal) (V c main_v34 : S32x32.Idx → EReal) (V c main_v37 : S32x32.Idx → EReal)
            (Cert.Sage.rowVec (V c main_v40 : S1x32.Idx → EReal)) (Cert.Sage.rowVec (V c main_v18 : S1x32.Idx → EReal)) (Cert.Sage.rowVec (V c main_v19 : S1x32.Idx → EReal)) := by
  have hN : grid0.N = 10 := N_0
  refine (dat0 (F := Ideal) V c).arrAt_eq_of_cover 7 _ (fun t _ => flushed0 V hpay c t) fun i => ?_
  have hi0 : (i 0).val < 100000 := (i 0).isLt
  have hi1 : (i 1).val < 32 := (i 1).isLt
  let t : Fin cfg0.N := ⟨(i 0).val / 10000, by show (i 0).val / 10000 < grid0.N; omega⟩
  refine ⟨t, flush0_7 t, ?_⟩
  obtain ⟨-, -, -, -, -, -, -, -, -, -, -, -, -, -, e70, e71⟩ := idx0 t
  have ht : t.val = (i 0).val / 10000 := rfl
  rw [mem_blk0]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 32 ≤ (i 1).val ∧ (i 1).val < win0_7.index t (1 : Fin 2) * 32 + 32; omega

/-! # Launch 1 -/

section Launch1
variable (V : (c : Dev nD) → (b : Ref sig .tc) → Buf (Elt Ideal) ((c : Thread nD τ).loc b))

/-- The printed index maps, decided over the ten grid points: the row windows (0, 1 and the result, 7) are at block
    `t` of the rows and block 0 of the columns, the others at block 0 on both axes. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of window 0's block at point `t` is row `10000·t + p` of its array. -/
theorem rows1_0 (c : Dev nD) (t : Fin cfg1.N) (p : Fin 10000) (k : Fin 32) (hr : t.val * 10000 + p.val < 100000) :
    (iblk1 (F := Ideal) V c 0 t : Vec Ideal S10000x32 .f32) (ix2 p k)
      = (V c main_v53 : S100000x32.Idx → EReal) (ix2 (⟨t.val * 10000 + p.val, hr⟩ : Fin 100000) k) := by
  obtain ⟨e00, e01, e10, e11, -⟩ := idx1 t
  unfold iblk1
  rw [View.read_apply]
  show (V c main_v53 : S100000x32.Idx → EReal) _ = (V c main_v53 : S100000x32.Idx → EReal) _
  refine congrArg (V c main_v53 : S100000x32.Idx → EReal) ?_
  funext a; apply Fin.ext
  match a with
  | ⟨0, _⟩ => show win1_0.index t (0 : Fin 2) * 10000 + 1 * p.val = t.val * 10000 + p.val; omega
  | ⟨1, _⟩ => show win1_0.index t (1 : Fin 2) * 32 + 1 * k.val = k.val; omega

/-- Row `p` of window 1's block at point `t` is row `10000·t + p` of its array. -/
theorem rows1_1 (c : Dev nD) (t : Fin cfg1.N) (p : Fin 10000) (k : Fin 32) (hr : t.val * 10000 + p.val < 100000) :
    (iblk1 (F := Ideal) V c 1 t : Vec Ideal S10000x32 .f32) (ix2 p k)
      = (V c main_v41 : S100000x32.Idx → EReal) (ix2 (⟨t.val * 10000 + p.val, hr⟩ : Fin 100000) k) := by
  obtain ⟨e00, e01, e10, e11, -⟩ := idx1 t
  unfold iblk1
  rw [View.read_apply]
  show (V c main_v41 : S100000x32.Idx → EReal) _ = (V c main_v41 : S100000x32.Idx → EReal) _
  refine congrArg (V c main_v41 : S100000x32.Idx → EReal) ?_
  funext a; apply Fin.ext
  match a with
  | ⟨0, _⟩ => show win1_1.index t (0 : Fin 2) * 10000 + 1 * p.val = t.val * 10000 + p.val; omega
  | ⟨1, _⟩ => show win1_1.index t (1 : Fin 2) * 32 + 1 * k.val = k.val; omega

/-- Window 2's block at every point is its whole array. -/
theorem whole1_2 (c : Dev nD) (t : Fin cfg1.N) :
    (iblk1 (F := Ideal) V c 2 t : Vec Ideal S32x32 .f32) = (V c main_v56 : S32x32.Idx → EReal) := by
  have e := idx1 t
  funext x
  unfold iblk1
  rw [View.read_apply]
  show (V c main_v56 : S32x32.Idx → EReal) _ = (V c main_v56 : S32x32.Idx → EReal) x
  refine congrArg (V c main_v56 : S32x32.Idx → EReal) ?_
  funext a; apply Fin.ext
  match a with
  | ⟨0, _⟩ => show win1_2.index t (0 : Fin 2) * 32 + 1 * (x 0).val = (x 0).val; omega
  | ⟨1, _⟩ => show win1_2.index t (1 : Fin 2) * 32 + 1 * (x 1).val = (x 1).val; omega

/-- Window 3's block at every point is its whole array. -/
theorem whole1_3 (c : Dev nD) (t : Fin cfg1.N) :
    (iblk1 (F := Ideal) V c 3 t : Vec Ideal S1x32 .f32) = (V c main_v62 : S1x32.Idx → EReal) := by
  have e := idx1 t
  funext x
  unfold iblk1
  rw [View.read_apply]
  show (V c main_v62 : S1x32.Idx → EReal) _ = (V c main_v62 : S1x32.Idx → EReal) x
  refine congrArg (V c main_v62 : S1x32.Idx → EReal) ?_
  funext a; apply Fin.ext
  match a with
  | ⟨0, _⟩ => show win1_3.index t (0 : Fin 2) * 1 + 1 * (x 0).val = (x 0).val; omega
  | ⟨1, _⟩ => show win1_3.index t (1 : Fin 2) * 32 + 1 * (x 1).val = (x 1).val; omega

/-- Window 4's block at every point is its whole array. -/
theorem whole1_4 (c : Dev nD) (t : Fin cfg1.N) :
    (iblk1 (F := Ideal) V c 4 t : Vec Ideal S32x32 .f32) = (V c main_v59 : S32x32.Idx → EReal) := by
  have e := idx1 t
  funext x
  unfold iblk1
  rw [View.read_apply]
  show (V c main_v59 : S32x32.Idx → EReal) _ = (V c main_v59 : S32x32.Idx → EReal) x
  refine congrArg (V c main_v59 : S32x32.Idx → EReal) ?_
  funext a; apply Fin.ext
  match a with
  | ⟨0, _⟩ => show win1_4.index t (0 : Fin 2) * 32 + 1 * (x 0).val = (x 0).val; omega
  | ⟨1, _⟩ => show win1_4.index t (1 : Fin 2) * 32 + 1 * (x 1).val = (x 1).val; omega

/-- Window 5's block at every point is its whole array. -/
theorem whole1_5 (c : Dev nD) (t : Fin cfg1.N) :
    (iblk1 (F := Ideal) V c 5 t : Vec Ideal S1x32 .f32) = (V c main_v18 : S1x32.Idx → EReal) := by
  have e := idx1 t
  funext x
  unfold iblk1
  rw [View.read_apply]
  show (V c main_v18 : S1x32.Idx → EReal) _ = (V c main_v18 : S1x32.Idx → EReal) x
  refine congrArg (V c main_v18 : S1x32.Idx → EReal) ?_
  funext a; apply Fin.ext
  match a with
  | ⟨0, _⟩ => show win1_5.index t (0 : Fin 2) * 1 + 1 * (x 0).val = (x 0).val; omega
  | ⟨1, _⟩ => show win1_5.index t (1 : Fin 2) * 32 + 1 * (x 1).val = (x 1).val; omega

/-- Window 6's block at every point is its whole array. -/
theorem whole1_6 (c : Dev nD) (t : Fin cfg1.N) :
    (iblk1 (F := Ideal) V c 6 t : Vec Ideal S1x32 .f32) = (V c main_v19 : S1x32.Idx → EReal) := by
  have e := idx1 t
  funext x
  unfold iblk1
  rw [View.read_apply]
  show (V c main_v19 : S1x32.Idx → EReal) _ = (V c main_v19 : S1x32.Idx → EReal) x
  refine congrArg (V c main_v19 : S1x32.Idx → EReal) ?_
  funext a; apply Fin.ext
  match a with
  | ⟨0, _⟩ => show win1_6.index t (0 : Fin 2) * 1 + 1 * (x 0).val = (x 0).val; omega
  | ⟨1, _⟩ => show win1_6.index t (1 : Fin 2) * 32 + 1 * (x 1).val = (x 1).val; omega

/-- Row `p`, feature `q` of the result window's block at point `t` is row `10000·t + p`, feature `q` of the array. -/
theorem emb1_7 (t : Fin cfg1.N) (p : Fin 10000) (q : Fin 32) (hr : t.val * 10000 + p.val < 100000) :
    ((cfg1.win 7).blk t).view.emb (ix2 p q : S10000x32.Idx) = (ix2 (⟨t.val * 10000 + p.val, hr⟩ : Fin 100000) q : S100000x32.Idx) := by
  have e := idx1 t
  funext a; apply Fin.ext
  match a with
  | ⟨0, _⟩ => show win1_7.index t (0 : Fin 2) * 10000 + 1 * p.val = t.val * 10000 + p.val; omega
  | ⟨1, _⟩ => show win1_7.index t (1 : Fin 2) * 32 + 1 * q.val = q.val; omega

/-- WHAT POINT `t` WRITES BACK is block `t` of the layer of the operand arrays. -/
theorem flushed1 (hpay : PayFact (k1_pay1 (F := Ideal)) (k1_pay2 (F := Ideal))) (c : Dev nD) (t : Fin cfg1.N) :
    (dat1 (F := Ideal) V c).flushed 7 t
      = ((cfg1.win 7).blk t).view.read (Elt Ideal) (Cert.Sage.layerArr (V c main_v53 : S100000x32.Idx → EReal) (V c main_v41 : S100000x32.Idx → EReal) (V c main_v56 : S32x32.Idx → EReal) (V c main_v59 : S32x32.Idx → EReal)
            (Cert.Sage.rowVec (V c main_v62 : S1x32.Idx → EReal)) (Cert.Sage.rowVec (V c main_v18 : S1x32.Idx → EReal)) (Cert.Sage.rowVec (V c main_v19 : S1x32.Idx → EReal))) := by
  have hN : grid1.N = 10 := N_1
  show (cfg1.win 7).cut (grid1.coords t) ((dat1 (F := Ideal) V c).after 7 t) = _
  rw [after1_7]
  unfold out1_7
  rw [View.canon_unit_zero hz]
  simp only [View.ld_unit_zero (S := S10000x32) hz, View.ld_unit_zero (S := S32x32) hz, View.ld_unit_zero (S := S1x32) hz]
  rw [whole1_2, whole1_3, whole1_4, whole1_5, whole1_6]
  funext j
  obtain ⟨p, q, rfl⟩ : ∃ (p : Fin 10000) (q : Fin 32), j = ix2 p q := ⟨j 0, j 1, eq_ix2 j⟩
  have ht : t.val < 10 := lt_of_lt_of_eq t.isLt N_1
  have hr : t.val * 10000 + p.val < 100000 := by have := p.isLt; omega
  rw [View.read_apply, emb1_7 t p q hr]
  refine (hpay _ _ _ _ _ _ _ p q).trans ?_
  refine (norm_congr (funext fun k => rows1_0 V c t p k hr) (funext fun k => rows1_1 V c t p k hr) rfl rfl rfl rfl rfl q).trans ?_
  rfl

/-- Row `r` of the array is in the block of point `r / 10000`. -/
theorem mem_blk1 (t : Fin cfg1.N) (i : S100000x32.Idx) :
    i ∈ ((cfg1.win 7).blk t).view.set ↔ ∀ a : Fin 2, win1_7.index t a * S10000x32.size a ≤ (i a).val ∧ (i a).val < win1_7.index t a * S10000x32.size a + S10000x32.size a := by
  show i ∈ ((View.whole main_v63).slice (win1_7.rect t)).set ↔ _
  rw [View.set_slice_whole, Rect.mem_set_unit]
  exact Iff.rfl

end Launch1

/-- THE RESULT ARRAY after launch 1: the layer of the operand arrays as the launch finds them. -/
theorem region1_value (hpay : PayFact (k1_pay1 (F := Ideal)) (k1_pay2 (F := Ideal)))
    (V : (c : Dev nD) → (b : Ref sig .tc) → Buf (Elt Ideal) ((c : Thread nD τ).loc b)) (c : Dev nD) :
    (dat1 (F := Ideal) V c).arrAt 7 cfg1.N
      = Cert.Sage.layerArr (V c main_v53 : S100000x32.Idx → EReal) (V c main_v41 : S100000x32.Idx → EReal) (V c main_v56 : S32x32.Idx → EReal) (V c main_v59 : S32x32.Idx → EReal)
            (Cert.Sage.rowVec (V c main_v62 : S1x32.Idx → EReal)) (Cert.Sage.rowVec (V c main_v18 : S1x32.Idx → EReal)) (Cert.Sage.rowVec (V c main_v19 : S1x32.Idx → EReal)) := by
  have hN : grid1.N = 10 := N_1
  refine (dat1 (F := Ideal) V c).arrAt_eq_of_cover 7 _ (fun t _ => flushed1 V hpay c t) fun i => ?_
  have hi0 : (i 0).val < 100000 := (i 0).isLt
  have hi1 : (i 1).val < 32 := (i 1).isLt
  let t : Fin cfg1.N := ⟨(i 0).val / 10000, by show (i 0).val / 10000 < grid1.N; omega⟩
  refine ⟨t, flush1_7 t, ?_⟩
  obtain ⟨-, -, -, -, -, -, -, -, -, -, -, -, -, -, e70, e71⟩ := idx1 t
  have ht : t.val = (i 0).val / 10000 := rfl
  rw [mem_blk1]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 32 ≤ (i 1).val ∧ (i 1).val < win1_7.index t (1 : Fin 2) * 32 + 32; omega

/-! # Launch 2 -/

section Launch2
variable (V : (c : Dev nD) → (b : Ref sig .tc) → Buf (Elt Ideal) ((c : Thread nD τ).loc b))

/-- The printed index maps, decided over the ten grid points: the row windows (0, 1 and the result, 7) are at block
    `t` of the rows and block 0 of the columns, the others at block 0 on both axes. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of window 0's block at point `t` is row `10000·t + p` of its array. -/
theorem rows2_0 (c : Dev nD) (t : Fin cfg2.N) (p : Fin 10000) (k : Fin 32) (hr : t.val * 10000 + p.val < 100000) :
    (iblk2 (F := Ideal) V c 0 t : Vec Ideal S10000x32 .f32) (ix2 p k)
      = (V c main_v75 : S100000x32.Idx → EReal) (ix2 (⟨t.val * 10000 + p.val, hr⟩ : Fin 100000) k) := by
  obtain ⟨e00, e01, e10, e11, -⟩ := idx2 t
  unfold iblk2
  rw [View.read_apply]
  show (V c main_v75 : S100000x32.Idx → EReal) _ = (V c main_v75 : S100000x32.Idx → EReal) _
  refine congrArg (V c main_v75 : S100000x32.Idx → EReal) ?_
  funext a; apply Fin.ext
  match a with
  | ⟨0, _⟩ => show win2_0.index t (0 : Fin 2) * 10000 + 1 * p.val = t.val * 10000 + p.val; omega
  | ⟨1, _⟩ => show win2_0.index t (1 : Fin 2) * 32 + 1 * k.val = k.val; omega

/-- Row `p` of window 1's block at point `t` is row `10000·t + p` of its array. -/
theorem rows2_1 (c : Dev nD) (t : Fin cfg2.N) (p : Fin 10000) (k : Fin 32) (hr : t.val * 10000 + p.val < 100000) :
    (iblk2 (F := Ideal) V c 1 t : Vec Ideal S10000x32 .f32) (ix2 p k)
      = (V c main_v63 : S100000x32.Idx → EReal) (ix2 (⟨t.val * 10000 + p.val, hr⟩ : Fin 100000) k) := by
  obtain ⟨e00, e01, e10, e11, -⟩ := idx2 t
  unfold iblk2
  rw [View.read_apply]
  show (V c main_v63 : S100000x32.Idx → EReal) _ = (V c main_v63 : S100000x32.Idx → EReal) _
  refine congrArg (V c main_v63 : S100000x32.Idx → EReal) ?_
  funext a; apply Fin.ext
  match a with
  | ⟨0, _⟩ => show win2_1.index t (0 : Fin 2) * 10000 + 1 * p.val = t.val * 10000 + p.val; omega
  | ⟨1, _⟩ => show win2_1.index t (1 : Fin 2) * 32 + 1 * k.val = k.val; omega

/-- Window 2's block at every point is its whole array. -/
theorem whole2_2 (c : Dev nD) (t : Fin cfg2.N) :
    (iblk2 (F := Ideal) V c 2 t : Vec Ideal S32x32 .f32) = (V c main_v78 : S32x32.Idx → EReal) := by
  have e := idx2 t
  funext x
  unfold iblk2
  rw [View.read_apply]
  show (V c main_v78 : S32x32.Idx → EReal) _ = (V c main_v78 : S32x32.Idx → EReal) x
  refine congrArg (V c main_v78 : S32x32.Idx → EReal) ?_
  funext a; apply Fin.ext
  match a with
  | ⟨0, _⟩ => show win2_2.index t (0 : Fin 2) * 32 + 1 * (x 0).val = (x 0).val; omega
  | ⟨1, _⟩ => show win2_2.index t (1 : Fin 2) * 32 + 1 * (x 1).val = (x 1).val; omega

/-- Window 3's block at every point is its whole array. -/
theorem whole2_3 (c : Dev nD) (t : Fin cfg2.N) :
    (iblk2 (F := Ideal) V c 3 t : Vec Ideal S1x32 .f32) = (V c main_v84 : S1x32.Idx → EReal) := by
  have e := idx2 t
  funext x
  unfold iblk2
  rw [View.read_apply]
  show (V c main_v84 : S1x32.Idx → EReal) _ = (V c main_v84 : S1x32.Idx → EReal) x
  refine congrArg (V c main_v84 : S1x32.Idx → EReal) ?_
  funext a; apply Fin.ext
  match a with
  | ⟨0, _⟩ => show win2_3.index t (0 : Fin 2) * 1 + 1 * (x 0).val = (x 0).val; omega
  | ⟨1, _⟩ => show win2_3.index t (1 : Fin 2) * 32 + 1 * (x 1).val = (x 1).val; omega

/-- Window 4's block at every point is its whole array. -/
theorem whole2_4 (c : Dev nD) (t : Fin cfg2.N) :
    (iblk2 (F := Ideal) V c 4 t : Vec Ideal S32x32 .f32) = (V c main_v81 : S32x32.Idx → EReal) := by
  have e := idx2 t
  funext x
  unfold iblk2
  rw [View.read_apply]
  show (V c main_v81 : S32x32.Idx → EReal) _ = (V c main_v81 : S32x32.Idx → EReal) x
  refine congrArg (V c main_v81 : S32x32.Idx → EReal) ?_
  funext a; apply Fin.ext
  match a with
  | ⟨0, _⟩ => show win2_4.index t (0 : Fin 2) * 32 + 1 * (x 0).val = (x 0).val; omega
  | ⟨1, _⟩ => show win2_4.index t (1 : Fin 2) * 32 + 1 * (x 1).val = (x 1).val; omega

/-- Window 5's block at every point is its whole array. -/
theorem whole2_5 (c : Dev nD) (t : Fin cfg2.N) :
    (iblk2 (F := Ideal) V c 5 t : Vec Ideal S1x32 .f32) = (V c main_v18 : S1x32.Idx → EReal) := by
  have e := idx2 t
  funext x
  unfold iblk2
  rw [View.read_apply]
  show (V c main_v18 : S1x32.Idx → EReal) _ = (V c main_v18 : S1x32.Idx → EReal) x
  refine congrArg (V c main_v18 : S1x32.Idx → EReal) ?_
  funext a; apply Fin.ext
  match a with
  | ⟨0, _⟩ => show win2_5.index t (0 : Fin 2) * 1 + 1 * (x 0).val = (x 0).val; omega
  | ⟨1, _⟩ => show win2_5.index t (1 : Fin 2) * 32 + 1 * (x 1).val = (x 1).val; omega

/-- Window 6's block at every point is its whole array. -/
theorem whole2_6 (c : Dev nD) (t : Fin cfg2.N) :
    (iblk2 (F := Ideal) V c 6 t : Vec Ideal S1x32 .f32) = (V c main_v19 : S1x32.Idx → EReal) := by
  have e := idx2 t
  funext x
  unfold iblk2
  rw [View.read_apply]
  show (V c main_v19 : S1x32.Idx → EReal) _ = (V c main_v19 : S1x32.Idx → EReal) x
  refine congrArg (V c main_v19 : S1x32.Idx → EReal) ?_
  funext a; apply Fin.ext
  match a with
  | ⟨0, _⟩ => show win2_6.index t (0 : Fin 2) * 1 + 1 * (x 0).val = (x 0).val; omega
  | ⟨1, _⟩ => show win2_6.index t (1 : Fin 2) * 32 + 1 * (x 1).val = (x 1).val; omega

/-- Row `p`, feature `q` of the result window's block at point `t` is row `10000·t + p`, feature `q` of the array. -/
theorem emb2_7 (t : Fin cfg2.N) (p : Fin 10000) (q : Fin 32) (hr : t.val * 10000 + p.val < 100000) :
    ((cfg2.win 7).blk t).view.emb (ix2 p q : S10000x32.Idx) = (ix2 (⟨t.val * 10000 + p.val, hr⟩ : Fin 100000) q : S100000x32.Idx) := by
  have e := idx2 t
  funext a; apply Fin.ext
  match a with
  | ⟨0, _⟩ => show win2_7.index t (0 : Fin 2) * 10000 + 1 * p.val = t.val * 10000 + p.val; omega
  | ⟨1, _⟩ => show win2_7.index t (1 : Fin 2) * 32 + 1 * q.val = q.val; omega

/-- WHAT POINT `t` WRITES BACK is block `t` of the layer of the operand arrays. -/
theorem flushed2 (hpay : PayFact (k2_pay1 (F := Ideal)) (k2_pay2 (F := Ideal))) (c : Dev nD) (t : Fin cfg2.N) :
    (dat2 (F := Ideal) V c).flushed 7 t
      = ((cfg2.win 7).blk t).view.read (Elt Ideal) (Cert.Sage.layerArr (V c main_v75 : S100000x32.Idx → EReal) (V c main_v63 : S100000x32.Idx → EReal) (V c main_v78 : S32x32.Idx → EReal) (V c main_v81 : S32x32.Idx → EReal)
            (Cert.Sage.rowVec (V c main_v84 : S1x32.Idx → EReal)) (Cert.Sage.rowVec (V c main_v18 : S1x32.Idx → EReal)) (Cert.Sage.rowVec (V c main_v19 : S1x32.Idx → EReal))) := by
  have hN : grid2.N = 10 := N_2
  show (cfg2.win 7).cut (grid2.coords t) ((dat2 (F := Ideal) V c).after 7 t) = _
  rw [after2_7]
  unfold out2_7
  rw [View.canon_unit_zero hz]
  simp only [View.ld_unit_zero (S := S10000x32) hz, View.ld_unit_zero (S := S32x32) hz, View.ld_unit_zero (S := S1x32) hz]
  rw [whole2_2, whole2_3, whole2_4, whole2_5, whole2_6]
  funext j
  obtain ⟨p, q, rfl⟩ : ∃ (p : Fin 10000) (q : Fin 32), j = ix2 p q := ⟨j 0, j 1, eq_ix2 j⟩
  have ht : t.val < 10 := lt_of_lt_of_eq t.isLt N_2
  have hr : t.val * 10000 + p.val < 100000 := by have := p.isLt; omega
  rw [View.read_apply, emb2_7 t p q hr]
  refine (hpay _ _ _ _ _ _ _ p q).trans ?_
  refine (norm_congr (funext fun k => rows2_0 V c t p k hr) (funext fun k => rows2_1 V c t p k hr) rfl rfl rfl rfl rfl q).trans ?_
  rfl

/-- Row `r` of the array is in the block of point `r / 10000`. -/
theorem mem_blk2 (t : Fin cfg2.N) (i : S100000x32.Idx) :
    i ∈ ((cfg2.win 7).blk t).view.set ↔ ∀ a : Fin 2, win2_7.index t a * S10000x32.size a ≤ (i a).val ∧ (i a).val < win2_7.index t a * S10000x32.size a + S10000x32.size a := by
  show i ∈ ((View.whole main_v85).slice (win2_7.rect t)).set ↔ _
  rw [View.set_slice_whole, Rect.mem_set_unit]
  exact Iff.rfl

end Launch2

/-- THE RESULT ARRAY after launch 2: the layer of the operand arrays as the launch finds them. -/
theorem region2_value (hpay : PayFact (k2_pay1 (F := Ideal)) (k2_pay2 (F := Ideal)))
    (V : (c : Dev nD) → (b : Ref sig .tc) → Buf (Elt Ideal) ((c : Thread nD τ).loc b)) (c : Dev nD) :
    (dat2 (F := Ideal) V c).arrAt 7 cfg2.N
      = Cert.Sage.layerArr (V c main_v75 : S100000x32.Idx → EReal) (V c main_v63 : S100000x32.Idx → EReal) (V c main_v78 : S32x32.Idx → EReal) (V c main_v81 : S32x32.Idx → EReal)
            (Cert.Sage.rowVec (V c main_v84 : S1x32.Idx → EReal)) (Cert.Sage.rowVec (V c main_v18 : S1x32.Idx → EReal)) (Cert.Sage.rowVec (V c main_v19 : S1x32.Idx → EReal)) := by
  have hN : grid2.N = 10 := N_2
  refine (dat2 (F := Ideal) V c).arrAt_eq_of_cover 7 _ (fun t _ => flushed2 V hpay c t) fun i => ?_
  have hi0 : (i 0).val < 100000 := (i 0).isLt
  have hi1 : (i 1).val < 32 := (i 1).isLt
  let t : Fin cfg2.N := ⟨(i 0).val / 10000, by show (i 0).val / 10000 < grid2.N; omega⟩
  refine ⟨t, flush2_7 t, ?_⟩
  obtain ⟨-, -, -, -, -, -, -, -, -, -, -, -, -, -, e70, e71⟩ := idx2 t
  have ht : t.val = (i 0).val / 10000 := rfl
  rw [mem_blk2]
  intro a
  match a with
  | ⟨0, _⟩ => show win2_7.index t (0 : Fin 2) * 10000 ≤ (i 0).val ∧ (i 0).val < win2_7.index t (0 : Fin 2) * 10000 + 10000; omega
  | ⟨1, _⟩ => show win2_7.index t (1 : Fin 2) * 32 ≤ (i 1).val ∧ (i 1).val < win2_7.index t (1 : Fin 2) * 32 + 32; omega

end Cert.Sage.Blocks

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibColumn.lean ====
/-
  Column ("keepdims") layout forms read at an index given by coordinates, and one-axis float reductions of a matrix
  along its rows read as `Fin`-indexed sums and maxima. General lemmas in the style of the library's
  Lib/ValueLayout.lean: each fixes a rank and what the operation does there, with every index written `ixN …`.
  • `shapeCast_a_a1_apply`: a vector `[a]` cast to the column `[a, 1]`.
  • `broadcastTo_a1_ab_apply`: a column `[a, 1]` broadcast along the rows of `[a, b]`.
  • `transpose_a1_1a_apply`: a column `[a, 1]` transposed to the row `[1, a]`.
  • `multiReduction_add_rows_apply`: a float `<add>` reduction of `[a, b]` over axis 1, at the ideal values, is the
    sum over the row; `multiReduction_maximumf_rows_apply`: the `<maximumf>` one is the fold of `max` over the row.
  • `fold_max_bot_eq_sup`, `sup_indicator`: a fold of `max` from `⊥` is the supremum, and the supremum of a 0/1
    indicator over a nonempty range is 1 exactly when the indicator fires somewhere.
-/
import Idealize.ShloMosaic.Lib.ValueLayout
import Idealize.ShloMosaic.PureOps.Ideal.Laws

open scoped BigOperators

namespace Cert.Lib.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(u, i)`, the column at `(i, u)`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_ix2_apply x h u i

/-- At the ideal values a float `vector.multi_reduction <add>` of a matrix over axis 1, read at row `r`, is the sum of
    the row. -/
theorem multiReduction_add_rows_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext d
  match d with
  | ⟨0, _⟩ => exact Fin.ext rfl
  | ⟨1, _⟩ => exact Fin.ext rfl

/-- At the ideal values a float `vector.multi_reduction <maximumf>` of a matrix over axis 1, read at row `r`, is the
    fold of `max` from the accumulator's value over the row. -/
theorem multiReduction_maximumf_rows_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => (Finset.univ : Finset (Fin b)).fold max (Ideal.ofBits φ acc) f) ?_
  funext k
  refine congrArg src ?_
  funext d
  match d with
  | ⟨0, _⟩ => exact Fin.ext rfl
  | ⟨1, _⟩ => exact Fin.ext rfl

/-- The f32 word `0xFF800000` is `-∞`, the least extended real. -/
theorem ofBits_negInf_f32 : Ideal.ofBits .f32 0xFF800000#32 = ⊥ := by simp [Ideal.ofBits, Ideal.ieee]

/-- A fold of `max` from `⊥` is the supremum. -/
theorem fold_max_bot_eq_sup {ι : Type} (s : Finset ι) (f : ι → EReal) : s.fold max ⊥ f = s.sup f := rfl

/-- The supremum over a nonempty finite range of a 0/1 indicator is `1` when the indicator fires somewhere, else `0`. -/
theorem sup_indicator {ι : Type} [Fintype ι] [Nonempty ι] (p : ι → Prop) [DecidablePred p] [Decidable (∃ c, p c)] :
    (Finset.univ : Finset ι).sup (fun c => if p c then (1 : EReal) else 0) = if ∃ c, p c then 1 else 0 := by
  apply le_antisymm
  · refine Finset.sup_le fun c _ => ?_
    by_cases hc : p c
    · rw [if_pos hc, if_pos ⟨c, hc⟩]
    · rw [if_neg hc]; split
      · exact zero_le_one
      · exact le_rfl
  · split
    · rename_i hex
      obtain ⟨c, hc⟩ := hex
      have := Finset.le_sup (f := fun c => if p c then (1 : EReal) else 0) (Finset.mem_univ c)
      simpa [hc] using this
    · obtain ⟨c⟩ := ‹Nonempty ι›
      have := Finset.le_sup (f := fun c => if p c then (1 : EReal) else 0) (Finset.mem_univ c)
      refine le_trans ?_ this
      split
      · exact zero_le_one
      · exact le_rfl

end Cert.Lib.Column
-- ==== Proof.Body.lean ====
/-
  The value one launch of the layer stores, read at an index.

  The body forms, for a block of 10000 rows of the two operand matrices, the clamped sum of the two matrix products
  and the bias row, then normalises every row of 32 numbers by its mean and the mean of its squared deviations, scales
  it by one row and shifts it by another. On the extended reals every operation is exact and the rounding of the
  products' operands is the identity, so the stored value at row p, feature q is literally the specification's
  `norm` of row p of the two operands at q: the proof only reads each operation at an index.

  The pieces: `clampV` is the clamped sum as an array, `meanV`, `devV`, `varV`, `normV` the row mean (a column), the deviations,
  the row variance (a column) and the normalised array, each a function of the clamped array. The stored value is the
  generated term, which is these composed (by unfolding).
-/
import proofs.«174114_j74036646248566_1_alg».proof.Proof.Gen.KernelIdeal.Skeleton
import proofs.«174114_j74036646248566_1_alg».proof.Proof.Spec
import proofs.«174114_j74036646248566_1_alg».proof.Proof.LibMatmul
import proofs.«174114_j74036646248566_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage.Body

open Idealize.ShloMosaic Idealize.ShloMosaic.ValueIdx Cert.KernelIdeal Cert.KernelIdeal.Gen

/-- The f32 word of 32. -/
abbrev w32 : EReal := Ideal.ofBits .f32 0x42000000#32
/-- The f32 word of the small constant added to the variance. -/
abbrev weps : EReal := Ideal.ofBits .f32 0x3727C5AC#32

/-! ## The operations the body is made of, read at an index -/

/-- A product of the body into the zero accumulator, read at (p, o): the sum over the 32 contracted coordinates. The
    cast to the same shape and the rounding of the operands are the identity. -/
theorem mm_apply (L : FVec Ideal S10000x32 .f32) (R : FVec Ideal S32x32 .f32) (p : Fin 10000) (o : Fin 32) :
    matmul (F := Ideal) dot_S10000x32_S32x32_S10000x32_1_0_0_1_n_n none
        (truncf .bf16 (shapeCast S10000x32 L shapeCasts_S10000x32_S10000x32) bitsLt_bf16_f32)
        (truncf .bf16 (shapeCast S32x32 R shapeCasts_S32x32_S32x32) bitsLt_bf16_f32)
        (constant S10000x32 .f32 0x00000000#32) (ix2 p o)
      = ∑ k : Fin 32, L (ix2 p k) * R (ix2 k o) := by
  rw [shapeCast_self, shapeCast_self]
  exact Cert.Bridge.LibMatmul.matmul_zero_apply (M := 10000) (K := 32) (N := 32) none
    (truncf .bf16 L bitsLt_bf16_f32) (truncf .bf16 R bitsLt_bf16_f32) p o

/-- A 1 × 32 row, cast to its own shape and broadcast over the 10000 rows, read at (p, q): the row at q. -/
theorem row_apply (g : FVec Ideal S1x32 .f32) (p : Fin 10000) (q : Fin 32) :
    broadcastTo S10000x32 (shapeCast S1x32 g shapeCasts_S1x32_S1x32) broadcasts_S1x32_S10000x32 (ix2 p q)
      = g (ix2 (0 : Fin 1) q) :=
  (broadcastTo_1b_ab_apply _ _ p q).trans (congrFun (shapeCast_self g _) _)

/-! ## The clamped sum -/

/-- The clamped sum of the two products and the bias row, as an array. -/
def clampV (x0 x1 : FVec Ideal S10000x32 .f32) (x2 x4 : FVec Ideal S32x32 .f32) (x3 : FVec Ideal S1x32 .f32) :
    FVec Ideal S10000x32 .f32 :=
  maximumf
    (addf
      (addf
        (matmul dot_S10000x32_S32x32_S10000x32_1_0_0_1_n_n none
          (truncf .bf16 (shapeCast S10000x32 x0 shapeCasts_S10000x32_S10000x32) bitsLt_bf16_f32)
          (truncf .bf16 (shapeCast S32x32 x2 shapeCasts_S32x32_S32x32) bitsLt_bf16_f32)
          (constant S10000x32 .f32 0x00000000#32))
        (broadcastTo S10000x32 (shapeCast S1x32 x3 shapeCasts_S1x32_S1x32) broadcasts_S1x32_S10000x32))
      (matmul dot_S10000x32_S32x32_S10000x32_1_0_0_1_n_n none
        (truncf .bf16 (shapeCast S10000x32 x1 shapeCasts_S10000x32_S10000x32) bitsLt_bf16_f32)
        (truncf .bf16 (shapeCast S32x32 x4 shapeCasts_S32x32_S32x32) bitsLt_bf16_f32)
        (constant S10000x32 .f32 0x00000000#32)))
    (broadcast S10000x32 (Scalar.ofBits .f32 0x00000000#32))

/-- The clamped sum at (p, o) is the specification's `lin` of row p of the two operands at o. -/
theorem clampV_apply (x0 x1 : FVec Ideal S10000x32 .f32) (x2 x4 : FVec Ideal S32x32 .f32) (x3 : FVec Ideal S1x32 .f32)
    (p : Fin 10000) (o : Fin 32) :
    clampV x0 x1 x2 x4 x3 (ix2 p o)
      = Cert.Sage.lin (fun k => x0 (ix2 p k)) (fun k => x1 (ix2 p k)) x2 x4 (fun o => x3 (ix2 (0 : Fin 1) o)) o := by
  unfold clampV Cert.Sage.lin
  simp only [maximumf_apply, addf_apply, broadcast_apply]
  rw [mm_apply, mm_apply, row_apply]
  rfl

/-! ## The normalisation of an array's rows -/

/-- The row means, as a column: the row sums divided by 32. -/
def meanV (c : FVec Ideal S10000x32 .f32) : FVec Ideal S10000x1 .f32 :=
  divf
    (shapeCast S10000x1 (multiReduction .add [1] S10000 c 0x00000000#32 reduces_S10000x32_S10000 (.inl rfl) rfl)
      shapeCasts_S10000_S10000x1)
    (broadcast S10000x1 (Scalar.ofBits .f32 0x42000000#32))

/-- The deviations from the row means. -/
def devV (c : FVec Ideal S10000x32 .f32) : FVec Ideal S10000x32 .f32 :=
  subf c (broadcastTo S10000x32 (meanV c) broadcasts_S10000x1_S10000x32)

/-- The row means of the squared deviations, as a column. -/
def varV (c : FVec Ideal S10000x32 .f32) : FVec Ideal S10000x1 .f32 :=
  divf
    (shapeCast S10000x1
      (multiReduction .add [1] S10000 (mulf (devV c) (devV c)) 0x00000000#32 reduces_S10000x32_S10000 (.inl rfl) rfl)
      shapeCasts_S10000_S10000x1)
    (broadcast S10000x1 (Scalar.ofBits .f32 0x42000000#32))

/-- The deviations times the reciprocal square root of the shifted variance. -/
def normV (c : FVec Ideal S10000x32 .f32) : FVec Ideal S10000x32 .f32 :=
  mulf (devV c)
    (broadcastTo S10000x32 (rsqrt (addf (varV c) (broadcast S10000x1 (Scalar.ofBits .f32 0x3727C5AC#32))))
      broadcasts_S10000x1_S10000x32)

/-- A row sum cast to a column and divided by 32, read at (p, u). -/
theorem colmean_apply (c : FVec Ideal S10000x32 .f32) (p : Fin 10000) (u : Fin 1) :
    divf
        (shapeCast S10000x1 (multiReduction .add [1] S10000 c 0x00000000#32 reduces_S10000x32_S10000 (.inl rfl) rfl)
          shapeCasts_S10000_S10000x1)
        (broadcast S10000x1 (Scalar.ofBits .f32 0x42000000#32)) (ix2 p u)
      = Ideal.div (∑ k : Fin 32, c (ix2 p k)) w32 :=
  congrArg (fun t => Ideal.div t w32)
    ((Cert.Lib.Column.shapeCast_a_a1_apply _ _ p u).trans
      (Cert.Lib.Column.multiReduction_add_rows_apply c _ _ _ _ p))

theorem meanV_apply (c : FVec Ideal S10000x32 .f32) (p : Fin 10000) (u : Fin 1) :
    meanV c (ix2 p u) = Ideal.div (∑ k : Fin 32, c (ix2 p k)) w32 := colmean_apply c p u

theorem devV_apply (c : FVec Ideal S10000x32 .f32) (p : Fin 10000) (o : Fin 32) :
    devV c (ix2 p o) = c (ix2 p o) - meanV c (ix2 p (0 : Fin 1)) :=
  congrArg (fun t => c (ix2 p o) - t) (Cert.Lib.Column.broadcastTo_a1_ab_apply (meanV c) _ p o)

theorem varV_apply (c : FVec Ideal S10000x32 .f32) (p : Fin 10000) (u : Fin 1) :
    varV c (ix2 p u) = Ideal.div (∑ o : Fin 32, devV c (ix2 p o) * devV c (ix2 p o)) w32 :=
  colmean_apply (mulf (devV c) (devV c)) p u

theorem normV_apply (c : FVec Ideal S10000x32 .f32) (p : Fin 10000) (q : Fin 32) :
    normV c (ix2 p q) = devV c (ix2 p q) * Ideal.rsqrt (varV c (ix2 p (0 : Fin 1)) + weps) :=
  congrArg (fun t => devV c (ix2 p q) * t)
    (Cert.Lib.Column.broadcastTo_a1_ab_apply
      (rsqrt (addf (varV c) (broadcast S10000x1 (Scalar.ofBits .f32 0x3727C5AC#32)))) _ p q)

/-- The normalised array at (p, q), when row p of the array is the 32 numbers r. -/
theorem normV_row (c : FVec Ideal S10000x32 .f32) (p : Fin 10000) (r : Fin 32 → EReal)
    (hr : ∀ o : Fin 32, c (ix2 p o) = r o) (q : Fin 32) :
    normV c (ix2 p q)
      = (r q - Ideal.div (∑ o : Fin 32, r o) w32)
          * Ideal.rsqrt (Ideal.div (∑ o : Fin 32, (r o - Ideal.div (∑ o : Fin 32, r o) w32)
              * (r o - Ideal.div (∑ o : Fin 32, r o) w32)) w32 + weps) := by
  have e1 : ∀ u : Fin 1, meanV c (ix2 p u) = Ideal.div (∑ o : Fin 32, r o) w32 := fun u =>
    (meanV_apply c p u).trans (congrArg (fun s => Ideal.div s w32) (Finset.sum_congr rfl fun o _ => hr o))
  have e2 : ∀ o : Fin 32, devV c (ix2 p o) = r o - Ideal.div (∑ o : Fin 32, r o) w32 := fun o =>
    (devV_apply c p o).trans (by rw [hr o, e1 0])
  have e3 : varV c (ix2 p (0 : Fin 1))
      = Ideal.div (∑ o : Fin 32, (r o - Ideal.div (∑ o : Fin 32, r o) w32)
          * (r o - Ideal.div (∑ o : Fin 32, r o) w32)) w32 :=
    (varV_apply c p 0).trans (congrArg (fun s => Ideal.div s w32) (Finset.sum_congr rfl fun o _ => by rw [e2 o]))
  exact (normV_apply c p q).trans (by rw [e2 q, e3])

/-! ## The stored value -/

/-- The normalised array scaled by one row and shifted by another, read at (p, q). -/
theorem out_apply (v : FVec Ideal S10000x32 .f32) (g b : FVec Ideal S1x32 .f32) (p : Fin 10000) (q : Fin 32) :
    k0_pay1 (F := Ideal) v g b (ix2 p q) = v (ix2 p q) * g (ix2 (0 : Fin 1) q) + b (ix2 (0 : Fin 1) q) := by
  unfold k0_pay1
  simp only [addf_apply, mulf_apply]
  rw [row_apply, row_apply]

/-- The generated term of the normalised array is the pieces above composed. -/
theorem pay2_eq (x0 x1 : FVec Ideal S10000x32 .f32) (x2 x4 : FVec Ideal S32x32 .f32) (x3 : FVec Ideal S1x32 .f32) :
    k0_pay2 (F := Ideal) x0 x1 x2 x4 x3 = normV (clampV x0 x1 x2 x4 x3) := rfl

/-- The first launch's stored value at (p, q) is the specification's `norm` of row p of the two operands at q. -/
theorem pay_apply0 (x0 x1 : Vec Ideal S10000x32 .f32) (x2 : Vec Ideal S32x32 .f32) (x3 : Vec Ideal S1x32 .f32)
    (x4 : Vec Ideal S32x32 .f32) (x5 x6 : Vec Ideal S1x32 .f32) (p : Fin 10000) (q : Fin 32) :
    k0_pay1 (F := Ideal) (k0_pay2 (F := Ideal) x0 x1 x2 x4 x3) x5 x6 (ix2 p q)
      = Cert.Sage.norm (fun k => x0 (ix2 p k)) (fun k => x1 (ix2 p k)) x2 x4
          (fun o => x3 (ix2 (0 : Fin 1) o)) (fun o => x5 (ix2 (0 : Fin 1) o)) (fun o => x6 (ix2 (0 : Fin 1) o)) q := by
  rw [pay2_eq]
  refine (out_apply _ x5 x6 p q).trans ?_
  rw [normV_row (clampV x0 x1 x2 x4 x3) p _ (fun o => clampV_apply x0 x1 x2 x4 x3 p o) q]
  rfl

/-- The second and third launches' terms are the first's. -/
theorem pay1_eq1 : @k1_pay1 Ideal _ = @k0_pay1 Ideal _ := rfl
theorem pay2_eq1 : @k1_pay2 Ideal _ = @k0_pay2 Ideal _ := rfl
theorem pay1_eq2 : @k2_pay1 Ideal _ = @k0_pay1 Ideal _ := rfl
theorem pay2_eq2 : @k2_pay2 Ideal _ = @k0_pay2 Ideal _ := rfl

/-- The second launch's stored value at (p, q). -/
theorem pay_apply1 (x0 x1 : Vec Ideal S10000x32 .f32) (x2 : Vec Ideal S32x32 .f32) (x3 : Vec Ideal S1x32 .f32)
    (x4 : Vec Ideal S32x32 .f32) (x5 x6 : Vec Ideal S1x32 .f32) (p : Fin 10000) (q : Fin 32) :
    k1_pay1 (F := Ideal) (k1_pay2 (F := Ideal) x0 x1 x2 x4 x3) x5 x6 (ix2 p q)
      = Cert.Sage.norm (fun k => x0 (ix2 p k)) (fun k => x1 (ix2 p k)) x2 x4
          (fun o => x3 (ix2 (0 : Fin 1) o)) (fun o => x5 (ix2 (0 : Fin 1) o)) (fun o => x6 (ix2 (0 : Fin 1) o)) q := by
  rw [pay1_eq1, pay2_eq1]; exact pay_apply0 x0 x1 x2 x3 x4 x5 x6 p q

/-- The third launch's stored value at (p, q). -/
theorem pay_apply2 (x0 x1 : Vec Ideal S10000x32 .f32) (x2 : Vec Ideal S32x32 .f32) (x3 : Vec Ideal S1x32 .f32)
    (x4 : Vec Ideal S32x32 .f32) (x5 x6 : Vec Ideal S1x32 .f32) (p : Fin 10000) (q : Fin 32) :
    k2_pay1 (F := Ideal) (k2_pay2 (F := Ideal) x0 x1 x2 x4 x3) x5 x6 (ix2 p q)
      = Cert.Sage.norm (fun k => x0 (ix2 p k)) (fun k => x1 (ix2 p k)) x2 x4
          (fun o => x3 (ix2 (0 : Fin 1) o)) (fun o => x5 (ix2 (0 : Fin 1) o)) (fun o => x6 (ix2 (0 : Fin 1) o)) q := by
  rw [pay1_eq2, pay2_eq2]; exact pay_apply0 x0 x1 x2 x3 x4 x5 x6 p q

end Cert.Sage.Body

end
-- ==== Proof.RefLayer.lean ====
/-
  Each of the reference program's three layers, as a whole array, is `Cert.Sage.layerArr` of its two operand arrays.

  At the ideal instance every operation is exact, so the program's operations, read one at a time at row `n` and
  feature `q`, spell the formula of `Cert.Sage.norm` in the same order: the two contractions over the 32 input
  features, the bias, the clamp at zero, the mean over the row, the mean of the squared deviations, the reciprocal
  square root and the scale and shift. The only law used is `0 + x = x` for the initial value of the two row sums.
  The operand arrays (the aggregated features and the node's own features) are never opened.
-/
import proofs.«174114_j74036646248566_1_alg».proof.Proof.RefRead
import proofs.«174114_j74036646248566_1_alg».proof.Proof.Spec

noncomputable section

open scoped BigOperators

namespace Cert.Sage.Ref

open Idealize.ShloMosaic Idealize.ShloMosaic.ValueIdx Cert.ReferenceIdeal Cert.ReferenceIdeal.ReadP

/-! ### Layer 1 -/

/-- The clamped sum of the two linear maps of layer 1, read at row `n`, feature `o`: the two contractions read
    row `n` of the operand matrices against column `o` of the weight matrices, and the bias is read at `o`. -/
private theorem lin0 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (n : Fin 100000) (o : Fin 32) :
    val_main_v44 (F := Ideal) x0 x1 x2 x3 x4 x5 x6 (ix2 n o)
      = Cert.Sage.lin (fun k => val_main_v29 (F := Ideal) x0 x1 x2 x3 (ix2 n k)) (fun k => val_main_v17 (F := Ideal) x0 x2 x3 (ix2 n k))
          (val_main_v32 (F := Ideal) x4) (val_main_v41 (F := Ideal) x6) (fun o => val_main_v35 (F := Ideal) x5 (ix1 o)) o := by
  rw [val_main_v44_apply, val_main_v43_apply, val_main_v38_apply, val_main_v33_apply, val_main_v37_apply, val_main_v36_apply, val_main_v42_apply,
    val_main_call0_v0_apply, val_main_call0_cst_apply]
  generalize val_main_v29 (F := Ideal) x0 x1 x2 x3 = A
  generalize val_main_v17 (F := Ideal) x0 x2 x3 = H
  generalize val_main_v32 (F := Ideal) x4 = wl
  generalize val_main_v41 (F := Ideal) x6 = wr
  generalize val_main_v35 (F := Ideal) x5 = bl
  have e1 : ∀ k : Fin 32, lidx_main_v33 (ix2 n o) k = ix2 n k := fun k => funext fun a => Fin.ext (by match a with | ⟨0, _⟩ => rfl | ⟨1, _⟩ => rfl)
  have e2 : ∀ k : Fin 32, ridx_main_v33 (ix2 n o) k = ix2 k o := fun k => funext fun a => Fin.ext (by match a with | ⟨0, _⟩ => rfl | ⟨1, _⟩ => rfl)
  have e3 : ∀ k : Fin 32, lidx_main_v42 (ix2 n o) k = ix2 n k := fun k => funext fun a => Fin.ext (by match a with | ⟨0, _⟩ => rfl | ⟨1, _⟩ => rfl)
  have e4 : ∀ k : Fin 32, ridx_main_v42 (ix2 n o) k = ix2 k o := fun k => funext fun a => Fin.ext (by match a with | ⟨0, _⟩ => rfl | ⟨1, _⟩ => rfl)
  have e5 : idx_main_v36 (idx_main_v37 (ix2 n o)) = ix1 o := funext fun a => Fin.ext (by match a with | ⟨0, _⟩ => rfl)
  have s1 : (∑ k : Fin 32, A (lidx_main_v33 (ix2 n o) k) * wl (ridx_main_v33 (ix2 n o) k))
      = ∑ k : Fin 32, A (ix2 n k) * wl (ix2 k o) := Finset.sum_congr rfl fun k _ => by rw [e1 k, e2 k]
  have s2 : (∑ k : Fin 32, H (lidx_main_v42 (ix2 n o) k) * wr (ridx_main_v42 (ix2 n o) k))
      = ∑ k : Fin 32, H (ix2 n k) * wr (ix2 k o) := Finset.sum_congr rfl fun k _ => by rw [e3 k, e4 k]
  rw [s1, s2, e5]
  rfl

/-- The mean of the 32 clamped sums of row `n`: the sum starts from the word of zero, which is the number 0. -/
private theorem mu0 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (n : Fin 100000) :
    val_main_v48 (F := Ideal) x0 x1 x2 x3 x4 x5 x6 (ix2 n (0 : Fin 1))
      = Cert.Sage.mu (fun k => val_main_v29 (F := Ideal) x0 x1 x2 x3 (ix2 n k)) (fun k => val_main_v17 (F := Ideal) x0 x2 x3 (ix2 n k))
          (val_main_v32 (F := Ideal) x4) (val_main_v41 (F := Ideal) x6) (fun o => val_main_v35 (F := Ideal) x5 (ix1 o)) := by
  rw [val_main_v48_apply, val_main_v46_apply, val_main_v45_apply, val_main_v47_apply, val_main_cst_6_apply, val_main_cst_5_apply]
  have e : ∀ k : Fin 32, idx_main_v45 (idx_main_v46 (ix2 n (0 : Fin 1))) k = ix2 n k := fun k => funext fun a => Fin.ext (by match a with | ⟨0, _⟩ => rfl | ⟨1, _⟩ => rfl)
  have s : (∑ k : Fin 32, val_main_v44 (F := Ideal) x0 x1 x2 x3 x4 x5 x6 (idx_main_v45 (idx_main_v46 (ix2 n (0 : Fin 1))) k))
      = ∑ k : Fin 32, Cert.Sage.lin (fun k => val_main_v29 (F := Ideal) x0 x1 x2 x3 (ix2 n k)) (fun k => val_main_v17 (F := Ideal) x0 x2 x3 (ix2 n k))
          (val_main_v32 (F := Ideal) x4) (val_main_v41 (F := Ideal) x6) (fun o => val_main_v35 (F := Ideal) x5 (ix1 o)) k :=
    Finset.sum_congr rfl fun k _ => by rw [e k, lin0]
  rw [s]
  unfold Cert.Sage.mu
  simp only [Ideal.hostDivf_def, Ideal.ofBits_def]
  rw [Ideal.ofBits_zero_f32, zero_add]

/-- The deviation of the clamped sum at feature `k` from the row's mean. -/
private theorem dev0 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (n : Fin 100000) (k : Fin 32) :
    val_main_v50 (F := Ideal) x0 x1 x2 x3 x4 x5 x6 (ix2 n k)
      = Cert.Sage.lin (fun k => val_main_v29 (F := Ideal) x0 x1 x2 x3 (ix2 n k)) (fun k => val_main_v17 (F := Ideal) x0 x2 x3 (ix2 n k))
          (val_main_v32 (F := Ideal) x4) (val_main_v41 (F := Ideal) x6) (fun o => val_main_v35 (F := Ideal) x5 (ix1 o)) k
        - Cert.Sage.mu (fun k => val_main_v29 (F := Ideal) x0 x1 x2 x3 (ix2 n k)) (fun k => val_main_v17 (F := Ideal) x0 x2 x3 (ix2 n k))
          (val_main_v32 (F := Ideal) x4) (val_main_v41 (F := Ideal) x6) (fun o => val_main_v35 (F := Ideal) x5 (ix1 o)) := by
  have e : idx_main_v49 (ix2 n k) = ix2 n (0 : Fin 1) := funext fun a => Fin.ext (by match a with | ⟨0, _⟩ => rfl | ⟨1, _⟩ => rfl)
  rw [val_main_v50_apply, val_main_v49_apply, e, lin0, mu0]
  exact Ideal.subf_def _ _

/-- The mean of the squared deviations of row `n`. -/
private theorem var0 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (n : Fin 100000) :
    val_main_v55 (F := Ideal) x0 x1 x2 x3 x4 x5 x6 (ix2 n (0 : Fin 1))
      = Cert.Sage.var (fun k => val_main_v29 (F := Ideal) x0 x1 x2 x3 (ix2 n k)) (fun k => val_main_v17 (F := Ideal) x0 x2 x3 (ix2 n k))
          (val_main_v32 (F := Ideal) x4) (val_main_v41 (F := Ideal) x6) (fun o => val_main_v35 (F := Ideal) x5 (ix1 o)) := by
  rw [val_main_v55_apply, val_main_v53_apply, val_main_v52_apply, val_main_v54_apply, val_main_cst_8_apply, val_main_cst_7_apply]
  have e : ∀ k : Fin 32, idx_main_v52 (idx_main_v53 (ix2 n (0 : Fin 1))) k = ix2 n k := fun k => funext fun a => Fin.ext (by match a with | ⟨0, _⟩ => rfl | ⟨1, _⟩ => rfl)
  have s : (∑ k : Fin 32, val_main_v51 (F := Ideal) x0 x1 x2 x3 x4 x5 x6 (idx_main_v52 (idx_main_v53 (ix2 n (0 : Fin 1))) k))
      = ∑ k : Fin 32, (Cert.Sage.lin (fun k => val_main_v29 (F := Ideal) x0 x1 x2 x3 (ix2 n k)) (fun k => val_main_v17 (F := Ideal) x0 x2 x3 (ix2 n k))
          (val_main_v32 (F := Ideal) x4) (val_main_v41 (F := Ideal) x6) (fun o => val_main_v35 (F := Ideal) x5 (ix1 o)) k
          - Cert.Sage.mu (fun k => val_main_v29 (F := Ideal) x0 x1 x2 x3 (ix2 n k)) (fun k => val_main_v17 (F := Ideal) x0 x2 x3 (ix2 n k))
          (val_main_v32 (F := Ideal) x4) (val_main_v41 (F := Ideal) x6) (fun o => val_main_v35 (F := Ideal) x5 (ix1 o)))
        * (Cert.Sage.lin (fun k => val_main_v29 (F := Ideal) x0 x1 x2 x3 (ix2 n k)) (fun k => val_main_v17 (F := Ideal) x0 x2 x3 (ix2 n k))
          (val_main_v32 (F := Ideal) x4) (val_main_v41 (F := Ideal) x6) (fun o => val_main_v35 (F := Ideal) x5 (ix1 o)) k
          - Cert.Sage.mu (fun k => val_main_v29 (F := Ideal) x0 x1 x2 x3 (ix2 n k)) (fun k => val_main_v17 (F := Ideal) x0 x2 x3 (ix2 n k))
          (val_main_v32 (F := Ideal) x4) (val_main_v41 (F := Ideal) x6) (fun o => val_main_v35 (F := Ideal) x5 (ix1 o))) :=
    Finset.sum_congr rfl fun k _ => by rw [e k, val_main_v51_apply, dev0]; exact Ideal.mulf_def _ _
  rw [s]
  unfold Cert.Sage.var
  simp only [Ideal.hostDivf_def, Ideal.ofBits_def]
  rw [Ideal.ofBits_zero_f32, zero_add]

/-- Layer 1 of the reference program, as a whole array, is the layer of its two operand arrays. -/
theorem layer0 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (x7 x8 : (⟨S32, .f32⟩ : BufTy).Contents (Elt Ideal)) :
    val_main_v68 (F := Ideal) x0 x1 x2 x3 x4 x5 x6 x7 x8
      = Cert.Sage.layerArr (val_main_v29 (F := Ideal) x0 x1 x2 x3) (val_main_v17 (F := Ideal) x0 x2 x3)
          (val_main_v32 (F := Ideal) x4) (val_main_v41 (F := Ideal) x6) (val_main_v35 (F := Ideal) x5) x7 x8 := by
  funext i
  obtain ⟨n, q, rfl⟩ : ∃ (n : Fin 100000) (q : Fin 32), i = ix2 n q := ⟨i 0, i 1, eq_ix2 i⟩
  rw [Cert.Sage.layerArr_apply, val_main_v68_apply, val_main_v65_apply, val_main_v62_apply, val_main_v57_apply, val_main_v56_apply, val_main_v61_apply, val_main_v60_apply, val_main_v59_apply, val_main_v58_apply,
    val_main_cst_9_apply, val_main_v64_apply, val_main_v63_apply, val_main_v67_apply, val_main_v66_apply]
  have e56 : idx_main_v56 (ix2 n q) = ix2 n (0 : Fin 1) := funext fun a => Fin.ext (by match a with | ⟨0, _⟩ => rfl | ⟨1, _⟩ => rfl)
  have e61 : idx_main_v61 (ix2 n q) = ix2 n (0 : Fin 1) := funext fun a => Fin.ext (by match a with | ⟨0, _⟩ => rfl | ⟨1, _⟩ => rfl)
  have e63 : idx_main_v63 (idx_main_v64 (ix2 n q)) = ix1 q := funext fun a => Fin.ext (by match a with | ⟨0, _⟩ => rfl)
  have e66 : idx_main_v66 (idx_main_v67 (ix2 n q)) = ix1 q := funext fun a => Fin.ext (by match a with | ⟨0, _⟩ => rfl)
  rw [e56, e61, e63, e66, lin0, mu0, var0]
  unfold Cert.Sage.norm
  simp only [Ideal.addf_def, Ideal.subf_def, Ideal.mulf_def, Ideal.hostUnary_rsqrt_def, Ideal.ofBits_def]

/-! ### Layer 2 -/

/-- The clamped sum of the two linear maps of layer 2, read at row `n`, feature `o`: the two contractions read
    row `n` of the operand matrices against column `o` of the weight matrices, and the bias is read at `o`. -/
private theorem lin1 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (x7 x8 : (⟨S32, .f32⟩ : BufTy).Contents (Elt Ideal)) (n : Fin 100000) (o : Fin 32) :
    val_main_v95 (F := Ideal) x0 x1 x2 x3 x4 x5 x6 x7 x8 (ix2 n o)
      = Cert.Sage.lin (fun k => val_main_v80 (F := Ideal) x0 x1 x2 x3 x4 x5 x6 x7 x8 (ix2 n k)) (fun k => val_main_v68 (F := Ideal) x0 x1 x2 x3 x4 x5 x6 x7 x8 (ix2 n k))
          (val_main_v83 (F := Ideal) x4) (val_main_v92 (F := Ideal) x6) (fun o => val_main_v86 (F := Ideal) x5 (ix1 o)) o := by
  rw [val_main_v95_apply, val_main_v94_apply, val_main_v89_apply, val_main_v84_apply, val_main_v88_apply, val_main_v87_apply, val_main_v93_apply,
    val_main_call1_v0_apply, val_main_call1_cst_apply]
  generalize val_main_v80 (F := Ideal) x0 x1 x2 x3 x4 x5 x6 x7 x8 = A
  generalize val_main_v68 (F := Ideal) x0 x1 x2 x3 x4 x5 x6 x7 x8 = H
  generalize val_main_v83 (F := Ideal) x4 = wl
  generalize val_main_v92 (F := Ideal) x6 = wr
  generalize val_main_v86 (F := Ideal) x5 = bl
  have e1 : ∀ k : Fin 32, lidx_main_v84 (ix2 n o) k = ix2 n k := fun k => funext fun a => Fin.ext (by match a with | ⟨0, _⟩ => rfl | ⟨1, _⟩ => rfl)
  have e2 : ∀ k : Fin 32, ridx_main_v84 (ix2 n o) k = ix2 k o := fun k => funext fun a => Fin.ext (by match a with | ⟨0, _⟩ => rfl | ⟨1, _⟩ => rfl)
  have e3 : ∀ k : Fin 32, lidx_main_v93 (ix2 n o) k = ix2 n k := fun k => funext fun a => Fin.ext (by match a with | ⟨0, _⟩ => rfl | ⟨1, _⟩ => rfl)
  have e4 : ∀ k : Fin 32, ridx_main_v93 (ix2 n o) k = ix2 k o := fun k => funext fun a => Fin.ext (by match a with | ⟨0, _⟩ => rfl | ⟨1, _⟩ => rfl)
  have e5 : idx_main_v87 (idx_main_v88 (ix2 n o)) = ix1 o := funext fun a => Fin.ext (by match a with | ⟨0, _⟩ => rfl)
  have s1 : (∑ k : Fin 32, A (lidx_main_v84 (ix2 n o) k) * wl (ridx_main_v84 (ix2 n o) k))
      = ∑ k : Fin 32, A (ix2 n k) * wl (ix2 k o) := Finset.sum_congr rfl fun k _ => by rw [e1 k, e2 k]
  have s2 : (∑ k : Fin 32, H (lidx_main_v93 (ix2 n o) k) * wr (ridx_main_v93 (ix2 n o) k))
      = ∑ k : Fin 32, H (ix2 n k) * wr (ix2 k o) := Finset.sum_congr rfl fun k _ => by rw [e3 k, e4 k]
  rw [s1, s2, e5]
  rfl

/-- The mean of the 32 clamped sums of row `n`: the sum starts from the word of zero, which is the number 0. -/
private theorem mu1 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (x7 x8 : (⟨S32, .f32⟩ : BufTy).Contents (Elt Ideal)) (n : Fin 100000) :
    val_main_v99 (F := Ideal) x0 x1 x2 x3 x4 x5 x6 x7 x8 (ix2 n (0 : Fin 1))
      = Cert.Sage.mu (fun k => val_main_v80 (F := Ideal) x0 x1 x2 x3 x4 x5 x6 x7 x8 (ix2 n k)) (fun k => val_main_v68 (F := Ideal) x0 x1 x2 x3 x4 x5 x6 x7 x8 (ix2 n k))
          (val_main_v83 (F := Ideal) x4) (val_main_v92 (F := Ideal) x6) (fun o => val_main_v86 (F := Ideal) x5 (ix1 o)) := by
  rw [val_main_v99_apply, val_main_v97_apply, val_main_v96_apply, val_main_v98_apply, val_main_cst_14_apply, val_main_cst_13_apply]
  have e : ∀ k : Fin 32, idx_main_v96 (idx_main_v97 (ix2 n (0 : Fin 1))) k = ix2 n k := fun k => funext fun a => Fin.ext (by match a with | ⟨0, _⟩ => rfl | ⟨1, _⟩ => rfl)
  have s : (∑ k : Fin 32, val_main_v95 (F := Ideal) x0 x1 x2 x3 x4 x5 x6 x7 x8 (idx_main_v96 (idx_main_v97 (ix2 n (0 : Fin 1))) k))
      = ∑ k : Fin 32, Cert.Sage.lin (fun k => val_main_v80 (F := Ideal) x0 x1 x2 x3 x4 x5 x6 x7 x8 (ix2 n k)) (fun k => val_main_v68 (F := Ideal) x0 x1 x2 x3 x4 x5 x6 x7 x8 (ix2 n k))
          (val_main_v83 (F := Ideal) x4) (val_main_v92 (F := Ideal) x6) (fun o => val_main_v86 (F := Ideal) x5 (ix1 o)) k :=
    Finset.sum_congr rfl fun k _ => by rw [e k, lin1]
  rw [s]
  unfold Cert.Sage.mu
  simp only [Ideal.hostDivf_def, Ideal.ofBits_def]
  rw [Ideal.ofBits_zero_f32, zero_add]

/-- The deviation of the clamped sum at feature `k` from the row's mean. -/
private theorem dev1 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (x7 x8 : (⟨S32, .f32⟩ : BufTy).Contents (Elt Ideal)) (n : Fin 100000) (k : Fin 32) :
    val_main_v101 (F := Ideal) x0 x1 x2 x3 x4 x5 x6 x7 x8 (ix2 n k)
      = Cert.Sage.lin (fun k => val_main_v80 (F := Ideal) x0 x1 x2 x3 x4 x5 x6 x7 x8 (ix2 n k)) (fun k => val_main_v68 (F := Ideal) x0 x1 x2 x3 x4 x5 x6 x7 x8 (ix2 n k))
          (val_main_v83 (F := Ideal) x4) (val_main_v92 (F := Ideal) x6) (fun o => val_main_v86 (F := Ideal) x5 (ix1 o)) k
        - Cert.Sage.mu (fun k => val_main_v80 (F := Ideal) x0 x1 x2 x3 x4 x5 x6 x7 x8 (ix2 n k)) (fun k => val_main_v68 (F := Ideal) x0 x1 x2 x3 x4 x5 x6 x7 x8 (ix2 n k))
          (val_main_v83 (F := Ideal) x4) (val_main_v92 (F := Ideal) x6) (fun o => val_main_v86 (F := Ideal) x5 (ix1 o)) := by
  have e : idx_main_v100 (ix2 n k) = ix2 n (0 : Fin 1) := funext fun a => Fin.ext (by match a with | ⟨0, _⟩ => rfl | ⟨1, _⟩ => rfl)
  rw [val_main_v101_apply, val_main_v100_apply, e, lin1, mu1]
  exact Ideal.subf_def _ _

/-- The mean of the squared deviations of row `n`. -/
private theorem var1 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (x7 x8 : (⟨S32, .f32⟩ : BufTy).Contents (Elt Ideal)) (n : Fin 100000) :
    val_main_v106 (F := Ideal) x0 x1 x2 x3 x4 x5 x6 x7 x8 (ix2 n (0 : Fin 1))
      = Cert.Sage.var (fun k => val_main_v80 (F := Ideal) x0 x1 x2 x3 x4 x5 x6 x7 x8 (ix2 n k)) (fun k => val_main_v68 (F := Ideal) x0 x1 x2 x3 x4 x5 x6 x7 x8 (ix2 n k))
          (val_main_v83 (F := Ideal) x4) (val_main_v92 (F := Ideal) x6) (fun o => val_main_v86 (F := Ideal) x5 (ix1 o)) := by
  rw [val_main_v106_apply, val_main_v104_apply, val_main_v103_apply, val_main_v105_apply, val_main_cst_16_apply, val_main_cst_15_apply]
  have e : ∀ k : Fin 32, idx_main_v103 (idx_main_v104 (ix2 n (0 : Fin 1))) k = ix2 n k := fun k => funext fun a => Fin.ext (by match a with | ⟨0, _⟩ => rfl | ⟨1, _⟩ => rfl)
  have s : (∑ k : Fin 32, val_main_v102 (F := Ideal) x0 x1 x2 x3 x4 x5 x6 x7 x8 (idx_main_v103 (idx_main_v104 (ix2 n (0 : Fin 1))) k))
      = ∑ k : Fin 32, (Cert.Sage.lin (fun k => val_main_v80 (F := Ideal) x0 x1 x2 x3 x4 x5 x6 x7 x8 (ix2 n k)) (fun k => val_main_v68 (F := Ideal) x0 x1 x2 x3 x4 x5 x6 x7 x8 (ix2 n k))
          (val_main_v83 (F := Ideal) x4) (val_main_v92 (F := Ideal) x6) (fun o => val_main_v86 (F := Ideal) x5 (ix1 o)) k
          - Cert.Sage.mu (fun k => val_main_v80 (F := Ideal) x0 x1 x2 x3 x4 x5 x6 x7 x8 (ix2 n k)) (fun k => val_main_v68 (F := Ideal) x0 x1 x2 x3 x4 x5 x6 x7 x8 (ix2 n k))
          (val_main_v83 (F := Ideal) x4) (val_main_v92 (F := Ideal) x6) (fun o => val_main_v86 (F := Ideal) x5 (ix1 o)))
        * (Cert.Sage.lin (fun k => val_main_v80 (F := Ideal) x0 x1 x2 x3 x4 x5 x6 x7 x8 (ix2 n k)) (fun k => val_main_v68 (F := Ideal) x0 x1 x2 x3 x4 x5 x6 x7 x8 (ix2 n k))
          (val_main_v83 (F := Ideal) x4) (val_main_v92 (F := Ideal) x6) (fun o => val_main_v86 (F := Ideal) x5 (ix1 o)) k
          - Cert.Sage.mu (fun k => val_main_v80 (F := Ideal) x0 x1 x2 x3 x4 x5 x6 x7 x8 (ix2 n k)) (fun k => val_main_v68 (F := Ideal) x0 x1 x2 x3 x4 x5 x6 x7 x8 (ix2 n k))
          (val_main_v83 (F := Ideal) x4) (val_main_v92 (F := Ideal) x6) (fun o => val_main_v86 (F := Ideal) x5 (ix1 o))) :=
    Finset.sum_congr rfl fun k _ => by rw [e k, val_main_v102_apply, dev1]; exact Ideal.mulf_def _ _
  rw [s]
  unfold Cert.Sage.var
  simp only [Ideal.hostDivf_def, Ideal.ofBits_def]
  rw [Ideal.ofBits_zero_f32, zero_add]

/-- Layer 2 of the reference program, as a whole array, is the layer of its two operand arrays. -/
theorem layer1 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (x7 x8 : (⟨S32, .f32⟩ : BufTy).Contents (Elt Ideal)) :
    val_main_v119 (F := Ideal) x0 x1 x2 x3 x4 x5 x6 x7 x8
      = Cert.Sage.layerArr (val_main_v80 (F := Ideal) x0 x1 x2 x3 x4 x5 x6 x7 x8) (val_main_v68 (F := Ideal) x0 x1 x2 x3 x4 x5 x6 x7 x8)
          (val_main_v83 (F := Ideal) x4) (val_main_v92 (F := Ideal) x6) (val_main_v86 (F := Ideal) x5) x7 x8 := by
  funext i
  obtain ⟨n, q, rfl⟩ : ∃ (n : Fin 100000) (q : Fin 32), i = ix2 n q := ⟨i 0, i 1, eq_ix2 i⟩
  rw [Cert.Sage.layerArr_apply, val_main_v119_apply, val_main_v116_apply, val_main_v113_apply, val_main_v108_apply, val_main_v107_apply, val_main_v112_apply, val_main_v111_apply, val_main_v110_apply, val_main_v109_apply,
    val_main_cst_17_apply, val_main_v115_apply, val_main_v114_apply, val_main_v118_apply, val_main_v117_apply]
  have e56 : idx_main_v107 (ix2 n q) = ix2 n (0 : Fin 1) := funext fun a => Fin.ext (by match a with | ⟨0, _⟩ => rfl | ⟨1, _⟩ => rfl)
  have e61 : idx_main_v112 (ix2 n q) = ix2 n (0 : Fin 1) := funext fun a => Fin.ext (by match a with | ⟨0, _⟩ => rfl | ⟨1, _⟩ => rfl)
  have e63 : idx_main_v114 (idx_main_v115 (ix2 n q)) = ix1 q := funext fun a => Fin.ext (by match a with | ⟨0, _⟩ => rfl)
  have e66 : idx_main_v117 (idx_main_v118 (ix2 n q)) = ix1 q := funext fun a => Fin.ext (by match a with | ⟨0, _⟩ => rfl)
  rw [e56, e61, e63, e66, lin1, mu1, var1]
  unfold Cert.Sage.norm
  simp only [Ideal.addf_def, Ideal.subf_def, Ideal.mulf_def, Ideal.hostUnary_rsqrt_def, Ideal.ofBits_def]

/-! ### Layer 3 -/

/-- The clamped sum of the two linear maps of layer 3, read at row `n`, feature `o`: the two contractions read
    row `n` of the operand matrices against column `o` of the weight matrices, and the bias is read at `o`. -/
private theorem lin2 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (x7 x8 : (⟨S32, .f32⟩ : BufTy).Contents (Elt Ideal)) (n : Fin 100000) (o : Fin 32) :
    val_main_v146 (F := Ideal) x0 x1 x2 x3 x4 x5 x6 x7 x8 (ix2 n o)
      = Cert.Sage.lin (fun k => val_main_v131 (F := Ideal) x0 x1 x2 x3 x4 x5 x6 x7 x8 (ix2 n k)) (fun k => val_main_v119 (F := Ideal) x0 x1 x2 x3 x4 x5 x6 x7 x8 (ix2 n k))
          (val_main_v134 (F := Ideal) x4) (val_main_v143 (F := Ideal) x6) (fun o => val_main_v137 (F := Ideal) x5 (ix1 o)) o := by
  rw [val_main_v146_apply, val_main_v145_apply, val_main_v140_apply, val_main_v135_apply, val_main_v139_apply, val_main_v138_apply, val_main_v144_apply,
    val_main_call2_v0_apply, val_main_call2_cst_apply]
  generalize val_main_v131 (F := Ideal) x0 x1 x2 x3 x4 x5 x6 x7 x8 = A
  generalize val_main_v119 (F := Ideal) x0 x1 x2 x3 x4 x5 x6 x7 x8 = H
  generalize val_main_v134 (F := Ideal) x4 = wl
  generalize val_main_v143 (F := Ideal) x6 = wr
  generalize val_main_v137 (F := Ideal) x5 = bl
  have e1 : ∀ k : Fin 32, lidx_main_v135 (ix2 n o) k = ix2 n k := fun k => funext fun a => Fin.ext (by match a with | ⟨0, _⟩ => rfl | ⟨1, _⟩ => rfl)
  have e2 : ∀ k : Fin 32, ridx_main_v135 (ix2 n o) k = ix2 k o := fun k => funext fun a => Fin.ext (by match a with | ⟨0, _⟩ => rfl | ⟨1, _⟩ => rfl)
  have e3 : ∀ k : Fin 32, lidx_main_v144 (ix2 n o) k = ix2 n k := fun k => funext fun a => Fin.ext (by match a with | ⟨0, _⟩ => rfl | ⟨1, _⟩ => rfl)
  have e4 : ∀ k : Fin 32, ridx_main_v144 (ix2 n o) k = ix2 k o := fun k => funext fun a => Fin.ext (by match a with | ⟨0, _⟩ => rfl | ⟨1, _⟩ => rfl)
  have e5 : idx_main_v138 (idx_main_v139 (ix2 n o)) = ix1 o := funext fun a => Fin.ext (by match a with | ⟨0, _⟩ => rfl)
  have s1 : (∑ k : Fin 32, A (lidx_main_v135 (ix2 n o) k) * wl (ridx_main_v135 (ix2 n o) k))
      = ∑ k : Fin 32, A (ix2 n k) * wl (ix2 k o) := Finset.sum_congr rfl fun k _ => by rw [e1 k, e2 k]
  have s2 : (∑ k : Fin 32, H (lidx_main_v144 (ix2 n o) k) * wr (ridx_main_v144 (ix2 n o) k))
      = ∑ k : Fin 32, H (ix2 n k) * wr (ix2 k o) := Finset.sum_congr rfl fun k _ => by rw [e3 k, e4 k]
  rw [s1, s2, e5]
  rfl

/-- The mean of the 32 clamped sums of row `n`: the sum starts from the word of zero, which is the number 0. -/
private theorem mu2 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (x7 x8 : (⟨S32, .f32⟩ : BufTy).Contents (Elt Ideal)) (n : Fin 100000) :
    val_main_v150 (F := Ideal) x0 x1 x2 x3 x4 x5 x6 x7 x8 (ix2 n (0 : Fin 1))
      = Cert.Sage.mu (fun k => val_main_v131 (F := Ideal) x0 x1 x2 x3 x4 x5 x6 x7 x8 (ix2 n k)) (fun k => val_main_v119 (F := Ideal) x0 x1 x2 x3 x4 x5 x6 x7 x8 (ix2 n k))
          (val_main_v134 (F := Ideal) x4) (val_main_v143 (F := Ideal) x6) (fun o => val_main_v137 (F := Ideal) x5 (ix1 o)) := by
  rw [val_main_v150_apply, val_main_v148_apply, val_main_v147_apply, val_main_v149_apply, val_main_cst_22_apply, val_main_cst_21_apply]
  have e : ∀ k : Fin 32, idx_main_v147 (idx_main_v148 (ix2 n (0 : Fin 1))) k = ix2 n k := fun k => funext fun a => Fin.ext (by match a with | ⟨0, _⟩ => rfl | ⟨1, _⟩ => rfl)
  have s : (∑ k : Fin 32, val_main_v146 (F := Ideal) x0 x1 x2 x3 x4 x5 x6 x7 x8 (idx_main_v147 (idx_main_v148 (ix2 n (0 : Fin 1))) k))
      = ∑ k : Fin 32, Cert.Sage.lin (fun k => val_main_v131 (F := Ideal) x0 x1 x2 x3 x4 x5 x6 x7 x8 (ix2 n k)) (fun k => val_main_v119 (F := Ideal) x0 x1 x2 x3 x4 x5 x6 x7 x8 (ix2 n k))
          (val_main_v134 (F := Ideal) x4) (val_main_v143 (F := Ideal) x6) (fun o => val_main_v137 (F := Ideal) x5 (ix1 o)) k :=
    Finset.sum_congr rfl fun k _ => by rw [e k, lin2]
  rw [s]
  unfold Cert.Sage.mu
  simp only [Ideal.hostDivf_def, Ideal.ofBits_def]
  rw [Ideal.ofBits_zero_f32, zero_add]

/-- The deviation of the clamped sum at feature `k` from the row's mean. -/
private theorem dev2 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (x7 x8 : (⟨S32, .f32⟩ : BufTy).Contents (Elt Ideal)) (n : Fin 100000) (k : Fin 32) :
    val_main_v152 (F := Ideal) x0 x1 x2 x3 x4 x5 x6 x7 x8 (ix2 n k)
      = Cert.Sage.lin (fun k => val_main_v131 (F := Ideal) x0 x1 x2 x3 x4 x5 x6 x7 x8 (ix2 n k)) (fun k => val_main_v119 (F := Ideal) x0 x1 x2 x3 x4 x5 x6 x7 x8 (ix2 n k))
          (val_main_v134 (F := Ideal) x4) (val_main_v143 (F := Ideal) x6) (fun o => val_main_v137 (F := Ideal) x5 (ix1 o)) k
        - Cert.Sage.mu (fun k => val_main_v131 (F := Ideal) x0 x1 x2 x3 x4 x5 x6 x7 x8 (ix2 n k)) (fun k => val_main_v119 (F := Ideal) x0 x1 x2 x3 x4 x5 x6 x7 x8 (ix2 n k))
          (val_main_v134 (F := Ideal) x4) (val_main_v143 (F := Ideal) x6) (fun o => val_main_v137 (F := Ideal) x5 (ix1 o)) := by
  have e : idx_main_v151 (ix2 n k) = ix2 n (0 : Fin 1) := funext fun a => Fin.ext (by match a with | ⟨0, _⟩ => rfl | ⟨1, _⟩ => rfl)
  rw [val_main_v152_apply, val_main_v151_apply, e, lin2, mu2]
  exact Ideal.subf_def _ _

/-- The mean of the squared deviations of row `n`. -/
private theorem var2 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (x7 x8 : (⟨S32, .f32⟩ : BufTy).Contents (Elt Ideal)) (n : Fin 100000) :
    val_main_v157 (F := Ideal) x0 x1 x2 x3 x4 x5 x6 x7 x8 (ix2 n (0 : Fin 1))
      = Cert.Sage.var (fun k => val_main_v131 (F := Ideal) x0 x1 x2 x3 x4 x5 x6 x7 x8 (ix2 n k)) (fun k => val_main_v119 (F := Ideal) x0 x1 x2 x3 x4 x5 x6 x7 x8 (ix2 n k))
          (val_main_v134 (F := Ideal) x4) (val_main_v143 (F := Ideal) x6) (fun o => val_main_v137 (F := Ideal) x5 (ix1 o)) := by
  rw [val_main_v157_apply, val_main_v155_apply, val_main_v154_apply, val_main_v156_apply, val_main_cst_24_apply, val_main_cst_23_apply]
  have e : ∀ k : Fin 32, idx_main_v154 (idx_main_v155 (ix2 n (0 : Fin 1))) k = ix2 n k := fun k => funext fun a => Fin.ext (by match a with | ⟨0, _⟩ => rfl | ⟨1, _⟩ => rfl)
  have s : (∑ k : Fin 32, val_main_v153 (F := Ideal) x0 x1 x2 x3 x4 x5 x6 x7 x8 (idx_main_v154 (idx_main_v155 (ix2 n (0 : Fin 1))) k))
      = ∑ k : Fin 32, (Cert.Sage.lin (fun k => val_main_v131 (F := Ideal) x0 x1 x2 x3 x4 x5 x6 x7 x8 (ix2 n k)) (fun k => val_main_v119 (F := Ideal) x0 x1 x2 x3 x4 x5 x6 x7 x8 (ix2 n k))
          (val_main_v134 (F := Ideal) x4) (val_main_v143 (F := Ideal) x6) (fun o => val_main_v137 (F := Ideal) x5 (ix1 o)) k
          - Cert.Sage.mu (fun k => val_main_v131 (F := Ideal) x0 x1 x2 x3 x4 x5 x6 x7 x8 (ix2 n k)) (fun k => val_main_v119 (F := Ideal) x0 x1 x2 x3 x4 x5 x6 x7 x8 (ix2 n k))
          (val_main_v134 (F := Ideal) x4) (val_main_v143 (F := Ideal) x6) (fun o => val_main_v137 (F := Ideal) x5 (ix1 o)))
        * (Cert.Sage.lin (fun k => val_main_v131 (F := Ideal) x0 x1 x2 x3 x4 x5 x6 x7 x8 (ix2 n k)) (fun k => val_main_v119 (F := Ideal) x0 x1 x2 x3 x4 x5 x6 x7 x8 (ix2 n k))
          (val_main_v134 (F := Ideal) x4) (val_main_v143 (F := Ideal) x6) (fun o => val_main_v137 (F := Ideal) x5 (ix1 o)) k
          - Cert.Sage.mu (fun k => val_main_v131 (F := Ideal) x0 x1 x2 x3 x4 x5 x6 x7 x8 (ix2 n k)) (fun k => val_main_v119 (F := Ideal) x0 x1 x2 x3 x4 x5 x6 x7 x8 (ix2 n k))
          (val_main_v134 (F := Ideal) x4) (val_main_v143 (F := Ideal) x6) (fun o => val_main_v137 (F := Ideal) x5 (ix1 o))) :=
    Finset.sum_congr rfl fun k _ => by rw [e k, val_main_v153_apply, dev2]; exact Ideal.mulf_def _ _
  rw [s]
  unfold Cert.Sage.var
  simp only [Ideal.hostDivf_def, Ideal.ofBits_def]
  rw [Ideal.ofBits_zero_f32, zero_add]

/-- Layer 3 of the reference program, as a whole array, is the layer of its two operand arrays. -/
theorem layer2 (x0 : (⟨S100000x5, .f32⟩ : BufTy).Contents (Elt Ideal)) (x1 : (⟨S2x2000000, .i32⟩ : BufTy).Contents (Elt Ideal)) (x2 : (⟨S32x5, .f32⟩ : BufTy).Contents (Elt Ideal)) (x3 : (⟨S32, .f32⟩ : BufTy).Contents (Elt Ideal)) (x4 : (⟨S3x32x32, .f32⟩ : BufTy).Contents (Elt Ideal)) (x5 : (⟨S3x32, .f32⟩ : BufTy).Contents (Elt Ideal)) (x6 : (⟨S3x32x32, .f32⟩ : BufTy).Contents (Elt Ideal)) (x7 x8 : (⟨S32, .f32⟩ : BufTy).Contents (Elt Ideal)) :
    val_main_v170 (F := Ideal) x0 x1 x2 x3 x4 x5 x6 x7 x8
      = Cert.Sage.layerArr (val_main_v131 (F := Ideal) x0 x1 x2 x3 x4 x5 x6 x7 x8) (val_main_v119 (F := Ideal) x0 x1 x2 x3 x4 x5 x6 x7 x8)
          (val_main_v134 (F := Ideal) x4) (val_main_v143 (F := Ideal) x6) (val_main_v137 (F := Ideal) x5) x7 x8 := by
  funext i
  obtain ⟨n, q, rfl⟩ : ∃ (n : Fin 100000) (q : Fin 32), i = ix2 n q := ⟨i 0, i 1, eq_ix2 i⟩
  rw [Cert.Sage.layerArr_apply, val_main_v170_apply, val_main_v167_apply, val_main_v164_apply, val_main_v159_apply, val_main_v158_apply, val_main_v163_apply, val_main_v162_apply, val_main_v161_apply, val_main_v160_apply,
    val_main_cst_25_apply, val_main_v166_apply, val_main_v165_apply, val_main_v169_apply, val_main_v168_apply]
  have e56 : idx_main_v158 (ix2 n q) = ix2 n (0 : Fin 1) := funext fun a => Fin.ext (by match a with | ⟨0, _⟩ => rfl | ⟨1, _⟩ => rfl)
  have e61 : idx_main_v163 (ix2 n q) = ix2 n (0 : Fin 1) := funext fun a => Fin.ext (by match a with | ⟨0, _⟩ => rfl | ⟨1, _⟩ => rfl)
  have e63 : idx_main_v165 (idx_main_v166 (ix2 n q)) = ix1 q := funext fun a => Fin.ext (by match a with | ⟨0, _⟩ => rfl)
  have e66 : idx_main_v168 (idx_main_v169 (ix2 n q)) = ix1 q := funext fun a => Fin.ext (by match a with | ⟨0, _⟩ => rfl)
  rw [e56, e61, e63, e66, lin2, mu2, var2]
  unfold Cert.Sage.norm
  simp only [Ideal.addf_def, Ideal.subf_def, Ideal.mulf_def, Ideal.hostUnary_rsqrt_def, Ideal.ofBits_def]

end Cert.Sage.Ref

end
-- ==== Proof.KernelValue.lean ====
/-
  The kernel program's result as the reference's last stage function of the argument arrays.

  The program's buffer contents are followed through its six segments. After the host operations before a launch the
  launch's seven operand arrays hold the reference's own stage functions (the aggregated features, the node features,
  the two transposed weight matrices, and the bias, scale and shift vectors as 1 × 32 rows). A launch leaves in its output
  array the layer applied row by row to its operand arrays (the blocks of 10000 rows are restrictions of that one
  function), and leaves its operand arrays as they were; the reference's layer is the same function of the same arrays.
  So after each launch the output array holds the reference's stage function for that layer's output, and after the third
  the result buffer holds the reference's result.
-/
import proofs.«174114_j74036646248566_1_alg».proof.Proof.Gen.KernelIdeal.Frame
import proofs.«174114_j74036646248566_1_alg».proof.Proof.GlueHost
import proofs.«174114_j74036646248566_1_alg».proof.Proof.Blocks
import proofs.«174114_j74036646248566_1_alg».proof.Proof.Body
import proofs.«174114_j74036646248566_1_alg».proof.Proof.RefLayer
import Idealize.ShloMosaic.Lib.Pipeline.Cells
import Idealize.ShloMosaic.Lib.ValueLayout

set_option maxRecDepth 16384

noncomputable section

namespace Cert.Sage.KValue

open Idealize.ShloMosaic Idealize.ShloMosaic.StableHlo Idealize.ShloMosaic.TcCoe Idealize.ShloMosaic.ValueIdx Idealize.SL.Sem
open Cert.KernelIdeal Cert.KernelIdeal.Gen Cert.Sage.GlueHost
open Cert.ReferenceIdeal.ReadP (val_main_v1 val_main_v3 val_main_v12 val_main_v17 val_main_v29 val_main_v32 val_main_v35 val_main_v41
  val_main_v68 val_main_v80 val_main_v83 val_main_v86 val_main_v92 val_main_v119 val_main_v131 val_main_v134 val_main_v137 val_main_v143
  val_main_v170)

/-- A vector cast to a 1 × 32 row and read back as a vector is the vector. -/
theorem rowVec_shapeCast (v : (⟨1, ![32]⟩ : Shape).Idx → EReal) (h : (⟨1, ![32]⟩ : Shape).ShapeCasts ⟨2, ![1, 32]⟩) :
    Cert.Sage.rowVec (shapeCast ⟨2, ![1, 32]⟩ v h) = v := by
  funext j
  obtain ⟨i, rfl⟩ : ∃ i : Fin 32, j = ix1 i := ⟨j 0, eq_ix1 j⟩
  exact shapeCast_a_1a_apply v h (0 : Fin 1) i

theorem rowVec_of {r : (⟨2, ![1, 32]⟩ : Shape).Idx → EReal} {v : (⟨1, ![32]⟩ : Shape).Idx → EReal}
    {h : (⟨1, ![32]⟩ : Shape).ShapeCasts ⟨2, ![1, 32]⟩} (e : r = shapeCast ⟨2, ![1, 32]⟩ v h) : Cert.Sage.rowVec r = v := by
  subst e; exact rowVec_shapeCast v h

/-- The layer of equal operands. -/
theorem layerArr_congr {A A' H H' : (⟨2, ![100000, 32]⟩ : Shape).Idx → EReal} {wl wl' wr wr' : Cert.Sage.W32} {bl bl' g g' b b' : Cert.Sage.V32}
    (hA : A = A') (hH : H = H') (hwl : wl = wl') (hwr : wr = wr') (hbl : bl = bl') (hg : g = g') (hb : b = b') :
    Cert.Sage.layerArr A H wl wr bl g b = Cert.Sage.layerArr A' H' wl' wr' bl' g' b' := by
  subst hA hH hwl hwr hbl hg hb; rfl

variable (m : (ℓ : Loc nD τ sig) → Buf (Elt Ideal) ℓ) (ρ : Dev nD → PrngReg) (c : Dev nD)

/-! ## After the first launch -/

theorem e2_v41 : W2 m ρ c (Proc.devRef .tc main_v41) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W2_arr m ρ c 7).trans ((Cert.Sage.Blocks.region0_value Cert.Sage.Body.pay_apply0 (V1 m ρ) c).trans
    ((layerArr_congr (h0_v31 (W0 m ρ c)) (h0_v17 (W0 m ρ c)) (h0_v34 (W0 m ρ c)) (h0_v37 (W0 m ρ c))
      (rowVec_of (h0_v40 (W0 m ρ c))) (rowVec_of (h0_v18 (W0 m ρ c))) (rowVec_of (h0_v19 (W0 m ρ c)))).trans
      (Cert.Sage.Ref.layer0 _ _ _ _ _ _ _ _ _).symm))
theorem e2_v1 : W2 m ρ c (Proc.devRef .tc main_v1) = val_main_v1 (F := Ideal) (m ((c : Thread nD τ).loc main_arg1)) :=
  (W2_of_ne m ρ c main_v1 (by decide)).trans (h0_v1 (W0 m ρ c))
theorem e2_v3 : W2 m ρ c (Proc.devRef .tc main_v3) = val_main_v3 (F := Ideal) (m ((c : Thread nD τ).loc main_arg1)) :=
  (W2_of_ne m ρ c main_v3 (by decide)).trans (h0_v3 (W0 m ρ c))
theorem e2_v12 : W2 m ρ c (Proc.devRef .tc main_v12) = val_main_v12 (F := Ideal) (m ((c : Thread nD τ).loc main_arg1)) :=
  (W2_of_ne m ρ c main_v12 (by decide)).trans (h0_v12 (W0 m ρ c))
theorem e2_a4 : W2 m ρ c (Proc.devRef .tc main_arg4) = (m ((c : Thread nD τ).loc main_arg4)) :=
  (W2_of_ne m ρ c main_arg4 (by decide)).trans (h0_keep_arg4 (W0 m ρ c))
theorem e2_a5 : W2 m ρ c (Proc.devRef .tc main_arg5) = (m ((c : Thread nD τ).loc main_arg5)) :=
  (W2_of_ne m ρ c main_arg5 (by decide)).trans (h0_keep_arg5 (W0 m ρ c))
theorem e2_a6 : W2 m ρ c (Proc.devRef .tc main_arg6) = (m ((c : Thread nD τ).loc main_arg6)) :=
  (W2_of_ne m ρ c main_arg6 (by decide)).trans (h0_keep_arg6 (W0 m ρ c))
theorem e2_v18 : W2 m ρ c (Proc.devRef .tc main_v18) = shapeCast S1x32 (m ((c : Thread nD τ).loc main_arg7)) shapeCasts_S32_S1x32 :=
  (W2_arr m ρ c 5).trans (((dat0 (V1 m ρ) c).arrAt_in 5 rfl cfg0.N).trans ((A_eq0 (V1 m ρ) c 5).trans (h0_v18 (W0 m ρ c))))
theorem e2_v19 : W2 m ρ c (Proc.devRef .tc main_v19) = shapeCast S1x32 (m ((c : Thread nD τ).loc main_arg8)) shapeCasts_S32_S1x32 :=
  (W2_arr m ρ c 6).trans (((dat0 (V1 m ρ) c).arrAt_in 6 rfl cfg0.N).trans ((A_eq0 (V1 m ρ) c 6).trans (h0_v19 (W0 m ρ c))))

/-! ## After the second launch -/

theorem e4_v63 : W4 m ρ c (Proc.devRef .tc main_v63) = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W4_arr m ρ c 7).trans ((Cert.Sage.Blocks.region1_value Cert.Sage.Body.pay_apply1 (V3 m ρ) c).trans
    ((layerArr_congr (h1_v53 (W2 m ρ c) _ _ _ _ _ _ _ _ _ (e2_v41 m ρ c) (e2_v1 m ρ c) (e2_v3 m ρ c) (e2_v12 m ρ c))
      ((h1_keep_v41 (W2 m ρ c)).trans (e2_v41 m ρ c))
      ((h1_v56 (W2 m ρ c)).trans (congrArg (val_main_v83 (F := Ideal)) (e2_a4 m ρ c)))
      ((h1_v59 (W2 m ρ c)).trans (congrArg (val_main_v92 (F := Ideal)) (e2_a6 m ρ c)))
      (rowVec_of ((h1_v62 (W2 m ρ c)).trans (congrArg (fun z => shapeCast S1x32 (val_main_v86 (F := Ideal) z) shapeCasts_S32_S1x32) (e2_a5 m ρ c))))
      (rowVec_of ((h1_keep_v18 (W2 m ρ c)).trans (e2_v18 m ρ c)))
      (rowVec_of ((h1_keep_v19 (W2 m ρ c)).trans (e2_v19 m ρ c)))).trans
      (Cert.Sage.Ref.layer1 _ _ _ _ _ _ _ _ _).symm))
theorem e4_v1 : W4 m ρ c (Proc.devRef .tc main_v1) = val_main_v1 (F := Ideal) (m ((c : Thread nD τ).loc main_arg1)) :=
  (W4_of_ne m ρ c main_v1 (by decide)).trans ((h1_keep_v1 (W2 m ρ c)).trans (e2_v1 m ρ c))
theorem e4_v3 : W4 m ρ c (Proc.devRef .tc main_v3) = val_main_v3 (F := Ideal) (m ((c : Thread nD τ).loc main_arg1)) :=
  (W4_of_ne m ρ c main_v3 (by decide)).trans ((h1_keep_v3 (W2 m ρ c)).trans (e2_v3 m ρ c))
theorem e4_v12 : W4 m ρ c (Proc.devRef .tc main_v12) = val_main_v12 (F := Ideal) (m ((c : Thread nD τ).loc main_arg1)) :=
  (W4_of_ne m ρ c main_v12 (by decide)).trans ((h1_keep_v12 (W2 m ρ c)).trans (e2_v12 m ρ c))
theorem e4_a4 : W4 m ρ c (Proc.devRef .tc main_arg4) = (m ((c : Thread nD τ).loc main_arg4)) :=
  (W4_of_ne m ρ c main_arg4 (by decide)).trans ((h1_keep_arg4 (W2 m ρ c)).trans (e2_a4 m ρ c))
theorem e4_a5 : W4 m ρ c (Proc.devRef .tc main_arg5) = (m ((c : Thread nD τ).loc main_arg5)) :=
  (W4_of_ne m ρ c main_arg5 (by decide)).trans ((h1_keep_arg5 (W2 m ρ c)).trans (e2_a5 m ρ c))
theorem e4_a6 : W4 m ρ c (Proc.devRef .tc main_arg6) = (m ((c : Thread nD τ).loc main_arg6)) :=
  (W4_of_ne m ρ c main_arg6 (by decide)).trans ((h1_keep_arg6 (W2 m ρ c)).trans (e2_a6 m ρ c))
theorem e4_v18 : W4 m ρ c (Proc.devRef .tc main_v18) = shapeCast S1x32 (m ((c : Thread nD τ).loc main_arg7)) shapeCasts_S32_S1x32 :=
  (W4_arr m ρ c 5).trans (((dat1 (V3 m ρ) c).arrAt_in 5 rfl cfg1.N).trans ((A_eq1 (V3 m ρ) c 5).trans ((h1_keep_v18 (W2 m ρ c)).trans (e2_v18 m ρ c))))
theorem e4_v19 : W4 m ρ c (Proc.devRef .tc main_v19) = shapeCast S1x32 (m ((c : Thread nD τ).loc main_arg8)) shapeCasts_S32_S1x32 :=
  (W4_arr m ρ c 6).trans (((dat1 (V3 m ρ) c).arrAt_in 6 rfl cfg1.N).trans ((A_eq1 (V3 m ρ) c 6).trans ((h1_keep_v19 (W2 m ρ c)).trans (e2_v19 m ρ c))))

/-! ## After the third launch -/

/-- The result buffer at the end of the kernel program's run holds the reference's result. -/
theorem result_value : W6 m ρ c (Proc.devRef .tc main_v85) = val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W6_arr m ρ c 7).trans ((Cert.Sage.Blocks.region2_value Cert.Sage.Body.pay_apply2 (V5 m ρ) c).trans
    ((layerArr_congr (h2_v75 (W4 m ρ c) _ _ _ _ _ _ _ _ _ (e4_v63 m ρ c) (e4_v1 m ρ c) (e4_v3 m ρ c) (e4_v12 m ρ c))
      ((h2_keep_v63 (W4 m ρ c)).trans (e4_v63 m ρ c))
      ((h2_v78 (W4 m ρ c)).trans (congrArg (val_main_v134 (F := Ideal)) (e4_a4 m ρ c)))
      ((h2_v81 (W4 m ρ c)).trans (congrArg (val_main_v143 (F := Ideal)) (e4_a6 m ρ c)))
      (rowVec_of ((h2_v84 (W4 m ρ c)).trans (congrArg (fun z => shapeCast S1x32 (val_main_v137 (F := Ideal) z) shapeCasts_S32_S1x32) (e4_a5 m ρ c))))
      (rowVec_of ((h2_keep_v18 (W4 m ρ c)).trans (e4_v18 m ρ c)))
      (rowVec_of ((h2_keep_v19 (W4 m ρ c)).trans (e4_v19 m ρ c)))).trans
      (Cert.Sage.Ref.layer2 _ _ _ _ _ _ _ _ _).symm))

end Cert.Sage.KValue

end
-- ==== Proof.RefValue.lean ====
/-
  The reference program's result as its own last stage function of the arguments. The program's operations are read
  in sixteen pieces — up to the first node features, then five pieces per layer (through the sum of the two linear
  maps, the clamp at zero, the row means, the row variances, the output) —, each piece evaluated from ANY contents `W` of the buffers: a piece started
  from contents that hold the values it reads at their stage functions ends with the value it produces at ITS stage
  function. So a value that several later operations read (the clamped sums, the row means) is named once and never
  expanded at each use. Chained from the launch memory, the pieces give the result buffer at `val_main_v170` of the
  argument arrays.
-/
import proofs.«174114_j74036646248566_1_alg».proof.Proof.RefRun
import proofs.«174114_j74036646248566_1_alg».proof.Proof.RefRead
import Idealize.ShloMosaic.Lib.Pipeline.Frame

set_option maxRecDepth 16384

noncomputable section

namespace Cert.Sage.RefValue

open Idealize.ShloMosaic Idealize.ShloMosaic.StableHlo Idealize.ShloMosaic.TcCoe Idealize.SL.Sem
open Cert.ReferenceIdeal Cert.ReferenceIdeal.Gen Cert.ReferenceIdeal.ValueP Cert.ReferenceIdeal.ReadP

variable (W : Valuation τ sig (Elt Ideal))

/-! ## The clamp's typed references

  The reference's clamp at zero is a call of a small function, printed over references that carry the type of the value
  they hold; a value is moved to its buffer's own type and back along a proof that the two types are equal. -/

/-- Contents moved to a typed reference's buffer type and back are what they were. -/
theorem ofBuf_toBuf {T : BufTy} (x : TRef sig T) (v : T.Contents (Elt Ideal)) : x.ofBuf (Val := Elt Ideal) (x.toBuf v) = v := by
  obtain ⟨r, h, a, b⟩ := x
  subst h
  rfl

/-- At the literal references of layer 1's clamp the transport is the identity. -/
theorem toBuf_v44 (v : (⟨S100000x32, .f32⟩ : BufTy).Contents (Elt Ideal)) :
    (TRef.of (T := ⟨S100000x32, .f32⟩) main_v44).toBuf (Val := Elt Ideal) v = v := rfl
theorem ofBuf_v43 (v : (⟨S100000x32, .f32⟩ : BufTy).Contents (Elt Ideal)) :
    (TRef.of (T := ⟨S100000x32, .f32⟩) main_v43).ofBuf (Val := Elt Ideal) v = v := rfl

/-- At the literal references of layer 2's clamp the transport is the identity. -/
theorem toBuf_v95 (v : (⟨S100000x32, .f32⟩ : BufTy).Contents (Elt Ideal)) :
    (TRef.of (T := ⟨S100000x32, .f32⟩) main_v95).toBuf (Val := Elt Ideal) v = v := rfl
theorem ofBuf_v94 (v : (⟨S100000x32, .f32⟩ : BufTy).Contents (Elt Ideal)) :
    (TRef.of (T := ⟨S100000x32, .f32⟩) main_v94).ofBuf (Val := Elt Ideal) v = v := rfl

/-- At the literal references of layer 3's clamp the transport is the identity. -/
theorem toBuf_v146 (v : (⟨S100000x32, .f32⟩ : BufTy).Contents (Elt Ideal)) :
    (TRef.of (T := ⟨S100000x32, .f32⟩) main_v146).toBuf (Val := Elt Ideal) v = v := rfl
theorem ofBuf_v145 (v : (⟨S100000x32, .f32⟩ : BufTy).Contents (Elt Ideal)) :
    (TRef.of (T := ⟨S100000x32, .f32⟩) main_v145).ofBuf (Val := Elt Ideal) v = v := rfl

/-! ## Each piece from any contents -/

theorem p_v17 :
    after (opsP (F := Ideal)) W (Proc.devRef .tc main_v17)
      = val_main_v17 (F := Ideal) (W (Proc.devRef .tc main_arg0)) (W (Proc.devRef .tc main_arg2)) (W (Proc.devRef .tc main_arg3)) := by
  after_results_simp
  rfl
theorem p_v1 :
    after (opsP (F := Ideal)) W (Proc.devRef .tc main_v1)
      = val_main_v1 (F := Ideal) (W (Proc.devRef .tc main_arg1)) := by
  after_results_simp
  rfl
theorem p_v3 :
    after (opsP (F := Ideal)) W (Proc.devRef .tc main_v3)
      = val_main_v3 (F := Ideal) (W (Proc.devRef .tc main_arg1)) := by
  after_results_simp
  rfl
theorem p_v12 :
    after (opsP (F := Ideal)) W (Proc.devRef .tc main_v12)
      = val_main_v12 (F := Ideal) (W (Proc.devRef .tc main_arg1)) := by
  after_results_simp
  rfl
theorem keep_opsP (r : Ref sig .tc) (h : r ∉ (opsP_W : List (Ref sig .tc))) :
    after (opsP (F := Ideal)) W (Proc.devRef .tc r) = W (Proc.devRef .tc r) :=
  after_of_writes_sub opsP _ opsP_writes h
theorem keep_opsA0 (r : Ref sig .tc) (h : r ∉ (opsA0_W : List (Ref sig .tc))) :
    after (opsA0 (F := Ideal)) W (Proc.devRef .tc r) = W (Proc.devRef .tc r) :=
  after_of_writes_sub opsA0 _ opsA0_writes h
theorem keep_opsR0 (r : Ref sig .tc) (h : r ∉ (opsR0_W : List (Ref sig .tc))) :
    after (opsR0 (F := Ideal)) W (Proc.devRef .tc r) = W (Proc.devRef .tc r) :=
  after_of_writes_sub opsR0 _ opsR0_writes h
theorem keep_opsB0 (r : Ref sig .tc) (h : r ∉ (opsB0_W : List (Ref sig .tc))) :
    after (opsB0 (F := Ideal)) W (Proc.devRef .tc r) = W (Proc.devRef .tc r) :=
  after_of_writes_sub opsB0 _ opsB0_writes h
theorem keep_opsC0 (r : Ref sig .tc) (h : r ∉ (opsC0_W : List (Ref sig .tc))) :
    after (opsC0 (F := Ideal)) W (Proc.devRef .tc r) = W (Proc.devRef .tc r) :=
  after_of_writes_sub opsC0 _ opsC0_writes h
theorem keep_opsD0 (r : Ref sig .tc) (h : r ∉ (opsD0_W : List (Ref sig .tc))) :
    after (opsD0 (F := Ideal)) W (Proc.devRef .tc r) = W (Proc.devRef .tc r) :=
  after_of_writes_sub opsD0 _ opsD0_writes h
theorem keep_opsA1 (r : Ref sig .tc) (h : r ∉ (opsA1_W : List (Ref sig .tc))) :
    after (opsA1 (F := Ideal)) W (Proc.devRef .tc r) = W (Proc.devRef .tc r) :=
  after_of_writes_sub opsA1 _ opsA1_writes h
theorem keep_opsR1 (r : Ref sig .tc) (h : r ∉ (opsR1_W : List (Ref sig .tc))) :
    after (opsR1 (F := Ideal)) W (Proc.devRef .tc r) = W (Proc.devRef .tc r) :=
  after_of_writes_sub opsR1 _ opsR1_writes h
theorem keep_opsB1 (r : Ref sig .tc) (h : r ∉ (opsB1_W : List (Ref sig .tc))) :
    after (opsB1 (F := Ideal)) W (Proc.devRef .tc r) = W (Proc.devRef .tc r) :=
  after_of_writes_sub opsB1 _ opsB1_writes h
theorem keep_opsC1 (r : Ref sig .tc) (h : r ∉ (opsC1_W : List (Ref sig .tc))) :
    after (opsC1 (F := Ideal)) W (Proc.devRef .tc r) = W (Proc.devRef .tc r) :=
  after_of_writes_sub opsC1 _ opsC1_writes h
theorem keep_opsD1 (r : Ref sig .tc) (h : r ∉ (opsD1_W : List (Ref sig .tc))) :
    after (opsD1 (F := Ideal)) W (Proc.devRef .tc r) = W (Proc.devRef .tc r) :=
  after_of_writes_sub opsD1 _ opsD1_writes h
theorem keep_opsA2 (r : Ref sig .tc) (h : r ∉ (opsA2_W : List (Ref sig .tc))) :
    after (opsA2 (F := Ideal)) W (Proc.devRef .tc r) = W (Proc.devRef .tc r) :=
  after_of_writes_sub opsA2 _ opsA2_writes h
theorem keep_opsR2 (r : Ref sig .tc) (h : r ∉ (opsR2_W : List (Ref sig .tc))) :
    after (opsR2 (F := Ideal)) W (Proc.devRef .tc r) = W (Proc.devRef .tc r) :=
  after_of_writes_sub opsR2 _ opsR2_writes h
theorem keep_opsB2 (r : Ref sig .tc) (h : r ∉ (opsB2_W : List (Ref sig .tc))) :
    after (opsB2 (F := Ideal)) W (Proc.devRef .tc r) = W (Proc.devRef .tc r) :=
  after_of_writes_sub opsB2 _ opsB2_writes h
theorem keep_opsC2 (r : Ref sig .tc) (h : r ∉ (opsC2_W : List (Ref sig .tc))) :
    after (opsC2 (F := Ideal)) W (Proc.devRef .tc r) = W (Proc.devRef .tc r) :=
  after_of_writes_sub opsC2 _ opsC2_writes h
theorem keep_opsD2 (r : Ref sig .tc) (h : r ∉ (opsD2_W : List (Ref sig .tc))) :
    after (opsD2 (F := Ideal)) W (Proc.devRef .tc r) = W (Proc.devRef .tc r) :=
  after_of_writes_sub opsD2 _ opsD2_writes h

theorem a0_out (x0 x1 x2 x3 x4 x5 x6)
    (hp : W (Proc.devRef .tc main_v17) = val_main_v17 (F := Ideal) x0 x2 x3)
    (h1 : W (Proc.devRef .tc main_v1) = val_main_v1 (F := Ideal) x1)
    (h3 : W (Proc.devRef .tc main_v3) = val_main_v3 (F := Ideal) x1)
    (h12 : W (Proc.devRef .tc main_v12) = val_main_v12 (F := Ideal) x1)
    (h4 : W (Proc.devRef .tc main_arg4) = x4)
    (h5 : W (Proc.devRef .tc main_arg5) = x5)
    (h6 : W (Proc.devRef .tc main_arg6) = x6) :
    after (opsA0 (F := Ideal)) W (Proc.devRef .tc main_v43)
      = val_main_v43 (F := Ideal) x0 x1 x2 x3 x4 x5 x6 := by
  after_results_simp
  rw [hp, h1, h3, h12, h4, h5, h6]
  rfl
theorem r0_out (x0 x1 x2 x3 x4 x5 x6)
    (h43 : W (Proc.devRef .tc main_v43) = val_main_v43 (F := Ideal) x0 x1 x2 x3 x4 x5 x6) :
    after (opsR0 (F := Ideal)) W (Proc.devRef .tc main_v44)
      = val_main_v44 (F := Ideal) x0 x1 x2 x3 x4 x5 x6 := by
  after_results_simp
  rw [h43, toBuf_v44, ofBuf_v43, ofBuf_toBuf, ofBuf_toBuf]
  rfl
theorem b0_out (x0 x1 x2 x3 x4 x5 x6)
    (h44 : W (Proc.devRef .tc main_v44) = val_main_v44 (F := Ideal) x0 x1 x2 x3 x4 x5 x6) :
    after (opsB0 (F := Ideal)) W (Proc.devRef .tc main_v48)
      = val_main_v48 (F := Ideal) x0 x1 x2 x3 x4 x5 x6 := by
  after_results_simp
  rw [h44]
  rfl
theorem c0_out (x0 x1 x2 x3 x4 x5 x6)
    (h44 : W (Proc.devRef .tc main_v44) = val_main_v44 (F := Ideal) x0 x1 x2 x3 x4 x5 x6)
    (h48 : W (Proc.devRef .tc main_v48) = val_main_v48 (F := Ideal) x0 x1 x2 x3 x4 x5 x6) :
    after (opsC0 (F := Ideal)) W (Proc.devRef .tc main_v55)
      = val_main_v55 (F := Ideal) x0 x1 x2 x3 x4 x5 x6 := by
  after_results_simp
  rw [h44, h48]
  rfl
theorem d0_out (x0 x1 x2 x3 x4 x5 x6 x7 x8)
    (h44 : W (Proc.devRef .tc main_v44) = val_main_v44 (F := Ideal) x0 x1 x2 x3 x4 x5 x6)
    (h48 : W (Proc.devRef .tc main_v48) = val_main_v48 (F := Ideal) x0 x1 x2 x3 x4 x5 x6)
    (h55 : W (Proc.devRef .tc main_v55) = val_main_v55 (F := Ideal) x0 x1 x2 x3 x4 x5 x6)
    (h7 : W (Proc.devRef .tc main_arg7) = x7)
    (h8 : W (Proc.devRef .tc main_arg8) = x8) :
    after (opsD0 (F := Ideal)) W (Proc.devRef .tc main_v68)
      = val_main_v68 (F := Ideal) x0 x1 x2 x3 x4 x5 x6 x7 x8 := by
  after_results_simp
  rw [h44, h48, h55, h7, h8]
  rfl
theorem a1_out (x0 x1 x2 x3 x4 x5 x6 x7 x8)
    (hp : W (Proc.devRef .tc main_v68) = val_main_v68 (F := Ideal) x0 x1 x2 x3 x4 x5 x6 x7 x8)
    (h1 : W (Proc.devRef .tc main_v1) = val_main_v1 (F := Ideal) x1)
    (h3 : W (Proc.devRef .tc main_v3) = val_main_v3 (F := Ideal) x1)
    (h12 : W (Proc.devRef .tc main_v12) = val_main_v12 (F := Ideal) x1)
    (h4 : W (Proc.devRef .tc main_arg4) = x4)
    (h5 : W (Proc.devRef .tc main_arg5) = x5)
    (h6 : W (Proc.devRef .tc main_arg6) = x6) :
    after (opsA1 (F := Ideal)) W (Proc.devRef .tc main_v94)
      = val_main_v94 (F := Ideal) x0 x1 x2 x3 x4 x5 x6 x7 x8 := by
  after_results_simp
  rw [hp, h1, h3, h12, h4, h5, h6]
  rfl
theorem r1_out (x0 x1 x2 x3 x4 x5 x6 x7 x8)
    (h43 : W (Proc.devRef .tc main_v94) = val_main_v94 (F := Ideal) x0 x1 x2 x3 x4 x5 x6 x7 x8) :
    after (opsR1 (F := Ideal)) W (Proc.devRef .tc main_v95)
      = val_main_v95 (F := Ideal) x0 x1 x2 x3 x4 x5 x6 x7 x8 := by
  after_results_simp
  rw [h43, toBuf_v95, ofBuf_v94, ofBuf_toBuf, ofBuf_toBuf]
  rfl
theorem b1_out (x0 x1 x2 x3 x4 x5 x6 x7 x8)
    (h44 : W (Proc.devRef .tc main_v95) = val_main_v95 (F := Ideal) x0 x1 x2 x3 x4 x5 x6 x7 x8) :
    after (opsB1 (F := Ideal)) W (Proc.devRef .tc main_v99)
      = val_main_v99 (F := Ideal) x0 x1 x2 x3 x4 x5 x6 x7 x8 := by
  after_results_simp
  rw [h44]
  rfl
theorem c1_out (x0 x1 x2 x3 x4 x5 x6 x7 x8)
    (h44 : W (Proc.devRef .tc main_v95) = val_main_v95 (F := Ideal) x0 x1 x2 x3 x4 x5 x6 x7 x8)
    (h48 : W (Proc.devRef .tc main_v99) = val_main_v99 (F := Ideal) x0 x1 x2 x3 x4 x5 x6 x7 x8) :
    after (opsC1 (F := Ideal)) W (Proc.devRef .tc main_v106)
      = val_main_v106 (F := Ideal) x0 x1 x2 x3 x4 x5 x6 x7 x8 := by
  after_results_simp
  rw [h44, h48]
  rfl
theorem d1_out (x0 x1 x2 x3 x4 x5 x6 x7 x8)
    (h44 : W (Proc.devRef .tc main_v95) = val_main_v95 (F := Ideal) x0 x1 x2 x3 x4 x5 x6 x7 x8)
    (h48 : W (Proc.devRef .tc main_v99) = val_main_v99 (F := Ideal) x0 x1 x2 x3 x4 x5 x6 x7 x8)
    (h55 : W (Proc.devRef .tc main_v106) = val_main_v106 (F := Ideal) x0 x1 x2 x3 x4 x5 x6 x7 x8)
    (h7 : W (Proc.devRef .tc main_arg7) = x7)
    (h8 : W (Proc.devRef .tc main_arg8) = x8) :
    after (opsD1 (F := Ideal)) W (Proc.devRef .tc main_v119)
      = val_main_v119 (F := Ideal) x0 x1 x2 x3 x4 x5 x6 x7 x8 := by
  after_results_simp
  rw [h44, h48, h55, h7, h8]
  rfl
theorem a2_out (x0 x1 x2 x3 x4 x5 x6 x7 x8)
    (hp : W (Proc.devRef .tc main_v119) = val_main_v119 (F := Ideal) x0 x1 x2 x3 x4 x5 x6 x7 x8)
    (h1 : W (Proc.devRef .tc main_v1) = val_main_v1 (F := Ideal) x1)
    (h3 : W (Proc.devRef .tc main_v3) = val_main_v3 (F := Ideal) x1)
    (h12 : W (Proc.devRef .tc main_v12) = val_main_v12 (F := Ideal) x1)
    (h4 : W (Proc.devRef .tc main_arg4) = x4)
    (h5 : W (Proc.devRef .tc main_arg5) = x5)
    (h6 : W (Proc.devRef .tc main_arg6) = x6) :
    after (opsA2 (F := Ideal)) W (Proc.devRef .tc main_v145)
      = val_main_v145 (F := Ideal) x0 x1 x2 x3 x4 x5 x6 x7 x8 := by
  after_results_simp
  rw [hp, h1, h3, h12, h4, h5, h6]
  rfl
theorem r2_out (x0 x1 x2 x3 x4 x5 x6 x7 x8)
    (h43 : W (Proc.devRef .tc main_v145) = val_main_v145 (F := Ideal) x0 x1 x2 x3 x4 x5 x6 x7 x8) :
    after (opsR2 (F := Ideal)) W (Proc.devRef .tc main_v146)
      = val_main_v146 (F := Ideal) x0 x1 x2 x3 x4 x5 x6 x7 x8 := by
  after_results_simp
  rw [h43, toBuf_v146, ofBuf_v145, ofBuf_toBuf, ofBuf_toBuf]
  rfl
theorem b2_out (x0 x1 x2 x3 x4 x5 x6 x7 x8)
    (h44 : W (Proc.devRef .tc main_v146) = val_main_v146 (F := Ideal) x0 x1 x2 x3 x4 x5 x6 x7 x8) :
    after (opsB2 (F := Ideal)) W (Proc.devRef .tc main_v150)
      = val_main_v150 (F := Ideal) x0 x1 x2 x3 x4 x5 x6 x7 x8 := by
  after_results_simp
  rw [h44]
  rfl
theorem c2_out (x0 x1 x2 x3 x4 x5 x6 x7 x8)
    (h44 : W (Proc.devRef .tc main_v146) = val_main_v146 (F := Ideal) x0 x1 x2 x3 x4 x5 x6 x7 x8)
    (h48 : W (Proc.devRef .tc main_v150) = val_main_v150 (F := Ideal) x0 x1 x2 x3 x4 x5 x6 x7 x8) :
    after (opsC2 (F := Ideal)) W (Proc.devRef .tc main_v157)
      = val_main_v157 (F := Ideal) x0 x1 x2 x3 x4 x5 x6 x7 x8 := by
  after_results_simp
  rw [h44, h48]
  rfl
theorem d2_out (x0 x1 x2 x3 x4 x5 x6 x7 x8)
    (h44 : W (Proc.devRef .tc main_v146) = val_main_v146 (F := Ideal) x0 x1 x2 x3 x4 x5 x6 x7 x8)
    (h48 : W (Proc.devRef .tc main_v150) = val_main_v150 (F := Ideal) x0 x1 x2 x3 x4 x5 x6 x7 x8)
    (h55 : W (Proc.devRef .tc main_v157) = val_main_v157 (F := Ideal) x0 x1 x2 x3 x4 x5 x6 x7 x8)
    (h7 : W (Proc.devRef .tc main_arg7) = x7)
    (h8 : W (Proc.devRef .tc main_arg8) = x8) :
    after (opsD2 (F := Ideal)) W (Proc.devRef .tc main_v170)
      = val_main_v170 (F := Ideal) x0 x1 x2 x3 x4 x5 x6 x7 x8 := by
  after_results_simp
  rw [h44, h48, h55, h7, h8]
  rfl

/-! ## The pieces chained -/

/-- The contents after the first piece, after the first two, … -/
abbrev S1 : Valuation τ sig (Elt Ideal) := after (opsP (F := Ideal)) W
abbrev S2 : Valuation τ sig (Elt Ideal) := after (opsA0 (F := Ideal)) (S1 W)
abbrev S3 : Valuation τ sig (Elt Ideal) := after (opsR0 (F := Ideal)) (S2 W)
abbrev S4 : Valuation τ sig (Elt Ideal) := after (opsB0 (F := Ideal)) (S3 W)
abbrev S5 : Valuation τ sig (Elt Ideal) := after (opsC0 (F := Ideal)) (S4 W)
abbrev S6 : Valuation τ sig (Elt Ideal) := after (opsD0 (F := Ideal)) (S5 W)
abbrev S7 : Valuation τ sig (Elt Ideal) := after (opsA1 (F := Ideal)) (S6 W)
abbrev S8 : Valuation τ sig (Elt Ideal) := after (opsR1 (F := Ideal)) (S7 W)
abbrev S9 : Valuation τ sig (Elt Ideal) := after (opsB1 (F := Ideal)) (S8 W)
abbrev S10 : Valuation τ sig (Elt Ideal) := after (opsC1 (F := Ideal)) (S9 W)
abbrev S11 : Valuation τ sig (Elt Ideal) := after (opsD1 (F := Ideal)) (S10 W)
abbrev S12 : Valuation τ sig (Elt Ideal) := after (opsA2 (F := Ideal)) (S11 W)
abbrev S13 : Valuation τ sig (Elt Ideal) := after (opsR2 (F := Ideal)) (S12 W)
abbrev S14 : Valuation τ sig (Elt Ideal) := after (opsB2 (F := Ideal)) (S13 W)
abbrev S15 : Valuation τ sig (Elt Ideal) := after (opsC2 (F := Ideal)) (S14 W)
abbrev S16 : Valuation τ sig (Elt Ideal) := after (opsD2 (F := Ideal)) (S15 W)

theorem s1_v17 : S1 W (Proc.devRef .tc main_v17) = val_main_v17 (F := Ideal) (W (Proc.devRef .tc main_arg0)) (W (Proc.devRef .tc main_arg2)) (W (Proc.devRef .tc main_arg3)) := p_v17 W
theorem s1_v1 : S1 W (Proc.devRef .tc main_v1) = val_main_v1 (F := Ideal) (W (Proc.devRef .tc main_arg1)) := p_v1 W
theorem s1_v3 : S1 W (Proc.devRef .tc main_v3) = val_main_v3 (F := Ideal) (W (Proc.devRef .tc main_arg1)) := p_v3 W
theorem s1_v12 : S1 W (Proc.devRef .tc main_v12) = val_main_v12 (F := Ideal) (W (Proc.devRef .tc main_arg1)) := p_v12 W
theorem s1_arg4 : S1 W (Proc.devRef .tc main_arg4) = W (Proc.devRef .tc main_arg4) := keep_opsP W main_arg4 (by decide)
theorem s1_arg5 : S1 W (Proc.devRef .tc main_arg5) = W (Proc.devRef .tc main_arg5) := keep_opsP W main_arg5 (by decide)
theorem s1_arg6 : S1 W (Proc.devRef .tc main_arg6) = W (Proc.devRef .tc main_arg6) := keep_opsP W main_arg6 (by decide)
theorem s1_arg7 : S1 W (Proc.devRef .tc main_arg7) = W (Proc.devRef .tc main_arg7) := keep_opsP W main_arg7 (by decide)
theorem s1_arg8 : S1 W (Proc.devRef .tc main_arg8) = W (Proc.devRef .tc main_arg8) := keep_opsP W main_arg8 (by decide)
theorem s2_v43 : S2 W (Proc.devRef .tc main_v43) = val_main_v43 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  a0_out (S1 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (s1_v17 W) (s1_v1 W) (s1_v3 W) (s1_v12 W) (s1_arg4 W) (s1_arg5 W) (s1_arg6 W)
theorem s2_v1 : S2 W (Proc.devRef .tc main_v1) = val_main_v1 (F := Ideal) (W (Proc.devRef .tc main_arg1)) := (keep_opsA0 (S1 W) main_v1 (by decide)).trans (s1_v1 W)
theorem s2_v3 : S2 W (Proc.devRef .tc main_v3) = val_main_v3 (F := Ideal) (W (Proc.devRef .tc main_arg1)) := (keep_opsA0 (S1 W) main_v3 (by decide)).trans (s1_v3 W)
theorem s2_v12 : S2 W (Proc.devRef .tc main_v12) = val_main_v12 (F := Ideal) (W (Proc.devRef .tc main_arg1)) := (keep_opsA0 (S1 W) main_v12 (by decide)).trans (s1_v12 W)
theorem s2_arg4 : S2 W (Proc.devRef .tc main_arg4) = W (Proc.devRef .tc main_arg4) := (keep_opsA0 (S1 W) main_arg4 (by decide)).trans (s1_arg4 W)
theorem s2_arg5 : S2 W (Proc.devRef .tc main_arg5) = W (Proc.devRef .tc main_arg5) := (keep_opsA0 (S1 W) main_arg5 (by decide)).trans (s1_arg5 W)
theorem s2_arg6 : S2 W (Proc.devRef .tc main_arg6) = W (Proc.devRef .tc main_arg6) := (keep_opsA0 (S1 W) main_arg6 (by decide)).trans (s1_arg6 W)
theorem s2_arg7 : S2 W (Proc.devRef .tc main_arg7) = W (Proc.devRef .tc main_arg7) := (keep_opsA0 (S1 W) main_arg7 (by decide)).trans (s1_arg7 W)
theorem s2_arg8 : S2 W (Proc.devRef .tc main_arg8) = W (Proc.devRef .tc main_arg8) := (keep_opsA0 (S1 W) main_arg8 (by decide)).trans (s1_arg8 W)
theorem s3_v44 : S3 W (Proc.devRef .tc main_v44) = val_main_v44 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  r0_out (S2 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (s2_v43 W)
theorem s3_v1 : S3 W (Proc.devRef .tc main_v1) = val_main_v1 (F := Ideal) (W (Proc.devRef .tc main_arg1)) := (keep_opsR0 (S2 W) main_v1 (by decide)).trans (s2_v1 W)
theorem s3_v3 : S3 W (Proc.devRef .tc main_v3) = val_main_v3 (F := Ideal) (W (Proc.devRef .tc main_arg1)) := (keep_opsR0 (S2 W) main_v3 (by decide)).trans (s2_v3 W)
theorem s3_v12 : S3 W (Proc.devRef .tc main_v12) = val_main_v12 (F := Ideal) (W (Proc.devRef .tc main_arg1)) := (keep_opsR0 (S2 W) main_v12 (by decide)).trans (s2_v12 W)
theorem s3_arg4 : S3 W (Proc.devRef .tc main_arg4) = W (Proc.devRef .tc main_arg4) := (keep_opsR0 (S2 W) main_arg4 (by decide)).trans (s2_arg4 W)
theorem s3_arg5 : S3 W (Proc.devRef .tc main_arg5) = W (Proc.devRef .tc main_arg5) := (keep_opsR0 (S2 W) main_arg5 (by decide)).trans (s2_arg5 W)
theorem s3_arg6 : S3 W (Proc.devRef .tc main_arg6) = W (Proc.devRef .tc main_arg6) := (keep_opsR0 (S2 W) main_arg6 (by decide)).trans (s2_arg6 W)
theorem s3_arg7 : S3 W (Proc.devRef .tc main_arg7) = W (Proc.devRef .tc main_arg7) := (keep_opsR0 (S2 W) main_arg7 (by decide)).trans (s2_arg7 W)
theorem s3_arg8 : S3 W (Proc.devRef .tc main_arg8) = W (Proc.devRef .tc main_arg8) := (keep_opsR0 (S2 W) main_arg8 (by decide)).trans (s2_arg8 W)
theorem s4_v48 : S4 W (Proc.devRef .tc main_v48) = val_main_v48 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  b0_out (S3 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (s3_v44 W)
theorem s4_v44 : S4 W (Proc.devRef .tc main_v44) = val_main_v44 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := (keep_opsB0 (S3 W) main_v44 (by decide)).trans (s3_v44 W)
theorem s4_v1 : S4 W (Proc.devRef .tc main_v1) = val_main_v1 (F := Ideal) (W (Proc.devRef .tc main_arg1)) := (keep_opsB0 (S3 W) main_v1 (by decide)).trans (s3_v1 W)
theorem s4_v3 : S4 W (Proc.devRef .tc main_v3) = val_main_v3 (F := Ideal) (W (Proc.devRef .tc main_arg1)) := (keep_opsB0 (S3 W) main_v3 (by decide)).trans (s3_v3 W)
theorem s4_v12 : S4 W (Proc.devRef .tc main_v12) = val_main_v12 (F := Ideal) (W (Proc.devRef .tc main_arg1)) := (keep_opsB0 (S3 W) main_v12 (by decide)).trans (s3_v12 W)
theorem s4_arg4 : S4 W (Proc.devRef .tc main_arg4) = W (Proc.devRef .tc main_arg4) := (keep_opsB0 (S3 W) main_arg4 (by decide)).trans (s3_arg4 W)
theorem s4_arg5 : S4 W (Proc.devRef .tc main_arg5) = W (Proc.devRef .tc main_arg5) := (keep_opsB0 (S3 W) main_arg5 (by decide)).trans (s3_arg5 W)
theorem s4_arg6 : S4 W (Proc.devRef .tc main_arg6) = W (Proc.devRef .tc main_arg6) := (keep_opsB0 (S3 W) main_arg6 (by decide)).trans (s3_arg6 W)
theorem s4_arg7 : S4 W (Proc.devRef .tc main_arg7) = W (Proc.devRef .tc main_arg7) := (keep_opsB0 (S3 W) main_arg7 (by decide)).trans (s3_arg7 W)
theorem s4_arg8 : S4 W (Proc.devRef .tc main_arg8) = W (Proc.devRef .tc main_arg8) := (keep_opsB0 (S3 W) main_arg8 (by decide)).trans (s3_arg8 W)
theorem s5_v55 : S5 W (Proc.devRef .tc main_v55) = val_main_v55 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  c0_out (S4 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (s4_v44 W) (s4_v48 W)
theorem s5_v44 : S5 W (Proc.devRef .tc main_v44) = val_main_v44 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := (keep_opsC0 (S4 W) main_v44 (by decide)).trans (s4_v44 W)
theorem s5_v48 : S5 W (Proc.devRef .tc main_v48) = val_main_v48 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := (keep_opsC0 (S4 W) main_v48 (by decide)).trans (s4_v48 W)
theorem s5_v1 : S5 W (Proc.devRef .tc main_v1) = val_main_v1 (F := Ideal) (W (Proc.devRef .tc main_arg1)) := (keep_opsC0 (S4 W) main_v1 (by decide)).trans (s4_v1 W)
theorem s5_v3 : S5 W (Proc.devRef .tc main_v3) = val_main_v3 (F := Ideal) (W (Proc.devRef .tc main_arg1)) := (keep_opsC0 (S4 W) main_v3 (by decide)).trans (s4_v3 W)
theorem s5_v12 : S5 W (Proc.devRef .tc main_v12) = val_main_v12 (F := Ideal) (W (Proc.devRef .tc main_arg1)) := (keep_opsC0 (S4 W) main_v12 (by decide)).trans (s4_v12 W)
theorem s5_arg4 : S5 W (Proc.devRef .tc main_arg4) = W (Proc.devRef .tc main_arg4) := (keep_opsC0 (S4 W) main_arg4 (by decide)).trans (s4_arg4 W)
theorem s5_arg5 : S5 W (Proc.devRef .tc main_arg5) = W (Proc.devRef .tc main_arg5) := (keep_opsC0 (S4 W) main_arg5 (by decide)).trans (s4_arg5 W)
theorem s5_arg6 : S5 W (Proc.devRef .tc main_arg6) = W (Proc.devRef .tc main_arg6) := (keep_opsC0 (S4 W) main_arg6 (by decide)).trans (s4_arg6 W)
theorem s5_arg7 : S5 W (Proc.devRef .tc main_arg7) = W (Proc.devRef .tc main_arg7) := (keep_opsC0 (S4 W) main_arg7 (by decide)).trans (s4_arg7 W)
theorem s5_arg8 : S5 W (Proc.devRef .tc main_arg8) = W (Proc.devRef .tc main_arg8) := (keep_opsC0 (S4 W) main_arg8 (by decide)).trans (s4_arg8 W)
theorem s6_v68 : S6 W (Proc.devRef .tc main_v68) = val_main_v68 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
  d0_out (S5 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (s5_v44 W) (s5_v48 W) (s5_v55 W) (s5_arg7 W) (s5_arg8 W)
theorem s6_v1 : S6 W (Proc.devRef .tc main_v1) = val_main_v1 (F := Ideal) (W (Proc.devRef .tc main_arg1)) := (keep_opsD0 (S5 W) main_v1 (by decide)).trans (s5_v1 W)
theorem s6_v3 : S6 W (Proc.devRef .tc main_v3) = val_main_v3 (F := Ideal) (W (Proc.devRef .tc main_arg1)) := (keep_opsD0 (S5 W) main_v3 (by decide)).trans (s5_v3 W)
theorem s6_v12 : S6 W (Proc.devRef .tc main_v12) = val_main_v12 (F := Ideal) (W (Proc.devRef .tc main_arg1)) := (keep_opsD0 (S5 W) main_v12 (by decide)).trans (s5_v12 W)
theorem s6_arg4 : S6 W (Proc.devRef .tc main_arg4) = W (Proc.devRef .tc main_arg4) := (keep_opsD0 (S5 W) main_arg4 (by decide)).trans (s5_arg4 W)
theorem s6_arg5 : S6 W (Proc.devRef .tc main_arg5) = W (Proc.devRef .tc main_arg5) := (keep_opsD0 (S5 W) main_arg5 (by decide)).trans (s5_arg5 W)
theorem s6_arg6 : S6 W (Proc.devRef .tc main_arg6) = W (Proc.devRef .tc main_arg6) := (keep_opsD0 (S5 W) main_arg6 (by decide)).trans (s5_arg6 W)
theorem s6_arg7 : S6 W (Proc.devRef .tc main_arg7) = W (Proc.devRef .tc main_arg7) := (keep_opsD0 (S5 W) main_arg7 (by decide)).trans (s5_arg7 W)
theorem s6_arg8 : S6 W (Proc.devRef .tc main_arg8) = W (Proc.devRef .tc main_arg8) := (keep_opsD0 (S5 W) main_arg8 (by decide)).trans (s5_arg8 W)
theorem s7_v94 : S7 W (Proc.devRef .tc main_v94) = val_main_v94 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
  a1_out (S6 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (s6_v68 W) (s6_v1 W) (s6_v3 W) (s6_v12 W) (s6_arg4 W) (s6_arg5 W) (s6_arg6 W)
theorem s7_v1 : S7 W (Proc.devRef .tc main_v1) = val_main_v1 (F := Ideal) (W (Proc.devRef .tc main_arg1)) := (keep_opsA1 (S6 W) main_v1 (by decide)).trans (s6_v1 W)
theorem s7_v3 : S7 W (Proc.devRef .tc main_v3) = val_main_v3 (F := Ideal) (W (Proc.devRef .tc main_arg1)) := (keep_opsA1 (S6 W) main_v3 (by decide)).trans (s6_v3 W)
theorem s7_v12 : S7 W (Proc.devRef .tc main_v12) = val_main_v12 (F := Ideal) (W (Proc.devRef .tc main_arg1)) := (keep_opsA1 (S6 W) main_v12 (by decide)).trans (s6_v12 W)
theorem s7_arg4 : S7 W (Proc.devRef .tc main_arg4) = W (Proc.devRef .tc main_arg4) := (keep_opsA1 (S6 W) main_arg4 (by decide)).trans (s6_arg4 W)
theorem s7_arg5 : S7 W (Proc.devRef .tc main_arg5) = W (Proc.devRef .tc main_arg5) := (keep_opsA1 (S6 W) main_arg5 (by decide)).trans (s6_arg5 W)
theorem s7_arg6 : S7 W (Proc.devRef .tc main_arg6) = W (Proc.devRef .tc main_arg6) := (keep_opsA1 (S6 W) main_arg6 (by decide)).trans (s6_arg6 W)
theorem s7_arg7 : S7 W (Proc.devRef .tc main_arg7) = W (Proc.devRef .tc main_arg7) := (keep_opsA1 (S6 W) main_arg7 (by decide)).trans (s6_arg7 W)
theorem s7_arg8 : S7 W (Proc.devRef .tc main_arg8) = W (Proc.devRef .tc main_arg8) := (keep_opsA1 (S6 W) main_arg8 (by decide)).trans (s6_arg8 W)
theorem s8_v95 : S8 W (Proc.devRef .tc main_v95) = val_main_v95 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
  r1_out (S7 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (s7_v94 W)
theorem s8_v1 : S8 W (Proc.devRef .tc main_v1) = val_main_v1 (F := Ideal) (W (Proc.devRef .tc main_arg1)) := (keep_opsR1 (S7 W) main_v1 (by decide)).trans (s7_v1 W)
theorem s8_v3 : S8 W (Proc.devRef .tc main_v3) = val_main_v3 (F := Ideal) (W (Proc.devRef .tc main_arg1)) := (keep_opsR1 (S7 W) main_v3 (by decide)).trans (s7_v3 W)
theorem s8_v12 : S8 W (Proc.devRef .tc main_v12) = val_main_v12 (F := Ideal) (W (Proc.devRef .tc main_arg1)) := (keep_opsR1 (S7 W) main_v12 (by decide)).trans (s7_v12 W)
theorem s8_arg4 : S8 W (Proc.devRef .tc main_arg4) = W (Proc.devRef .tc main_arg4) := (keep_opsR1 (S7 W) main_arg4 (by decide)).trans (s7_arg4 W)
theorem s8_arg5 : S8 W (Proc.devRef .tc main_arg5) = W (Proc.devRef .tc main_arg5) := (keep_opsR1 (S7 W) main_arg5 (by decide)).trans (s7_arg5 W)
theorem s8_arg6 : S8 W (Proc.devRef .tc main_arg6) = W (Proc.devRef .tc main_arg6) := (keep_opsR1 (S7 W) main_arg6 (by decide)).trans (s7_arg6 W)
theorem s8_arg7 : S8 W (Proc.devRef .tc main_arg7) = W (Proc.devRef .tc main_arg7) := (keep_opsR1 (S7 W) main_arg7 (by decide)).trans (s7_arg7 W)
theorem s8_arg8 : S8 W (Proc.devRef .tc main_arg8) = W (Proc.devRef .tc main_arg8) := (keep_opsR1 (S7 W) main_arg8 (by decide)).trans (s7_arg8 W)
theorem s9_v99 : S9 W (Proc.devRef .tc main_v99) = val_main_v99 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
  b1_out (S8 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (s8_v95 W)
theorem s9_v95 : S9 W (Proc.devRef .tc main_v95) = val_main_v95 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := (keep_opsB1 (S8 W) main_v95 (by decide)).trans (s8_v95 W)
theorem s9_v1 : S9 W (Proc.devRef .tc main_v1) = val_main_v1 (F := Ideal) (W (Proc.devRef .tc main_arg1)) := (keep_opsB1 (S8 W) main_v1 (by decide)).trans (s8_v1 W)
theorem s9_v3 : S9 W (Proc.devRef .tc main_v3) = val_main_v3 (F := Ideal) (W (Proc.devRef .tc main_arg1)) := (keep_opsB1 (S8 W) main_v3 (by decide)).trans (s8_v3 W)
theorem s9_v12 : S9 W (Proc.devRef .tc main_v12) = val_main_v12 (F := Ideal) (W (Proc.devRef .tc main_arg1)) := (keep_opsB1 (S8 W) main_v12 (by decide)).trans (s8_v12 W)
theorem s9_arg4 : S9 W (Proc.devRef .tc main_arg4) = W (Proc.devRef .tc main_arg4) := (keep_opsB1 (S8 W) main_arg4 (by decide)).trans (s8_arg4 W)
theorem s9_arg5 : S9 W (Proc.devRef .tc main_arg5) = W (Proc.devRef .tc main_arg5) := (keep_opsB1 (S8 W) main_arg5 (by decide)).trans (s8_arg5 W)
theorem s9_arg6 : S9 W (Proc.devRef .tc main_arg6) = W (Proc.devRef .tc main_arg6) := (keep_opsB1 (S8 W) main_arg6 (by decide)).trans (s8_arg6 W)
theorem s9_arg7 : S9 W (Proc.devRef .tc main_arg7) = W (Proc.devRef .tc main_arg7) := (keep_opsB1 (S8 W) main_arg7 (by decide)).trans (s8_arg7 W)
theorem s9_arg8 : S9 W (Proc.devRef .tc main_arg8) = W (Proc.devRef .tc main_arg8) := (keep_opsB1 (S8 W) main_arg8 (by decide)).trans (s8_arg8 W)
theorem s10_v106 : S10 W (Proc.devRef .tc main_v106) = val_main_v106 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
  c1_out (S9 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (s9_v95 W) (s9_v99 W)
theorem s10_v95 : S10 W (Proc.devRef .tc main_v95) = val_main_v95 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := (keep_opsC1 (S9 W) main_v95 (by decide)).trans (s9_v95 W)
theorem s10_v99 : S10 W (Proc.devRef .tc main_v99) = val_main_v99 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := (keep_opsC1 (S9 W) main_v99 (by decide)).trans (s9_v99 W)
theorem s10_v1 : S10 W (Proc.devRef .tc main_v1) = val_main_v1 (F := Ideal) (W (Proc.devRef .tc main_arg1)) := (keep_opsC1 (S9 W) main_v1 (by decide)).trans (s9_v1 W)
theorem s10_v3 : S10 W (Proc.devRef .tc main_v3) = val_main_v3 (F := Ideal) (W (Proc.devRef .tc main_arg1)) := (keep_opsC1 (S9 W) main_v3 (by decide)).trans (s9_v3 W)
theorem s10_v12 : S10 W (Proc.devRef .tc main_v12) = val_main_v12 (F := Ideal) (W (Proc.devRef .tc main_arg1)) := (keep_opsC1 (S9 W) main_v12 (by decide)).trans (s9_v12 W)
theorem s10_arg4 : S10 W (Proc.devRef .tc main_arg4) = W (Proc.devRef .tc main_arg4) := (keep_opsC1 (S9 W) main_arg4 (by decide)).trans (s9_arg4 W)
theorem s10_arg5 : S10 W (Proc.devRef .tc main_arg5) = W (Proc.devRef .tc main_arg5) := (keep_opsC1 (S9 W) main_arg5 (by decide)).trans (s9_arg5 W)
theorem s10_arg6 : S10 W (Proc.devRef .tc main_arg6) = W (Proc.devRef .tc main_arg6) := (keep_opsC1 (S9 W) main_arg6 (by decide)).trans (s9_arg6 W)
theorem s10_arg7 : S10 W (Proc.devRef .tc main_arg7) = W (Proc.devRef .tc main_arg7) := (keep_opsC1 (S9 W) main_arg7 (by decide)).trans (s9_arg7 W)
theorem s10_arg8 : S10 W (Proc.devRef .tc main_arg8) = W (Proc.devRef .tc main_arg8) := (keep_opsC1 (S9 W) main_arg8 (by decide)).trans (s9_arg8 W)
theorem s11_v119 : S11 W (Proc.devRef .tc main_v119) = val_main_v119 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
  d1_out (S10 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (s10_v95 W) (s10_v99 W) (s10_v106 W) (s10_arg7 W) (s10_arg8 W)
theorem s11_v1 : S11 W (Proc.devRef .tc main_v1) = val_main_v1 (F := Ideal) (W (Proc.devRef .tc main_arg1)) := (keep_opsD1 (S10 W) main_v1 (by decide)).trans (s10_v1 W)
theorem s11_v3 : S11 W (Proc.devRef .tc main_v3) = val_main_v3 (F := Ideal) (W (Proc.devRef .tc main_arg1)) := (keep_opsD1 (S10 W) main_v3 (by decide)).trans (s10_v3 W)
theorem s11_v12 : S11 W (Proc.devRef .tc main_v12) = val_main_v12 (F := Ideal) (W (Proc.devRef .tc main_arg1)) := (keep_opsD1 (S10 W) main_v12 (by decide)).trans (s10_v12 W)
theorem s11_arg4 : S11 W (Proc.devRef .tc main_arg4) = W (Proc.devRef .tc main_arg4) := (keep_opsD1 (S10 W) main_arg4 (by decide)).trans (s10_arg4 W)
theorem s11_arg5 : S11 W (Proc.devRef .tc main_arg5) = W (Proc.devRef .tc main_arg5) := (keep_opsD1 (S10 W) main_arg5 (by decide)).trans (s10_arg5 W)
theorem s11_arg6 : S11 W (Proc.devRef .tc main_arg6) = W (Proc.devRef .tc main_arg6) := (keep_opsD1 (S10 W) main_arg6 (by decide)).trans (s10_arg6 W)
theorem s11_arg7 : S11 W (Proc.devRef .tc main_arg7) = W (Proc.devRef .tc main_arg7) := (keep_opsD1 (S10 W) main_arg7 (by decide)).trans (s10_arg7 W)
theorem s11_arg8 : S11 W (Proc.devRef .tc main_arg8) = W (Proc.devRef .tc main_arg8) := (keep_opsD1 (S10 W) main_arg8 (by decide)).trans (s10_arg8 W)
theorem s12_v145 : S12 W (Proc.devRef .tc main_v145) = val_main_v145 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
  a2_out (S11 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (s11_v119 W) (s11_v1 W) (s11_v3 W) (s11_v12 W) (s11_arg4 W) (s11_arg5 W) (s11_arg6 W)
theorem s12_v1 : S12 W (Proc.devRef .tc main_v1) = val_main_v1 (F := Ideal) (W (Proc.devRef .tc main_arg1)) := (keep_opsA2 (S11 W) main_v1 (by decide)).trans (s11_v1 W)
theorem s12_v3 : S12 W (Proc.devRef .tc main_v3) = val_main_v3 (F := Ideal) (W (Proc.devRef .tc main_arg1)) := (keep_opsA2 (S11 W) main_v3 (by decide)).trans (s11_v3 W)
theorem s12_v12 : S12 W (Proc.devRef .tc main_v12) = val_main_v12 (F := Ideal) (W (Proc.devRef .tc main_arg1)) := (keep_opsA2 (S11 W) main_v12 (by decide)).trans (s11_v12 W)
theorem s12_arg4 : S12 W (Proc.devRef .tc main_arg4) = W (Proc.devRef .tc main_arg4) := (keep_opsA2 (S11 W) main_arg4 (by decide)).trans (s11_arg4 W)
theorem s12_arg5 : S12 W (Proc.devRef .tc main_arg5) = W (Proc.devRef .tc main_arg5) := (keep_opsA2 (S11 W) main_arg5 (by decide)).trans (s11_arg5 W)
theorem s12_arg6 : S12 W (Proc.devRef .tc main_arg6) = W (Proc.devRef .tc main_arg6) := (keep_opsA2 (S11 W) main_arg6 (by decide)).trans (s11_arg6 W)
theorem s12_arg7 : S12 W (Proc.devRef .tc main_arg7) = W (Proc.devRef .tc main_arg7) := (keep_opsA2 (S11 W) main_arg7 (by decide)).trans (s11_arg7 W)
theorem s12_arg8 : S12 W (Proc.devRef .tc main_arg8) = W (Proc.devRef .tc main_arg8) := (keep_opsA2 (S11 W) main_arg8 (by decide)).trans (s11_arg8 W)
theorem s13_v146 : S13 W (Proc.devRef .tc main_v146) = val_main_v146 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
  r2_out (S12 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (s12_v145 W)
theorem s13_v1 : S13 W (Proc.devRef .tc main_v1) = val_main_v1 (F := Ideal) (W (Proc.devRef .tc main_arg1)) := (keep_opsR2 (S12 W) main_v1 (by decide)).trans (s12_v1 W)
theorem s13_v3 : S13 W (Proc.devRef .tc main_v3) = val_main_v3 (F := Ideal) (W (Proc.devRef .tc main_arg1)) := (keep_opsR2 (S12 W) main_v3 (by decide)).trans (s12_v3 W)
theorem s13_v12 : S13 W (Proc.devRef .tc main_v12) = val_main_v12 (F := Ideal) (W (Proc.devRef .tc main_arg1)) := (keep_opsR2 (S12 W) main_v12 (by decide)).trans (s12_v12 W)
theorem s13_arg4 : S13 W (Proc.devRef .tc main_arg4) = W (Proc.devRef .tc main_arg4) := (keep_opsR2 (S12 W) main_arg4 (by decide)).trans (s12_arg4 W)
theorem s13_arg5 : S13 W (Proc.devRef .tc main_arg5) = W (Proc.devRef .tc main_arg5) := (keep_opsR2 (S12 W) main_arg5 (by decide)).trans (s12_arg5 W)
theorem s13_arg6 : S13 W (Proc.devRef .tc main_arg6) = W (Proc.devRef .tc main_arg6) := (keep_opsR2 (S12 W) main_arg6 (by decide)).trans (s12_arg6 W)
theorem s13_arg7 : S13 W (Proc.devRef .tc main_arg7) = W (Proc.devRef .tc main_arg7) := (keep_opsR2 (S12 W) main_arg7 (by decide)).trans (s12_arg7 W)
theorem s13_arg8 : S13 W (Proc.devRef .tc main_arg8) = W (Proc.devRef .tc main_arg8) := (keep_opsR2 (S12 W) main_arg8 (by decide)).trans (s12_arg8 W)
theorem s14_v150 : S14 W (Proc.devRef .tc main_v150) = val_main_v150 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
  b2_out (S13 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (s13_v146 W)
theorem s14_v146 : S14 W (Proc.devRef .tc main_v146) = val_main_v146 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := (keep_opsB2 (S13 W) main_v146 (by decide)).trans (s13_v146 W)
theorem s14_v1 : S14 W (Proc.devRef .tc main_v1) = val_main_v1 (F := Ideal) (W (Proc.devRef .tc main_arg1)) := (keep_opsB2 (S13 W) main_v1 (by decide)).trans (s13_v1 W)
theorem s14_v3 : S14 W (Proc.devRef .tc main_v3) = val_main_v3 (F := Ideal) (W (Proc.devRef .tc main_arg1)) := (keep_opsB2 (S13 W) main_v3 (by decide)).trans (s13_v3 W)
theorem s14_v12 : S14 W (Proc.devRef .tc main_v12) = val_main_v12 (F := Ideal) (W (Proc.devRef .tc main_arg1)) := (keep_opsB2 (S13 W) main_v12 (by decide)).trans (s13_v12 W)
theorem s14_arg4 : S14 W (Proc.devRef .tc main_arg4) = W (Proc.devRef .tc main_arg4) := (keep_opsB2 (S13 W) main_arg4 (by decide)).trans (s13_arg4 W)
theorem s14_arg5 : S14 W (Proc.devRef .tc main_arg5) = W (Proc.devRef .tc main_arg5) := (keep_opsB2 (S13 W) main_arg5 (by decide)).trans (s13_arg5 W)
theorem s14_arg6 : S14 W (Proc.devRef .tc main_arg6) = W (Proc.devRef .tc main_arg6) := (keep_opsB2 (S13 W) main_arg6 (by decide)).trans (s13_arg6 W)
theorem s14_arg7 : S14 W (Proc.devRef .tc main_arg7) = W (Proc.devRef .tc main_arg7) := (keep_opsB2 (S13 W) main_arg7 (by decide)).trans (s13_arg7 W)
theorem s14_arg8 : S14 W (Proc.devRef .tc main_arg8) = W (Proc.devRef .tc main_arg8) := (keep_opsB2 (S13 W) main_arg8 (by decide)).trans (s13_arg8 W)
theorem s15_v157 : S15 W (Proc.devRef .tc main_v157) = val_main_v157 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
  c2_out (S14 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (s14_v146 W) (s14_v150 W)
theorem s15_v146 : S15 W (Proc.devRef .tc main_v146) = val_main_v146 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := (keep_opsC2 (S14 W) main_v146 (by decide)).trans (s14_v146 W)
theorem s15_v150 : S15 W (Proc.devRef .tc main_v150) = val_main_v150 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := (keep_opsC2 (S14 W) main_v150 (by decide)).trans (s14_v150 W)
theorem s15_v1 : S15 W (Proc.devRef .tc main_v1) = val_main_v1 (F := Ideal) (W (Proc.devRef .tc main_arg1)) := (keep_opsC2 (S14 W) main_v1 (by decide)).trans (s14_v1 W)
theorem s15_v3 : S15 W (Proc.devRef .tc main_v3) = val_main_v3 (F := Ideal) (W (Proc.devRef .tc main_arg1)) := (keep_opsC2 (S14 W) main_v3 (by decide)).trans (s14_v3 W)
theorem s15_v12 : S15 W (Proc.devRef .tc main_v12) = val_main_v12 (F := Ideal) (W (Proc.devRef .tc main_arg1)) := (keep_opsC2 (S14 W) main_v12 (by decide)).trans (s14_v12 W)
theorem s15_arg4 : S15 W (Proc.devRef .tc main_arg4) = W (Proc.devRef .tc main_arg4) := (keep_opsC2 (S14 W) main_arg4 (by decide)).trans (s14_arg4 W)
theorem s15_arg5 : S15 W (Proc.devRef .tc main_arg5) = W (Proc.devRef .tc main_arg5) := (keep_opsC2 (S14 W) main_arg5 (by decide)).trans (s14_arg5 W)
theorem s15_arg6 : S15 W (Proc.devRef .tc main_arg6) = W (Proc.devRef .tc main_arg6) := (keep_opsC2 (S14 W) main_arg6 (by decide)).trans (s14_arg6 W)
theorem s15_arg7 : S15 W (Proc.devRef .tc main_arg7) = W (Proc.devRef .tc main_arg7) := (keep_opsC2 (S14 W) main_arg7 (by decide)).trans (s14_arg7 W)
theorem s15_arg8 : S15 W (Proc.devRef .tc main_arg8) = W (Proc.devRef .tc main_arg8) := (keep_opsC2 (S14 W) main_arg8 (by decide)).trans (s14_arg8 W)
theorem s16_v170 : S16 W (Proc.devRef .tc main_v170) = val_main_v170 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
  d2_out (S15 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (s15_v146 W) (s15_v150 W) (s15_v157 W) (s15_arg7 W) (s15_arg8 W)
theorem s16_v1 : S16 W (Proc.devRef .tc main_v1) = val_main_v1 (F := Ideal) (W (Proc.devRef .tc main_arg1)) := (keep_opsD2 (S15 W) main_v1 (by decide)).trans (s15_v1 W)
theorem s16_v3 : S16 W (Proc.devRef .tc main_v3) = val_main_v3 (F := Ideal) (W (Proc.devRef .tc main_arg1)) := (keep_opsD2 (S15 W) main_v3 (by decide)).trans (s15_v3 W)
theorem s16_v12 : S16 W (Proc.devRef .tc main_v12) = val_main_v12 (F := Ideal) (W (Proc.devRef .tc main_arg1)) := (keep_opsD2 (S15 W) main_v12 (by decide)).trans (s15_v12 W)
theorem s16_arg4 : S16 W (Proc.devRef .tc main_arg4) = W (Proc.devRef .tc main_arg4) := (keep_opsD2 (S15 W) main_arg4 (by decide)).trans (s15_arg4 W)
theorem s16_arg5 : S16 W (Proc.devRef .tc main_arg5) = W (Proc.devRef .tc main_arg5) := (keep_opsD2 (S15 W) main_arg5 (by decide)).trans (s15_arg5 W)
theorem s16_arg6 : S16 W (Proc.devRef .tc main_arg6) = W (Proc.devRef .tc main_arg6) := (keep_opsD2 (S15 W) main_arg6 (by decide)).trans (s15_arg6 W)
theorem s16_arg7 : S16 W (Proc.devRef .tc main_arg7) = W (Proc.devRef .tc main_arg7) := (keep_opsD2 (S15 W) main_arg7 (by decide)).trans (s15_arg7 W)
theorem s16_arg8 : S16 W (Proc.devRef .tc main_arg8) = W (Proc.devRef .tc main_arg8) := (keep_opsD2 (S15 W) main_arg8 (by decide)).trans (s15_arg8 W)

/-! ## The whole program -/

/-- From any contents, the result buffer after all the operations is the last stage function of the argument buffers. -/
theorem result_value :
    after (ops (F := Ideal)) W (Proc.devRef .tc main_v170)
      = val_main_v170 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  rw [ops_split]
  simp only [StableHlo.after_append]
  exact s16_v170 W

theorem kept_arg0 : after (ops (F := Ideal)) W (Proc.devRef .tc main_arg0) = W (Proc.devRef .tc main_arg0) := by
  rw [ops_split]
  simp only [StableHlo.after_append]
  exact ((keep_opsD2 _ main_arg0 (by decide)).trans ((keep_opsC2 _ main_arg0 (by decide)).trans ((keep_opsB2 _ main_arg0 (by decide)).trans ((keep_opsR2 _ main_arg0 (by decide)).trans ((keep_opsA2 _ main_arg0 (by decide)).trans ((keep_opsD1 _ main_arg0 (by decide)).trans ((keep_opsC1 _ main_arg0 (by decide)).trans ((keep_opsB1 _ main_arg0 (by decide)).trans ((keep_opsR1 _ main_arg0 (by decide)).trans ((keep_opsA1 _ main_arg0 (by decide)).trans ((keep_opsD0 _ main_arg0 (by decide)).trans ((keep_opsC0 _ main_arg0 (by decide)).trans ((keep_opsB0 _ main_arg0 (by decide)).trans ((keep_opsR0 _ main_arg0 (by decide)).trans ((keep_opsA0 _ main_arg0 (by decide)).trans (keep_opsP _ main_arg0 (by decide)))))))))))))))))
theorem kept_arg1 : after (ops (F := Ideal)) W (Proc.devRef .tc main_arg1) = W (Proc.devRef .tc main_arg1) := by
  rw [ops_split]
  simp only [StableHlo.after_append]
  exact ((keep_opsD2 _ main_arg1 (by decide)).trans ((keep_opsC2 _ main_arg1 (by decide)).trans ((keep_opsB2 _ main_arg1 (by decide)).trans ((keep_opsR2 _ main_arg1 (by decide)).trans ((keep_opsA2 _ main_arg1 (by decide)).trans ((keep_opsD1 _ main_arg1 (by decide)).trans ((keep_opsC1 _ main_arg1 (by decide)).trans ((keep_opsB1 _ main_arg1 (by decide)).trans ((keep_opsR1 _ main_arg1 (by decide)).trans ((keep_opsA1 _ main_arg1 (by decide)).trans ((keep_opsD0 _ main_arg1 (by decide)).trans ((keep_opsC0 _ main_arg1 (by decide)).trans ((keep_opsB0 _ main_arg1 (by decide)).trans ((keep_opsR0 _ main_arg1 (by decide)).trans ((keep_opsA0 _ main_arg1 (by decide)).trans (keep_opsP _ main_arg1 (by decide)))))))))))))))))
theorem kept_arg2 : after (ops (F := Ideal)) W (Proc.devRef .tc main_arg2) = W (Proc.devRef .tc main_arg2) := by
  rw [ops_split]
  simp only [StableHlo.after_append]
  exact ((keep_opsD2 _ main_arg2 (by decide)).trans ((keep_opsC2 _ main_arg2 (by decide)).trans ((keep_opsB2 _ main_arg2 (by decide)).trans ((keep_opsR2 _ main_arg2 (by decide)).trans ((keep_opsA2 _ main_arg2 (by decide)).trans ((keep_opsD1 _ main_arg2 (by decide)).trans ((keep_opsC1 _ main_arg2 (by decide)).trans ((keep_opsB1 _ main_arg2 (by decide)).trans ((keep_opsR1 _ main_arg2 (by decide)).trans ((keep_opsA1 _ main_arg2 (by decide)).trans ((keep_opsD0 _ main_arg2 (by decide)).trans ((keep_opsC0 _ main_arg2 (by decide)).trans ((keep_opsB0 _ main_arg2 (by decide)).trans ((keep_opsR0 _ main_arg2 (by decide)).trans ((keep_opsA0 _ main_arg2 (by decide)).trans (keep_opsP _ main_arg2 (by decide)))))))))))))))))
theorem kept_arg3 : after (ops (F := Ideal)) W (Proc.devRef .tc main_arg3) = W (Proc.devRef .tc main_arg3) := by
  rw [ops_split]
  simp only [StableHlo.after_append]
  exact ((keep_opsD2 _ main_arg3 (by decide)).trans ((keep_opsC2 _ main_arg3 (by decide)).trans ((keep_opsB2 _ main_arg3 (by decide)).trans ((keep_opsR2 _ main_arg3 (by decide)).trans ((keep_opsA2 _ main_arg3 (by decide)).trans ((keep_opsD1 _ main_arg3 (by decide)).trans ((keep_opsC1 _ main_arg3 (by decide)).trans ((keep_opsB1 _ main_arg3 (by decide)).trans ((keep_opsR1 _ main_arg3 (by decide)).trans ((keep_opsA1 _ main_arg3 (by decide)).trans ((keep_opsD0 _ main_arg3 (by decide)).trans ((keep_opsC0 _ main_arg3 (by decide)).trans ((keep_opsB0 _ main_arg3 (by decide)).trans ((keep_opsR0 _ main_arg3 (by decide)).trans ((keep_opsA0 _ main_arg3 (by decide)).trans (keep_opsP _ main_arg3 (by decide)))))))))))))))))
theorem kept_arg4 : after (ops (F := Ideal)) W (Proc.devRef .tc main_arg4) = W (Proc.devRef .tc main_arg4) := by
  rw [ops_split]
  simp only [StableHlo.after_append]
  exact ((keep_opsD2 _ main_arg4 (by decide)).trans ((keep_opsC2 _ main_arg4 (by decide)).trans ((keep_opsB2 _ main_arg4 (by decide)).trans ((keep_opsR2 _ main_arg4 (by decide)).trans ((keep_opsA2 _ main_arg4 (by decide)).trans ((keep_opsD1 _ main_arg4 (by decide)).trans ((keep_opsC1 _ main_arg4 (by decide)).trans ((keep_opsB1 _ main_arg4 (by decide)).trans ((keep_opsR1 _ main_arg4 (by decide)).trans ((keep_opsA1 _ main_arg4 (by decide)).trans ((keep_opsD0 _ main_arg4 (by decide)).trans ((keep_opsC0 _ main_arg4 (by decide)).trans ((keep_opsB0 _ main_arg4 (by decide)).trans ((keep_opsR0 _ main_arg4 (by decide)).trans ((keep_opsA0 _ main_arg4 (by decide)).trans (keep_opsP _ main_arg4 (by decide)))))))))))))))))
theorem kept_arg5 : after (ops (F := Ideal)) W (Proc.devRef .tc main_arg5) = W (Proc.devRef .tc main_arg5) := by
  rw [ops_split]
  simp only [StableHlo.after_append]
  exact ((keep_opsD2 _ main_arg5 (by decide)).trans ((keep_opsC2 _ main_arg5 (by decide)).trans ((keep_opsB2 _ main_arg5 (by decide)).trans ((keep_opsR2 _ main_arg5 (by decide)).trans ((keep_opsA2 _ main_arg5 (by decide)).trans ((keep_opsD1 _ main_arg5 (by decide)).trans ((keep_opsC1 _ main_arg5 (by decide)).trans ((keep_opsB1 _ main_arg5 (by decide)).trans ((keep_opsR1 _ main_arg5 (by decide)).trans ((keep_opsA1 _ main_arg5 (by decide)).trans ((keep_opsD0 _ main_arg5 (by decide)).trans ((keep_opsC0 _ main_arg5 (by decide)).trans ((keep_opsB0 _ main_arg5 (by decide)).trans ((keep_opsR0 _ main_arg5 (by decide)).trans ((keep_opsA0 _ main_arg5 (by decide)).trans (keep_opsP _ main_arg5 (by decide)))))))))))))))))
theorem kept_arg6 : after (ops (F := Ideal)) W (Proc.devRef .tc main_arg6) = W (Proc.devRef .tc main_arg6) := by
  rw [ops_split]
  simp only [StableHlo.after_append]
  exact ((keep_opsD2 _ main_arg6 (by decide)).trans ((keep_opsC2 _ main_arg6 (by decide)).trans ((keep_opsB2 _ main_arg6 (by decide)).trans ((keep_opsR2 _ main_arg6 (by decide)).trans ((keep_opsA2 _ main_arg6 (by decide)).trans ((keep_opsD1 _ main_arg6 (by decide)).trans ((keep_opsC1 _ main_arg6 (by decide)).trans ((keep_opsB1 _ main_arg6 (by decide)).trans ((keep_opsR1 _ main_arg6 (by decide)).trans ((keep_opsA1 _ main_arg6 (by decide)).trans ((keep_opsD0 _ main_arg6 (by decide)).trans ((keep_opsC0 _ main_arg6 (by decide)).trans ((keep_opsB0 _ main_arg6 (by decide)).trans ((keep_opsR0 _ main_arg6 (by decide)).trans ((keep_opsA0 _ main_arg6 (by decide)).trans (keep_opsP _ main_arg6 (by decide)))))))))))))))))
theorem kept_arg7 : after (ops (F := Ideal)) W (Proc.devRef .tc main_arg7) = W (Proc.devRef .tc main_arg7) := by
  rw [ops_split]
  simp only [StableHlo.after_append]
  exact ((keep_opsD2 _ main_arg7 (by decide)).trans ((keep_opsC2 _ main_arg7 (by decide)).trans ((keep_opsB2 _ main_arg7 (by decide)).trans ((keep_opsR2 _ main_arg7 (by decide)).trans ((keep_opsA2 _ main_arg7 (by decide)).trans ((keep_opsD1 _ main_arg7 (by decide)).trans ((keep_opsC1 _ main_arg7 (by decide)).trans ((keep_opsB1 _ main_arg7 (by decide)).trans ((keep_opsR1 _ main_arg7 (by decide)).trans ((keep_opsA1 _ main_arg7 (by decide)).trans ((keep_opsD0 _ main_arg7 (by decide)).trans ((keep_opsC0 _ main_arg7 (by decide)).trans ((keep_opsB0 _ main_arg7 (by decide)).trans ((keep_opsR0 _ main_arg7 (by decide)).trans ((keep_opsA0 _ main_arg7 (by decide)).trans (keep_opsP _ main_arg7 (by decide)))))))))))))))))
theorem kept_arg8 : after (ops (F := Ideal)) W (Proc.devRef .tc main_arg8) = W (Proc.devRef .tc main_arg8) := by
  rw [ops_split]
  simp only [StableHlo.after_append]
  exact ((keep_opsD2 _ main_arg8 (by decide)).trans ((keep_opsC2 _ main_arg8 (by decide)).trans ((keep_opsB2 _ main_arg8 (by decide)).trans ((keep_opsR2 _ main_arg8 (by decide)).trans ((keep_opsA2 _ main_arg8 (by decide)).trans ((keep_opsD1 _ main_arg8 (by decide)).trans ((keep_opsC1 _ main_arg8 (by decide)).trans ((keep_opsB1 _ main_arg8 (by decide)).trans ((keep_opsR1 _ main_arg8 (by decide)).trans ((keep_opsA1 _ main_arg8 (by decide)).trans ((keep_opsD0 _ main_arg8 (by decide)).trans ((keep_opsC0 _ main_arg8 (by decide)).trans ((keep_opsB0 _ main_arg8 (by decide)).trans ((keep_opsR0 _ main_arg8 (by decide)).trans ((keep_opsA0 _ main_arg8 (by decide)).trans (keep_opsP _ main_arg8 (by decide)))))))))))))))))

/-- The reference program's run: every weakly fair execution terminates with the result buffer at the last stage function
    of the argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v170)
        = val_main_v170 (F := Ideal) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v170).trans (result_value (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c))⟩)
    (run_after m ρ)

end Cert.Sage.RefValue

end
-- ==== Proof.lean ====
/-
  The certificate of a three-layer graph network: a Pallas kernel for the dense part of each layer against its jnp
  reference, equal over the extended reals.

  Both programs first form the node features h = x · w_inᵀ + b_in and the reciprocal in-degrees, and then three times
  gather h along the edges' sources, add the gathered rows up at the edges' destinations, scale by the reciprocal
  degree (the aggregated features a), and apply the layer
      h' = normalise (max ((a · w_lᵀ + b_l) + h · w_rᵀ) 0),
  the normalisation being, per node, (v − mean v) · rsqrt (mean ((v − mean v)²) + ε) · γ + β over the node's 32
  features. The kernel program computes the layer in a launch over blocks of 10000 nodes (its casts to bf16 are the
  identity on the extended reals, its matrix products into a zero accumulator are the plain sums); everything else it
  does with the same host operations as the reference. At the extended reals the two programs apply literally the same
  operations in the same order, so no algebraic law joins the two sides and the precondition is never opened: the proof
  reads each program's operations at an index and follows the arrays through the programs.

  * the three frames: the kernel programs' from the generated frame certificates; the reference's from its run
    (Proof/RefValue.lean) with the result dropped;
  * `preserves`: the idealisation rewrote nothing;
  * `algebraic`: the kernel program's run ends with its result buffer at the reference's last stage function of the
    argument arrays (Proof/KernelRun.lean, Proof/KernelValue.lean), and so does the reference's (Proof/RefValue.lean).
-/
import proofs.«174114_j74036646248566_1_alg».proof.Defs
import proofs.«174114_j74036646248566_1_alg».proof.Proof.Gen.Kernel
import proofs.«174114_j74036646248566_1_alg».proof.Proof.Gen.Kernel.Skeleton
import proofs.«174114_j74036646248566_1_alg».proof.Proof.Gen.Kernel.Launch
import proofs.«174114_j74036646248566_1_alg».proof.Proof.Gen.Kernel.Points
import proofs.«174114_j74036646248566_1_alg».proof.Proof.Gen.Kernel.Frame
import proofs.«174114_j74036646248566_1_alg».proof.Proof.Gen.KernelIdeal
import proofs.«174114_j74036646248566_1_alg».proof.Proof.Gen.KernelIdeal.Skeleton
import proofs.«174114_j74036646248566_1_alg».proof.Proof.Gen.KernelIdeal.Launch
import proofs.«174114_j74036646248566_1_alg».proof.Proof.Gen.KernelIdeal.Points
import proofs.«174114_j74036646248566_1_alg».proof.Proof.Gen.KernelIdeal.Frame
import proofs.«174114_j74036646248566_1_alg».proof.Proof.Gen.ReferenceIdeal
import proofs.«174114_j74036646248566_1_alg».proof.Proof.Gen.Pre_finite_inputs
import proofs.«174114_j74036646248566_1_alg».proof.Proof.KernelRun
import proofs.«174114_j74036646248566_1_alg».proof.Proof.KernelValue
import proofs.«174114_j74036646248566_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.Sage.RefValue.run m ρ)

/-- The idealisation rewrote no operation. -/
theorem preserves : Cert.preserves_Kernel_KernelIdeal := trivial

/-- The kernel program's run: the result buffer ends at the reference's last stage function of the argument arrays. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v85)
        = Cert.ReferenceIdeal.ReadP.val_main_v170 (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun r h c => ⟨(h c).1.trans (Cert.Sage.KValue.result_value m ρ c), (h c).2⟩)
    (Cert.Sage.KRun.run_named m ρ)

/-- From memories that agree on the arguments both programs end with the same result: each at the reference's last stage
    function of its own argument arrays, which agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩) (Cert.Sage.RefValue.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
